-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S768x256 : Shape := ⟨2, ![768, 256]⟩
abbrev S768 : Shape := ⟨1, ![768]⟩
abbrev S2304x768 : Shape := ⟨2, ![2304, 768]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_

variable [Facts]

def fn_part1 {F : FTy → Type} [FloatOps F] (main_arg4 : FVec F S768 .f32) (main_arg5 : FVec F S2304x768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S2304x768 .f32 := Host.absf main_arg5
  let main_cst_8 : FVec F S_ .f32 := constant S_ .f32 0x7F800000#32
  let main_v25 : FVec F S2304x768 .f32 := broadcastInDim S2304x768 ![] bcast_S_S2304x768 main_cst_8
  let main_v26 : IVec S2304x768 1 := cmpf .olt main_v24 main_v25
  let main_c_9 : IVec S_ 1 := constantI S_ 1 1#1
  let main_v27 : IVec S_ 1 := (fun x v => Host.reduce IntOp.andi x v reducesTo_S2304x768_S_d0_1 h_S_) main_v26 main_c_9
  let main_v28 : IVec S_ 1 := andi main_v23 main_v27
  main_v28

def fn {F : FTy → Type} [FloatOps F] (main_arg0 : FVec F S1024x1024 .f32) (main_arg1 : FVec F S768x256 .f32) (main_arg2 : FVec F S768 .f32) (main_arg3 : FVec F S768 .f32) (main_arg4 : FVec F S768 .f32) (main_arg5 : FVec F S2304x768 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S1024x1024 : Shape := ⟨2, ![1024, 1024]⟩
abbrev S768x256 : Shape := ⟨2, ![768, 256]⟩
abbrev S768 : Shape := ⟨1, ![768]⟩
abbrev S2304x768 : Shape := ⟨2, ![2304, 768]⟩
abbrev S64x16x64x16 : Shape := ⟨4, ![64, 16, 64, 16]⟩
abbrev S64x64x16x16 : Shape := ⟨4, ![64, 64, 16, 16]⟩
abbrev S4096x256 : Shape := ⟨2, ![4096, 256]⟩
abbrev S256x768 : Shape := ⟨2, ![256, 768]⟩
abbrev S768x2304 : Shape := ⟨2, ![768, 2304]⟩
abbrev S4096x2304 : Shape := ⟨2, ![4096, 2304]⟩
abbrev S512x256 : Shape := ⟨2, ![512, 256]⟩
abbrev S512x2304 : Shape := ⟨2, ![512, 2304]⟩
abbrev S512x768 : Shape := ⟨2, ![512, 768]⟩
abbrev S1x768 : Shape := ⟨2, ![1, 768]⟩
abbrev S512 : Shape := ⟨1, ![512]⟩
abbrev S512x1 : Shape := ⟨2, ![512, 1]⟩
abbrev S4096x3x12x64 : Shape := ⟨4, ![4096, 3, 12, 64]⟩
abbrev S3x12x4096x64 : Shape := ⟨4, ![3, 12, 4096, 64]⟩
abbrev S12x4096x64 : Shape := ⟨3, ![12, 4096, 64]⟩
abbrev S1x1x1024x64 : Shape := ⟨4, ![1, 1, 1024, 64]⟩
abbrev S1x1x512x64 : Shape := ⟨4, ![1, 1, 512, 64]⟩
abbrev S1x1024x64 : Shape := ⟨3, ![1, 1024, 64]⟩
abbrev S1024x1 : Shape := ⟨2, ![1024, 1]⟩
abbrev S1024x64 : Shape := ⟨2, ![1024, 64]⟩
abbrev S512x64 : Shape := ⟨2, ![512, 64]⟩
abbrev S64x512 : Shape := ⟨2, ![64, 512]⟩
abbrev S1024x512 : Shape := ⟨2, ![1024, 512]⟩
abbrev S1024 : Shape := ⟨1, ![1024]⟩
abbrev S4096x12x64 : Shape := ⟨3, ![4096, 12, 64]⟩
abbrev S4096x768 : Shape := ⟨2, ![4096, 768]⟩
abbrev S1x4096x768 : Shape := ⟨3, ![1, 4096, 768]⟩

abbrev nBuf : Space → Nat
  | .hbm => 21
  | .vmem => 20
  | .smem => 0
  | _ => 0

abbrev bufTy : (tb : Table) → Fin (tcTables nBuf tb) → BufTy
  | .hbm, ⟨0, _⟩ => ⟨S1024x1024, .f32⟩
  | .hbm, ⟨1, _⟩ => ⟨S768x256, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S2304x768, .f32⟩
  | .hbm, ⟨6, _⟩ => ⟨S64x16x64x16, .f32⟩
  | .hbm, ⟨7, _⟩ => ⟨S64x64x16x16, .f32⟩
  | .hbm, ⟨8, _⟩ => ⟨S4096x256, .f32⟩
  | .hbm, ⟨9, _⟩ => ⟨S4096x256, .bf16⟩
  | .hbm, ⟨10, _⟩ => ⟨S256x768, .f32⟩
  | .hbm, ⟨11, _⟩ => ⟨S256x768, .bf16⟩
  | .hbm, ⟨12, _⟩ => ⟨S768x2304, .f32⟩
  | .hbm, ⟨13, _⟩ => ⟨S768x2304, .bf16⟩
  | .hbm, ⟨14, _⟩ => ⟨S4096x2304, .bf16⟩
  | .hbm, ⟨15, _⟩ => ⟨S4096x3x12x64, .bf16⟩
  | .hbm, ⟨16, _⟩ => ⟨S3x12x4096x64, .bf16⟩
  | .hbm, ⟨17, _⟩ => ⟨S12x4096x64, .f32⟩
  | .hbm, ⟨18, _⟩ => ⟨S4096x12x64, .f32⟩
  | .hbm, ⟨19, _⟩ => ⟨S4096x768, .f32⟩
  | .hbm, ⟨20, _⟩ => ⟨S1x4096x768, .f32⟩
  | .local _ .vmem, ⟨0, _⟩ => ⟨S512x256, .bf16⟩
  | .local _ .vmem, ⟨1, _⟩ => ⟨S512x256, .bf16⟩
  | .local _ .vmem, ⟨2, _⟩ => ⟨S256x768, .bf16⟩
  | .local _ .vmem, ⟨3, _⟩ => ⟨S768, .f32⟩
  | .local _ .vmem, ⟨4, _⟩ => ⟨S768, .f32⟩
  | .local _ .vmem, ⟨5, _⟩ => ⟨S768, .f32⟩
  | .local _ .vmem, ⟨6, _⟩ => ⟨S768x2304, .bf16⟩
  | .local _ .vmem, ⟨7, _⟩ => ⟨S512x2304, .bf16⟩
  | .local _ .vmem, ⟨8, _⟩ => ⟨S512x2304, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x512x64, .bf16⟩
  | .local _ .vmem, ⟨12, _⟩ => ⟨S1x1x512x64, .bf16⟩
  | .local _ .vmem, ⟨13, _⟩ => ⟨S1x1x512x64, .bf16⟩
  | .local _ .vmem, ⟨14, _⟩ => ⟨S1x1x512x64, .bf16⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![12, 4, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_30 : BitVec 32 := 0#32
  let v45 : BitVec 1 := Scalar.cmpi .ne v44 c0_i32_30
  v45

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S1024x1024_S64x16x64x16 : S1024x1024.ShapeCasts S64x16x64x16
  transposes_S64x16x64x16_S64x64x16x16_0_2_1_3 : S64x16x64x16.Transposes [0, 2, 1, 3] S64x64x16x16
  shapeCasts_S64x64x16x16_S4096x256 : S64x64x16x16.ShapeCasts S4096x256
  bitsLt_bf16_f32 : FTy.bits .bf16 < FTy.bits .f32
  transposes_S768x256_S256x768_1_0 : S768x256.Transposes [1, 0] S256x768
  transposes_S2304x768_S768x2304_1_0 : S2304x768.Transposes [1, 0] S768x2304
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  reduces_S512x768_S512 : S512x768.Reduces [1] S512
  shapeCasts_S512_S512x1 : S512.ShapeCasts S512x1
  broadcasts_S512x1_S512x768 : S512x1.Broadcasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S4096x2304_S4096x3x12x64 : S4096x2304.ShapeCasts S4096x3x12x64
  transposes_S4096x3x12x64_S3x12x4096x64_1_2_0_3 : S4096x3x12x64.Transposes [1, 2, 0, 3] S3x12x4096x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  transposes_S12x4096x64_S4096x12x64_1_0_2 : S12x4096x64.Transposes [1, 0, 2] S4096x12x64
  shapeCasts_S4096x12x64_S4096x768 : S4096x12x64.ShapeCasts S4096x768
  bcast_S4096x768_S1x4096x768_1_2 : S4096x768.BroadcastsInDim S1x4096x768 (![1, 2] : Fin 2 → Fin S1x4096x768.rank)
  dot_S512x256_S256x768_S512x768_1_0_0_1_n_n_wf : DotDims.WF S512x256 S256x768 S512x768 [1] [0] [0] [1] [] []
  dot_S512x768_S768x2304_S512x2304_1_0_0_1_n_n_wf : DotDims.WF S512x768 S768x2304 S512x2304 [1] [0] [0] [1] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x2304.size a ≤ S768x2304.size a
  hwx0_5 : ∀ i : grid0.Coords, EltTy.bits .bf16 = 32 ∨ (Rect.block (s := S768x2304) S768x2304.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2304.size a ≤ S4096x2304.size a
  hwx0_6 : ∀ i : grid0.Coords, EltTy.bits .bf16 = 32 ∨ (Rect.block (s := S4096x2304) S512x2304.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S3x12x4096x64.size a
  hwx1_0 : ∀ i : grid1.Coords, EltTy.bits .bf16 = 32 ∨ (Rect.block (s := S3x12x4096x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x64.size a ≤ S3x12x4096x64.size a
  hwx1_1 : ∀ i : grid1.Coords, EltTy.bits .bf16 = 32 ∨ (Rect.block (s := S3x12x4096x64) S1x1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x64.size a ≤ S3x12x4096x64.size a
  hwx1_2 : ∀ i : grid1.Coords, EltTy.bits .bf16 = 32 ∨ (Rect.block (s := S3x12x4096x64) S1x1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S12x4096x64.size a
  hwx1_3 : ∀ i : grid1.Coords, EltTy.bits .f32 = 32 ∨ (Rect.block (s := S12x4096x64) S1x1024x64.size (cc1_transform_3 i) (hinb1_3 i)).WholeWords (EltTy.packing .f32)

variable [Facts₀]

def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v3) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x2304.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x2304.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x1024 : Shape := ⟨2, ![1024, 1024]⟩
abbrev S768x256 : Shape := ⟨2, ![768, 256]⟩
abbrev S768 : Shape := ⟨1, ![768]⟩
abbrev S2304x768 : Shape := ⟨2, ![2304, 768]⟩
abbrev S64x16x64x16 : Shape := ⟨4, ![64, 16, 64, 16]⟩
abbrev S64x64x16x16 : Shape := ⟨4, ![64, 64, 16, 16]⟩
abbrev S4096x256 : Shape := ⟨2, ![4096, 256]⟩
abbrev S256x768 : Shape := ⟨2, ![256, 768]⟩
abbrev S4096x768 : Shape := ⟨2, ![4096, 768]⟩
abbrev S1x768 : Shape := ⟨2, ![1, 768]⟩
abbrev S_ : Shape := ⟨0, ![]⟩
abbrev S4096 : Shape := ⟨1, ![4096]⟩
abbrev S4096x1 : Shape := ⟨2, ![4096, 1]⟩
abbrev S768x2304 : Shape := ⟨2, ![768, 2304]⟩
abbrev S4096x2304 : Shape := ⟨2, ![4096, 2304]⟩
abbrev S4096x3x12x64 : Shape := ⟨4, ![4096, 3, 12, 64]⟩
abbrev S4096x1x12x64 : Shape := ⟨4, ![4096, 1, 12, 64]⟩
abbrev S4096x12x64 : Shape := ⟨3, ![4096, 12, 64]⟩
abbrev S12x4096x64 : Shape := ⟨3, ![12, 4096, 64]⟩
abbrev S12x4096x4096 : Shape := ⟨3, ![12, 4096, 4096]⟩
abbrev S12x4096 : Shape := ⟨2, ![12, 4096]⟩
abbrev S12x4096x1 : Shape := ⟨3, ![12, 4096, 1]⟩
abbrev S1x4096x768 : Shape := ⟨3, ![1, 4096, 768]⟩

abbrev nBuf : Space → Nat
  | .hbm => 77
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S768x256, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S2304x768, .f32⟩
  | .hbm, ⟨6, _⟩ => ⟨S64x16x64x16, .f32⟩
  | .hbm, ⟨7, _⟩ => ⟨S64x64x16x16, .f32⟩
  | .hbm, ⟨8, _⟩ => ⟨S4096x256, .f32⟩
  | .hbm, ⟨9, _⟩ => ⟨S256x768, .f32⟩
  | .hbm, ⟨10, _⟩ => ⟨S4096x768, .f32⟩
  | .hbm, ⟨11, _⟩ => ⟨S1x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x768, .f32⟩
  | .hbm, ⟨30, _⟩ => ⟨S4096x768, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x768, .f32⟩
  | .hbm, ⟨36, _⟩ => ⟨S4096x768, .f32⟩
  | .hbm, ⟨37, _⟩ => ⟨S1x768, .f32⟩
  | .hbm, ⟨38, _⟩ => ⟨S4096x768, .f32⟩
  | .hbm, ⟨39, _⟩ => ⟨S4096x768, .f32⟩
  | .hbm, ⟨40, _⟩ => ⟨S1x768, .f32⟩
  | .hbm, ⟨41, _⟩ => ⟨S4096x768, .f32⟩
  | .hbm, ⟨42, _⟩ => ⟨S4096x768, .f32⟩
  | .hbm, ⟨43, _⟩ => ⟨S768x2304, .f32⟩
  | .hbm, ⟨44, _⟩ => ⟨S4096x2304, .f32⟩
  | .hbm, ⟨45, _⟩ => ⟨S4096x3x12x64, .f32⟩
  | .hbm, ⟨46, _⟩ => ⟨S4096x1x12x64, .f32⟩
  | .hbm, ⟨47, _⟩ => ⟨S4096x12x64, .f32⟩
  | .hbm, ⟨48, _⟩ => ⟨S12x4096x64, .f32⟩
  | .hbm, ⟨49, _⟩ => ⟨S4096x1x12x64, .f32⟩
  | .hbm, ⟨50, _⟩ => ⟨S4096x12x64, .f32⟩
  | .hbm, ⟨51, _⟩ => ⟨S12x4096x64, .f32⟩
  | .hbm, ⟨52, _⟩ => ⟨S4096x1x12x64, .f32⟩
  | .hbm, ⟨53, _⟩ => ⟨S4096x12x64, .f32⟩
  | .hbm, ⟨54, _⟩ => ⟨S12x4096x64, .f32⟩
  | .hbm, ⟨55, _⟩ => ⟨S12x4096x4096, .f32⟩
  | .hbm, ⟨56, _⟩ => ⟨S_, .f32⟩
  | .hbm, ⟨57, _⟩ => ⟨S12x4096x4096, .f32⟩
  | .hbm, ⟨58, _⟩ => ⟨S12x4096x4096, .f32⟩
  | .hbm, ⟨59, _⟩ => ⟨S_, .f32⟩
  | .hbm, ⟨60, _⟩ => ⟨S12x4096, .f32⟩
  | .hbm, ⟨61, _⟩ => ⟨S_, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S_, .f32⟩
  | .hbm, ⟨69, _⟩ => ⟨S12x4096, .f32⟩
  | .hbm, ⟨70, _⟩ => ⟨S12x4096x1, .f32⟩
  | .hbm, ⟨71, _⟩ => ⟨S12x4096x4096, .f32⟩
  | .hbm, ⟨72, _⟩ => ⟨S12x4096x4096, .f32⟩
  | .hbm, ⟨73, _⟩ => ⟨S12x4096x64, .f32⟩
  | .hbm, ⟨74, _⟩ => ⟨S4096x12x64, .f32⟩
  | .hbm, ⟨75, _⟩ => ⟨S4096x768, .f32⟩
  | .hbm, ⟨76, _⟩ => ⟨S1x4096x768, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]

class Facts₀ : Prop where
  shapeCasts_S1024x1024_S64x16x64x16 : S1024x1024.ShapeCasts S64x16x64x16
  transposes_S64x16x64x16_S64x64x16x16_0_2_1_3 : S64x16x64x16.Transposes [0, 2, 1, 3] S64x64x16x16
  shapeCasts_S64x64x16x16_S4096x256 : S64x64x16x16.ShapeCasts S4096x256
  transposes_S768x256_S256x768_1_0 : S768x256.Transposes [1, 0] S256x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  transposes_S2304x768_S768x2304_1_0 : S2304x768.Transposes [1, 0] S768x2304
  shapeCasts_S4096x2304_S4096x3x12x64 : S4096x2304.ShapeCasts S4096x3x12x64
  slices_S4096x3x12x64_S4096x1x12x64_0_0_0_0 : S4096x3x12x64.Slices ![0, 0, 0, 0] S4096x1x12x64
  shapeCasts_S4096x1x12x64_S4096x12x64 : S4096x1x12x64.ShapeCasts S4096x12x64
  transposes_S4096x12x64_S12x4096x64_1_0_2 : S4096x12x64.Transposes [1, 0, 2] S12x4096x64
  slices_S4096x3x12x64_S4096x1x12x64_0_1_0_0 : S4096x3x12x64.Slices ![0, 1, 0, 0] S4096x1x12x64
  slices_S4096x3x12x64_S4096x1x12x64_0_2_0_0 : S4096x3x12x64.Slices ![0, 2, 0, 0] S4096x1x12x64
  bcast_S_S12x4096x4096 : S_.BroadcastsInDim S12x4096x4096 (![] : Fin 0 → Fin S12x4096x4096.rank)
  reducesTo_S12x4096x4096_S12x4096_d2 : S12x4096x4096.ReducesTo [2] S12x4096
  bcast_S_S12x4096 : S_.BroadcastsInDim S12x4096 (![] : Fin 0 → Fin S12x4096.rank)
  bcast_S12x4096_S12x4096x1_0_1 : S12x4096.BroadcastsInDim S12x4096x1 (![0, 1] : Fin 2 → Fin S12x4096x1.rank)
  bcast_S12x4096x1_S12x4096x4096_0_1_2 : S12x4096x1.BroadcastsInDim S12x4096x4096 (![0, 1, 2] : Fin 3 → Fin S12x4096x4096.rank)
  transposes_S12x4096x64_S4096x12x64_1_0_2 : S12x4096x64.Transposes [1, 0, 2] S4096x12x64
  shapeCasts_S4096x12x64_S4096x768 : S4096x12x64.ShapeCasts S4096x768
  bcast_S4096x768_S1x4096x768_1_2 : S4096x768.BroadcastsInDim S1x4096x768 (![1, 2] : Fin 2 → Fin S1x4096x768.rank)
  dot_S4096x256_S256x768_S4096x768_1_0_0_1_n_n_wf : DotDims.WF S4096x256 S256x768 S4096x768 [1] [0] [0] [1] [] []
  dot_S4096x768_S768x2304_S4096x2304_1_0_0_1_n_n_wf : DotDims.WF S4096x768 S768x2304 S4096x2304 [1] [0] [0] [1] [] []
  dot_S12x4096x64_S12x4096x64_S12x4096x4096_2_2_1_1_0_0_wf : DotDims.WF S12x4096x64 S12x4096x64 S12x4096x4096 [2] [2] [1] [1] [0] [0]
  dot_S12x4096x4096_S12x4096x64_S12x4096x64_2_1_1_2_0_0_wf : DotDims.WF S12x4096x4096 S12x4096x64 S12x4096x64 [2] [1] [1] [2] [0] [0]

variable [Facts₀]

def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S4096x768_S768x2304_S4096x2304_1_0_0_1_n_n : DotDims S4096x768 S768x2304 S4096x2304 where
  lhsContracting := [1]
  rhsContracting := [0]
  lhsNonContracting := [0]
  rhsNonContracting := [1]
  lhsBatch := []
  rhsBatch := []
  wf := dot_S4096x768_S768x2304_S4096x2304_1_0_0_1_n_n_wf
def dot_S12x4096x64_S12x4096x64_S12x4096x4096_2_2_1_1_0_0 : DotDims S12x4096x64 S12x4096x64 S12x4096x4096 where
  lhsContracting := [2]
  rhsContracting := [2]
  lhsNonContracting := [1]
  rhsNonContracting := [1]
  lhsBatch := [0]
  rhsBatch := [0]
  wf := dot_S12x4096x64_S12x4096x64_S12x4096x4096_2_2_1_1_0_0_wf
def dot_S12x4096x4096_S12x4096x64_S12x4096x64_2_1_1_2_0_0 : DotDims S12x4096x4096 S12x4096x64 S12x4096x64 where
  lhsContracting := [2]
  rhsContracting := [1]
  lhsNonContracting := [1]
  rhsNonContracting := [2]
  lhsBatch := [0]
  rhsBatch := [0]
  wf := dot_S12x4096x4096_S12x4096x64_S12x4096x64_2_1_1_2_0_0_wf

class Facts : Prop extends Facts₀ where

variable [Facts]
-- ==== Proof.RefFrame.lean ====
/-
  The reference program's frame: it is a straight line of host operations, so every weakly fair execution runs to
  the end without a fault and writes only its own intermediate buffers; the argument arrays are read and never
  written. The statement is the generated run of the reference with its result forgotten.
-/
import proofs.«139566_j53790170415805_2_alg».proof.Defs
import proofs.«139566_j53790170415805_2_alg».proof.Proof.Gen.ReferenceIdeal
import proofs.«139566_j53790170415805_2_alg».proof.Proof.Gen.Pre_finite_inputs
import proofs.«139566_j53790170415805_2_alg».proof.Proof.Gen.ReferenceIdeal.Run
import proofs.«139566_j53790170415805_2_alg».proof.Proof.Gen.ReferenceIdeal.Read

noncomputable section

namespace Cert.Proof.RefFrame

open Idealize.ShloMosaic Idealize.SL.Sem

/-- The reference terminates, faults nowhere, and leaves its six argument arrays as it found them. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The mathematics both programs compute, over the extended reals, as functions of the six argument arrays read
  coordinate by coordinate. No program is mentioned here.

  A 1024 × 1024 image is cut into 64 × 64 patches of 16 × 16 pixels; patch `n` (row-major over the patch grid) is a
  row of 256 pixels. Each patch is projected to 768 features and a bias added (`tok`); each token is normalised over
  its features — mean, variance, `(t - mean) · (var + ε)^(-1/2) · g + b` — (`lnorm`); the normalised tokens are projected
  to 2304 = 3 · 12 · 64 features (`qkv`), read as queries, keys and values of 12 heads of width 64. Per head and query
  row the scores against all 4096 keys are scaled by 1/8, soft-maxed over the keys, and the values averaged under
  those weights. The result's feature `h · 64 + d` of token `n` is head `h`'s average at `(n, d)`.

  Two forms of the attention are stated: the UNBLOCKED one (scale the dot product, subtract the row maximum,
  exponentiate, divide each weight by the row's sum, average the values) and the STREAMED one (the query scaled before
  the dot product; eight blocks of 512 keys folded one after the other into a running maximum, a running denominator and
  a running numerator, each rescaled by `exp (old maximum - new maximum)`; one division at the end).
-/
import Idealize.ShloMosaic.PureOps.Ideal

noncomputable section

namespace Cert.Spec

open Idealize.ShloMosaic

/-! ## The float words both programs spell -/

/-- `768.0`, the feature count both means divide by. -/
def w768 : EReal := Ideal.ofBits .f32 0x44400000#32
/-- The normalisation's `ε`: the single-precision word nearest `1e-6`. -/
def wEps : EReal := Ideal.ofBits .f32 0x358637BD#32
/-- `0.125` as the single-precision word (the unblocked form scales the scores by it), -/
def wEighth : EReal := Ideal.ofBits .f32 0x3E000000#32
/-- and as the half-width word (the streamed form scales the queries by it). -/
def wEighthB : EReal := Ideal.ofBits .bf16 0x3E00#16
/-- `-∞`, from which both forms start a maximum. -/
def wNegInf : EReal := Ideal.ofBits .f32 0xFF800000#32

theorem w768_eq : w768 = ((768 : ℝ) : EReal) := by
  unfold w768; simp [Ideal.ofBits, Ideal.ieee, -EReal.coe_mul]; norm_num
theorem wEighth_eq : wEighth = ((1 / 8 : ℝ) : EReal) := by
  unfold wEighth; simp [Ideal.ofBits, Ideal.ieee, -EReal.coe_mul]; norm_num
theorem wEighthB_eq : wEighthB = ((1 / 8 : ℝ) : EReal) := by
  unfold wEighthB; simp [Ideal.ofBits, Ideal.ieee, -EReal.coe_mul]; norm_num
theorem wNegInf_eq : wNegInf = ⊥ := by
  unfold wNegInf; simp [Ideal.ofBits, Ideal.ieee]
/-- `ε` is a positive real number (its exact value is never needed). -/
theorem wEps_pos : ∃ e : ℝ, 0 < e ∧ wEps = (e : EReal) := by
  unfold wEps; simp [Ideal.ofBits, Ideal.ieee, -EReal.coe_mul]

section
variable (x : Fin 1024 → Fin 1024 → EReal) (pw : Fin 768 → Fin 256 → EReal) (pb g b : Fin 768 → EReal)
  (qw : Fin 2304 → Fin 768 → EReal)

/-! ## Patches, tokens, normalisation, projection -/

/-- Pixel `p` of patch `n`: patch `n` sits at patch-row `n / 64`, patch-column `n % 64`; pixel `p` at row `p / 16`, column `p % 16` in it. -/
def patchRow (n : Fin 4096) (p : Fin 256) : Fin 1024 := ⟨(n.val / 64) * 16 + p.val / 16, by omega⟩
def patchCol (n : Fin 4096) (p : Fin 256) : Fin 1024 := ⟨(n.val % 64) * 16 + p.val % 16, by omega⟩
def patch (n : Fin 4096) (p : Fin 256) : EReal := x (patchRow n p) (patchCol n p)

/-- The embedded token: the patch against each feature's 256 weights, plus the bias. -/
def tok (n : Fin 4096) (e : Fin 768) : EReal := (∑ p : Fin 256, patch x n p * pw e p) + pb e
/-- A token's mean over its 768 features, -/
def mean (n : Fin 4096) : EReal := Ideal.div (∑ e : Fin 768, tok x pw pb n e) w768
/-- the centred token, -/
def cen (n : Fin 4096) (e : Fin 768) : EReal := tok x pw pb n e - mean x pw pb n
/-- its variance, -/
def var (n : Fin 4096) : EReal := Ideal.div (∑ e : Fin 768, cen x pw pb n e * cen x pw pb n e) w768
/-- and the normalised token. -/
def lnorm (n : Fin 4096) (e : Fin 768) : EReal :=
  cen x pw pb n e * Ideal.rsqrt (var x pw pb n + wEps) * g e + b e
/-- The 2304 projected features of token `n`. -/
def qkv (n : Fin 4096) (j : Fin 2304) : EReal := ∑ e : Fin 768, lnorm x pw pb g b n e * qw j e

/-- Feature `s · 768 + h · 64 + d`: part `s` (0 queries, 1 keys, 2 values), head `h`, lane `d`. -/
def feat (s : Fin 3) (h : Fin 12) (d : Fin 64) : Fin 2304 := ⟨s.val * 768 + h.val * 64 + d.val, by omega⟩
def qh (h : Fin 12) (n : Fin 4096) (d : Fin 64) : EReal := qkv x pw pb g b qw n (feat 0 h d)
def kh (h : Fin 12) (n : Fin 4096) (d : Fin 64) : EReal := qkv x pw pb g b qw n (feat 1 h d)
def vh (h : Fin 12) (n : Fin 4096) (d : Fin 64) : EReal := qkv x pw pb g b qw n (feat 2 h d)
end

/-! ## Attention of one head, over abstract queries, keys and values -/

section
variable (q k v : Fin 4096 → Fin 64 → EReal)

/-- UNBLOCKED: the scaled score of query row `n` against key `m`, -/
def scoreU (n m : Fin 4096) : EReal := (∑ d : Fin 64, q n d * k m d) * wEighth
/-- the row's maximum (a maximum started from `-∞`), -/
def rowMaxU (n : Fin 4096) : EReal := (Finset.univ : Finset (Fin 4096)).fold max wNegInf (scoreU q k n)
/-- each key's weight, -/
def weightU (n m : Fin 4096) : EReal := Ideal.exp (scoreU q k n m - rowMaxU q k n)
/-- and the average of the values under the normalised weights. -/
def attnU (n : Fin 4096) (d : Fin 64) : EReal :=
  ∑ m : Fin 4096, Ideal.div (weightU q k n m) (∑ m' : Fin 4096, weightU q k n m') * v m d

/-- Key `x` of block `j` of 512 keys (`j < 8`). -/
def keyOf (j : Fin 8) (x : Fin 512) : Fin 4096 := ⟨j.val * 512 + x.val, by omega⟩
/-- STREAMED: the score with the query scaled first, -/
def scoreS (n m : Fin 4096) : EReal := ∑ d : Fin 64, (q n d * wEighthB) * k m d
/-- the largest score of block `j`, -/
def blockMax (n : Fin 4096) (j : Fin 8) : EReal :=
  (Finset.univ : Finset (Fin 512)).fold max wNegInf fun x => scoreS q k n (keyOf j x)

/-- the state after the first `j` blocks: running maximum, running denominator, running numerator at lane `d`. -/
def runMax (n : Fin 4096) : (j : ℕ) → EReal
  | 0 => wNegInf
  | j + 1 => if h : j < 8 then max (runMax n j) (blockMax q k n ⟨j, h⟩) else runMax n j
def runDen (n : Fin 4096) : (j : ℕ) → EReal
  | 0 => 0
  | j + 1 => if h : j < 8 then
      Ideal.exp (runMax q k n j - runMax q k n (j + 1)) * runDen n j
        + ∑ x : Fin 512, Ideal.exp (scoreS q k n (keyOf ⟨j, h⟩ x) - runMax q k n (j + 1))
    else runDen n j
def runNum (n : Fin 4096) (d : Fin 64) : (j : ℕ) → EReal
  | 0 => 0
  | j + 1 => if h : j < 8 then
      Ideal.exp (runMax q k n j - runMax q k n (j + 1)) * runNum n d j
        + ∑ x : Fin 512, Ideal.exp (scoreS q k n (keyOf ⟨j, h⟩ x) - runMax q k n (j + 1)) * v (keyOf ⟨j, h⟩ x) d
    else runNum n d j
/-- and the one division after the eighth block. -/
def attnS (n : Fin 4096) (d : Fin 64) : EReal := Ideal.div (runNum q k v n d 8) (runDen q k n 8)
end

/-! ## The result -/

section
variable (x : Fin 1024 → Fin 1024 → EReal) (pw : Fin 768 → Fin 256 → EReal) (pb g b : Fin 768 → EReal)
  (qw : Fin 2304 → Fin 768 → EReal)

/-- Feature `c` of token `n` in the result: head `c / 64`, lane `c % 64` — in the unblocked form, -/
def resultU (n : Fin 4096) (c : Fin 768) : EReal :=
  attnU (qh x pw pb g b qw ⟨c.val / 64, by omega⟩) (kh x pw pb g b qw ⟨c.val / 64, by omega⟩) (vh x pw pb g b qw ⟨c.val / 64, by omega⟩)
    n ⟨c.val % 64, Nat.mod_lt _ (by decide)⟩
/-- and in the streamed form. -/
def resultS (n : Fin 4096) (c : Fin 768) : EReal :=
  attnS (qh x pw pb g b qw ⟨c.val / 64, by omega⟩) (kh x pw pb g b qw ⟨c.val / 64, by omega⟩) (vh x pw pb g b qw ⟨c.val / 64, by omega⟩)
    n ⟨c.val % 64, Nat.mod_lt _ (by decide)⟩
end

end Cert.Spec

end
-- ==== Proof.RefValue.lean ====
/-
  The reference program read at an index: each stage of its straight line of host operations, at explicit
  coordinates, is the corresponding quantity of the specification — patches, tokens, the normalisation's mean,
  centred token and variance, the projected features, the three head slices, the scaled scores, the row maximum,
  the weights, their row sum, the weighted average, and the merge of the heads into the result.
-/
import proofs.«139566_j53790170415805_2_alg».proof.Defs
import proofs.«139566_j53790170415805_2_alg».proof.Proof.Gen.ReferenceIdeal
import proofs.«139566_j53790170415805_2_alg».proof.Proof.Gen.ReferenceIdeal.Run
import proofs.«139566_j53790170415805_2_alg».proof.Proof.Gen.ReferenceIdeal.Read
import proofs.«139566_j53790170415805_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (a0 : (⟨S1024x1024, .f32⟩ : BufTy).Contents (Elt Ideal)) (a1 : (⟨S768x256, .f32⟩ : BufTy).Contents (Elt Ideal))
  (a2 a3 a4 : (⟨S768, .f32⟩ : BufTy).Contents (Elt Ideal)) (a5 : (⟨S2304x768, .f32⟩ : BufTy).Contents (Elt Ideal))

/-! ## The six argument arrays, coordinate by coordinate -/

/-- The image, -/
abbrev aX : Fin 1024 → Fin 1024 → EReal := fun r s => a0 (ix2 r s)
/-- the patch projection's weights and bias, -/
abbrev aPW : Fin 768 → Fin 256 → EReal := fun e p => a1 (ix2 e p)
abbrev aPB : Fin 768 → EReal := fun e => a2 (ix1 e)
/-- the normalisation's gain and shift, -/
abbrev aG : Fin 768 → EReal := fun e => a3 (ix1 e)
abbrev aB : Fin 768 → EReal := fun e => a4 (ix1 e)
/-- and the feature projection's weights. -/
abbrev aQW : Fin 2304 → Fin 768 → EReal := fun j e => a5 (ix2 j e)

/-! ## Patches and tokens -/

/-- Reshape to (64, 16, 64, 16), swap the two middle axes, reshape to (4096, 256): entry (n, p) is the image at the
    patch's row and column. -/
theorem patch_idx (n : Fin 4096) (p : Fin 256) :
    idx_main_v0 (idx_main_v1 (idx_main_v2 (ix2 n p))) = ix2 (Cert.Spec.patchRow n p) (Cert.Spec.patchCol n p) := by
  have hn := n.isLt; have hp := p.isLt
  refine funext fun a => Fin.ext ?_
  have h1 : (n.val * 256 + p.val) / 16384 = n.val / 64 := by omega
  have h2 : (n.val * 256 + p.val) / 16 % 16 = p.val / 16 := by omega
  have h3 : (n.val * 256 + p.val) / 256 % 64 = n.val % 64 := by omega
  have h4 : (n.val * 256 + p.val) % 16 = p.val % 16 := by omega
  match a with
  | ⟨0, _⟩ =>
    show ((((n.val * 256 + p.val) / 16384 * 16 + (n.val * 256 + p.val) / 16 % 16) * 64 + (n.val * 256 + p.val) / 256 % 64) * 16
        + (n.val * 256 + p.val) % 16) / 1024 = n.val / 64 * 16 + p.val / 16
    rw [h1, h2, h3, h4]; omega
  | ⟨1, _⟩ =>
    show ((((n.val * 256 + p.val) / 16384 * 16 + (n.val * 256 + p.val) / 16 % 16) * 64 + (n.val * 256 + p.val) / 256 % 64) * 16
        + (n.val * 256 + p.val) % 16) % 1024 = n.val % 64 * 16 + p.val % 16
    rw [h1, h2, h3, h4]; omega

theorem patch_at (n : Fin 4096) (p : Fin 256) :
    val_main_v2 (F := Ideal) a0 (ix2 n p) = Cert.Spec.patch (aX a0) n p := by
  rw [val_main_v2_apply, val_main_v1_apply, val_main_v0_apply, patch_idx]
  rfl

/-- The transposed weights at (p, e) are the weights at (e, p). -/
theorem pw_at (p : Fin 256) (e : Fin 768) : val_main_v3 (F := Ideal) a1 (ix2 p e) = aPW a1 e p := by
  rw [val_main_v3_apply]
  have e1 : idx_main_v3 (ix2 p e) = ix2 e p := funext fun a => by match a with | ⟨0, _⟩ => rfl | ⟨1, _⟩ => rfl
  rw [e1]

/-- The embedded token. -/
theorem tok_at (n : Fin 4096) (e : Fin 768) :
    val_main_v7 (F := Ideal) a0 a1 a2 (ix2 n e) = Cert.Spec.tok (aX a0) (aPW a1) (aPB a2) n e := by
  rw [val_main_v7_apply, val_main_v4_apply, val_main_v6_apply, val_main_v5_apply]
  have el : ∀ k : Fin 256, lidx_main_v4 (ix2 n e) k = ix2 n k := fun k =>
    funext fun a => by match a with | ⟨0, _⟩ => rfl | ⟨1, _⟩ => rfl
  have er : ∀ k : Fin 256, ridx_main_v4 (ix2 n e) k = ix2 k e := fun k =>
    funext fun a => by match a with | ⟨0, _⟩ => rfl | ⟨1, _⟩ => rfl
  have eb : idx_main_v5 (idx_main_v6 (ix2 n e)) = ix1 e :=
    funext fun a => by match a with | ⟨0, _⟩ => rfl
  simp only [el, er, eb, patch_at, pw_at, Ideal.addf_def]
  rfl

/-! ## Normalisation -/

/-- The sum of a token's features (the host's sum starts from the zero word). -/
theorem sum_tok_at (n : Fin 4096) :
    val_main_v8 (F := Ideal) a0 a1 a2 (ix1 n) = ∑ e : Fin 768, Cert.Spec.tok (aX a0) (aPW a1) (aPB a2) n e := by
  rw [val_main_v8_apply, val_main_cst_apply]
  have ei : ∀ k : Fin 768, idx_main_v8 (ix1 n) k = ix2 n k := fun k => funext fun a => by match a with | ⟨0, _⟩ => rfl | ⟨1, _⟩ => rfl
  simp only [ei, tok_at, Ideal.ofBits_def, Ideal.ofBits_zero_f32, zero_add]

/-- The mean, kept as a column. -/
theorem mean_at (n : Fin 4096) (z : Fin 1) :
    val_main_v11 (F := Ideal) a0 a1 a2 (ix2 n z) = Cert.Spec.mean (aX a0) (aPW a1) (aPB a2) n := by
  rw [val_main_v11_apply, val_main_v9_apply, val_main_v10_apply, val_main_cst_0_apply]
  have e9 : idx_main_v9 (ix2 n z) = ix1 n := funext fun a => by match a with | ⟨0, _⟩ => rfl
  rw [e9, sum_tok_at]
  rfl

/-- The centred token (the program forms it twice, for the variance and for the normalised token). -/
theorem cen_at (n : Fin 4096) (e : Fin 768) :
    val_main_v13 (F := Ideal) a0 a1 a2 (ix2 n e) = Cert.Spec.cen (aX a0) (aPW a1) (aPB a2) n e := by
  rw [val_main_v13_apply, val_main_v12_apply, tok_at]
  have e12 : idx_main_v12 (ix2 n e) = ix2 n (⟨0, Nat.one_pos⟩ : Fin 1) := funext fun a => by match a with | ⟨0, _⟩ => rfl | ⟨1, _⟩ => rfl
  rw [e12, mean_at]
  rfl

theorem cen_at' (n : Fin 4096) (e : Fin 768) :
    val_main_v20 (F := Ideal) a0 a1 a2 (ix2 n e) = Cert.Spec.cen (aX a0) (aPW a1) (aPB a2) n e := by
  rw [val_main_v20_apply, val_main_v19_apply, tok_at]
  have e19 : idx_main_v19 (ix2 n e) = ix2 n (⟨0, Nat.one_pos⟩ : Fin 1) := funext fun a => by match a with | ⟨0, _⟩ => rfl | ⟨1, _⟩ => rfl
  rw [e19, mean_at]
  rfl

/-- The variance, kept as a column. -/
theorem var_at (n : Fin 4096) (z : Fin 1) :
    val_main_v18 (F := Ideal) a0 a1 a2 (ix2 n z) = Cert.Spec.var (aX a0) (aPW a1) (aPB a2) n := by
  have e16 : idx_main_v16 (ix2 n z) = ix1 n := funext fun a => by match a with | ⟨0, _⟩ => rfl
  have ei : ∀ k : Fin 768, idx_main_v15 (ix1 n) k = ix2 n k := fun k => funext fun a => by match a with | ⟨0, _⟩ => rfl | ⟨1, _⟩ => rfl
  rw [val_main_v18_apply, val_main_v16_apply, val_main_v17_apply, val_main_cst_2_apply, e16, val_main_v15_apply,
    val_main_cst_1_apply]
  simp only [ei, val_main_v14_apply, cen_at, Ideal.mulf_def, Ideal.ofBits_def, Ideal.ofBits_zero_f32, zero_add]
  rfl

/-- The normalised token. -/
theorem lnorm_at (n : Fin 4096) (e : Fin 768) :
    val_main_v31 (F := Ideal) a0 a1 a2 a3 a4 (ix2 n e) = Cert.Spec.lnorm (aX a0) (aPW a1) (aPB a2) (aG a3) (aB a4) n e := by
  have e24 : idx_main_v24 (ix2 n e) = ix2 n (⟨0, Nat.one_pos⟩ : Fin 1) := funext fun a => by match a with | ⟨0, _⟩ => rfl | ⟨1, _⟩ => rfl
  have e26 : idx_main_v26 (idx_main_v27 (ix2 n e)) = ix1 e := funext fun a => by match a with | ⟨0, _⟩ => rfl
  have e29 : idx_main_v29 (idx_main_v30 (ix2 n e)) = ix1 e := funext fun a => by match a with | ⟨0, _⟩ => rfl
  rw [val_main_v31_apply, val_main_v28_apply, val_main_v25_apply, val_main_v24_apply, e24, val_main_v23_apply,
    val_main_v22_apply, val_main_v21_apply, val_main_cst_3_apply, val_main_v27_apply, val_main_v26_apply, e26,
    val_main_v30_apply, val_main_v29_apply, e29, cen_at', var_at]
  rfl

/-! ## The projected features -/

/-- The transposed projection weights at (e, j) are the weights at (j, e). -/
theorem qw_at (e : Fin 768) (j : Fin 2304) : val_main_v32 (F := Ideal) a5 (ix2 e j) = aQW a5 j e := by
  have e1 : idx_main_v32 (ix2 e j) = ix2 j e := funext fun a => by match a with | ⟨0, _⟩ => rfl | ⟨1, _⟩ => rfl
  rw [val_main_v32_apply, e1]

theorem qkv_at (n : Fin 4096) (j : Fin 2304) :
    val_main_v33 (F := Ideal) a0 a1 a2 a3 a4 a5 (ix2 n j) = Cert.Spec.qkv (aX a0) (aPW a1) (aPB a2) (aG a3) (aB a4) (aQW a5) n j := by
  have el : ∀ k : Fin 768, lidx_main_v33 (ix2 n j) k = ix2 n k := fun k => funext fun a => by match a with | ⟨0, _⟩ => rfl | ⟨1, _⟩ => rfl
  have er : ∀ k : Fin 768, ridx_main_v33 (ix2 n j) k = ix2 k j := fun k => funext fun a => by match a with | ⟨0, _⟩ => rfl | ⟨1, _⟩ => rfl
  rw [val_main_v33_apply]
  simp only [el, er, lnorm_at, qw_at]
  rfl

/-! ## The three head slices

The 2304 features are read as (part, head, lane); a part is sliced out, its unit axis dropped, and heads brought to
the front: entry (h, n, d) is feature `part · 768 + h · 64 + d` of token n. -/

/-- Queries: part 0. -/
theorem q_idx (h : Fin 12) (n : Fin 4096) (d : Fin 64) :
    idx_main_v34 (idx_main_v35 (idx_main_v36 (idx_main_v37 (ix3 h n d)))) = ix2 n (Cert.Spec.feat 0 h d) := by
  have hh := h.isLt; have hn := n.isLt; have hd := d.isLt
  have h1 : ((n.val * 12 + h.val) * 64 + d.val) / 768 = n.val := by omega
  have h2 : ((n.val * 12 + h.val) * 64 + d.val) / 64 % 12 = h.val := by omega
  have h3 : ((n.val * 12 + h.val) * 64 + d.val) % 64 = d.val := by omega
  refine funext fun a => Fin.ext ?_
  match a with
  | ⟨0, _⟩ =>
    show ((((((n.val * 12 + h.val) * 64 + d.val) / 768) * 3 + 0) * 12 + ((n.val * 12 + h.val) * 64 + d.val) / 64 % 12) * 64
        + ((n.val * 12 + h.val) * 64 + d.val) % 64) / 2304 = n.val
    rw [h1, h2, h3]; omega
  | ⟨1, _⟩ =>
    show ((((((n.val * 12 + h.val) * 64 + d.val) / 768) * 3 + 0) * 12 + ((n.val * 12 + h.val) * 64 + d.val) / 64 % 12) * 64
        + ((n.val * 12 + h.val) * 64 + d.val) % 64) % 2304 = 0 * 768 + h.val * 64 + d.val
    rw [h1, h2, h3]; omega

theorem q_at (h : Fin 12) (n : Fin 4096) (d : Fin 64) :
    val_main_v37 (F := Ideal) a0 a1 a2 a3 a4 a5 (ix3 h n d) = Cert.Spec.qh (aX a0) (aPW a1) (aPB a2) (aG a3) (aB a4) (aQW a5) h n d := by
  rw [val_main_v37_apply, val_main_v36_apply, val_main_v35_apply, val_main_v34_apply, q_idx, qkv_at]
  rfl

/-- Keys: part 1. -/
theorem k_idx (h : Fin 12) (n : Fin 4096) (d : Fin 64) :
    idx_main_v34 (idx_main_v38 (idx_main_v39 (idx_main_v40 (ix3 h n d)))) = ix2 n (Cert.Spec.feat 1 h d) := by
  have hh := h.isLt; have hn := n.isLt; have hd := d.isLt
  have h1 : ((n.val * 12 + h.val) * 64 + d.val) / 768 = n.val := by omega
  have h2 : ((n.val * 12 + h.val) * 64 + d.val) / 64 % 12 = h.val := by omega
  have h3 : ((n.val * 12 + h.val) * 64 + d.val) % 64 = d.val := by omega
  refine funext fun a => Fin.ext ?_
  match a with
  | ⟨0, _⟩ =>
    show ((((((n.val * 12 + h.val) * 64 + d.val) / 768) * 3 + 1 + 0) * 12 + ((n.val * 12 + h.val) * 64 + d.val) / 64 % 12) * 64
        + ((n.val * 12 + h.val) * 64 + d.val) % 64) / 2304 = n.val
    rw [h1, h2, h3]; omega
  | ⟨1, _⟩ =>
    show ((((((n.val * 12 + h.val) * 64 + d.val) / 768) * 3 + 1 + 0) * 12 + ((n.val * 12 + h.val) * 64 + d.val) / 64 % 12) * 64
        + ((n.val * 12 + h.val) * 64 + d.val) % 64) % 2304 = 1 * 768 + h.val * 64 + d.val
    rw [h1, h2, h3]; omega

theorem k_at (h : Fin 12) (n : Fin 4096) (d : Fin 64) :
    val_main_v40 (F := Ideal) a0 a1 a2 a3 a4 a5 (ix3 h n d) = Cert.Spec.kh (aX a0) (aPW a1) (aPB a2) (aG a3) (aB a4) (aQW a5) h n d := by
  rw [val_main_v40_apply, val_main_v39_apply, val_main_v38_apply, val_main_v34_apply, k_idx, qkv_at]
  rfl

/-- Values: part 2. -/
theorem v_idx (h : Fin 12) (n : Fin 4096) (d : Fin 64) :
    idx_main_v34 (idx_main_v41 (idx_main_v42 (idx_main_v43 (ix3 h n d)))) = ix2 n (Cert.Spec.feat 2 h d) := by
  have hh := h.isLt; have hn := n.isLt; have hd := d.isLt
  have h1 : ((n.val * 12 + h.val) * 64 + d.val) / 768 = n.val := by omega
  have h2 : ((n.val * 12 + h.val) * 64 + d.val) / 64 % 12 = h.val := by omega
  have h3 : ((n.val * 12 + h.val) * 64 + d.val) % 64 = d.val := by omega
  refine funext fun a => Fin.ext ?_
  match a with
  | ⟨0, _⟩ =>
    show ((((((n.val * 12 + h.val) * 64 + d.val) / 768) * 3 + 2 + 0) * 12 + ((n.val * 12 + h.val) * 64 + d.val) / 64 % 12) * 64
        + ((n.val * 12 + h.val) * 64 + d.val) % 64) / 2304 = n.val
    rw [h1, h2, h3]; omega
  | ⟨1, _⟩ =>
    show ((((((n.val * 12 + h.val) * 64 + d.val) / 768) * 3 + 2 + 0) * 12 + ((n.val * 12 + h.val) * 64 + d.val) / 64 % 12) * 64
        + ((n.val * 12 + h.val) * 64 + d.val) % 64) % 2304 = 2 * 768 + h.val * 64 + d.val
    rw [h1, h2, h3]; omega

theorem v_at (h : Fin 12) (n : Fin 4096) (d : Fin 64) :
    val_main_v43 (F := Ideal) a0 a1 a2 a3 a4 a5 (ix3 h n d) = Cert.Spec.vh (aX a0) (aPW a1) (aPB a2) (aG a3) (aB a4) (aQW a5) h n d := by
  rw [val_main_v43_apply, val_main_v42_apply, val_main_v41_apply, val_main_v34_apply, v_idx, qkv_at]
  rfl

/-! ## Attention of one head -/

/-- The scaled score of query row n against key m. -/
theorem score_at (h : Fin 12) (n m : Fin 4096) :
    val_main_v46 (F := Ideal) a0 a1 a2 a3 a4 a5 (ix3 h n m) = Cert.Spec.scoreU (Cert.Spec.qh (aX a0) (aPW a1) (aPB a2) (aG a3) (aB a4) (aQW a5) h) (Cert.Spec.kh (aX a0) (aPW a1) (aPB a2) (aG a3) (aB a4) (aQW a5) h) n m := by
  have el : ∀ k : Fin 64, lidx_main_v44 (ix3 h n m) k = ix3 h n k := fun k => funext fun a => by match a with | ⟨0, _⟩ => rfl | ⟨1, _⟩ => rfl | ⟨2, _⟩ => rfl
  have er : ∀ k : Fin 64, ridx_main_v44 (ix3 h n m) k = ix3 h m k := fun k => funext fun a => by match a with | ⟨0, _⟩ => rfl | ⟨1, _⟩ => rfl | ⟨2, _⟩ => rfl
  rw [val_main_v46_apply, val_main_v44_apply, val_main_v45_apply, val_main_cst_4_apply]
  simp only [el, er, q_at, k_at]
  rfl

/-- Dropping the key axis of (head, row, key) leaves (head, row). -/
theorem red_max : S12x4096x4096.Reduces [2] S12x4096 := by decide

/-- The index (h, n) with key k put back is (h, n, k). -/
theorem lift_max (h : Fin 12) (n : Fin 4096) (k : Fin (S12x4096x4096.size 2)) :
    red_max.lift (ix2 h n) k = ix3 h n (⟨k.val, k.isLt⟩ : Fin 4096) := by
  refine funext fun a => Fin.ext ?_
  match a with
  | ⟨0, _⟩ => rfl
  | ⟨1, _⟩ => rfl
  | ⟨2, _⟩ => rfl

/-- A maximum started from -∞ and taken once more against -∞ is itself. -/
theorem max_negInf_fold {ι : Type} (s : Finset ι) (f : ι → EReal) :
    max Cert.Spec.wNegInf (s.fold max Cert.Spec.wNegInf f) = s.fold max Cert.Spec.wNegInf f := by
  rw [Cert.Spec.wNegInf_eq]; exact max_bot_left _

/-- The row maximum: the host folds the maximum over the key axis from -∞, then takes it against -∞ again. -/
theorem rowMax_at (h : Fin 12) (n : Fin 4096) :
    val_main_v49 (F := Ideal) a0 a1 a2 a3 a4 a5 (ix2 h n) = Cert.Spec.rowMaxU (Cert.Spec.qh (aX a0) (aPW a1) (aPB a2) (aG a3) (aB a4) (aQW a5) h) (Cert.Spec.kh (aX a0) (aPW a1) (aPB a2) (aG a3) (aB a4) (aQW a5) h) n := by
  have hf : (val_main_v46 (F := Ideal) a0 a1 a2 a3 a4 a5 ∘ red_max.lift (ix2 h n))
      = fun k : Fin 4096 => Cert.Spec.scoreU (Cert.Spec.qh (aX a0) (aPW a1) (aPB a2) (aG a3) (aB a4) (aQW a5) h) (Cert.Spec.kh (aX a0) (aPW a1) (aPB a2) (aG a3) (aB a4) (aQW a5) h) n k :=
    funext fun k => (congrArg (val_main_v46 (F := Ideal) a0 a1 a2 a3 a4 a5) (lift_max h n k)).trans
      (score_at a0 a1 a2 a3 a4 a5 h n ⟨k.val, k.isLt⟩)
  rw [val_main_v49_apply, val_main_v48_apply, val_main_cst_6_apply]
  unfold val_main_v47
  rw [Host.reduce_eq_fold_single FloatOps.maximumf _ _ reducesTo_S12x4096x4096_S12x4096_d2 red_max h_S_, val_main_cst_5_apply, hf]
  exact max_negInf_fold _ _

/-- Each key's weight. -/
theorem weight_at (h : Fin 12) (n m : Fin 4096) :
    val_main_v53 (F := Ideal) a0 a1 a2 a3 a4 a5 (ix3 h n m) = Cert.Spec.weightU (Cert.Spec.qh (aX a0) (aPW a1) (aPB a2) (aG a3) (aB a4) (aQW a5) h) (Cert.Spec.kh (aX a0) (aPW a1) (aPB a2) (aG a3) (aB a4) (aQW a5) h) n m := by
  have e51 : idx_main_v50 (idx_main_v51 (ix3 h n m)) = ix2 h n := funext fun a => by match a with | ⟨0, _⟩ => rfl | ⟨1, _⟩ => rfl
  rw [val_main_v53_apply, val_main_v52_apply, val_main_v51_apply, val_main_v50_apply, e51, score_at, rowMax_at]
  rfl

/-- The row's sum of weights. -/
theorem den_at (h : Fin 12) (n : Fin 4096) :
    val_main_v54 (F := Ideal) a0 a1 a2 a3 a4 a5 (ix2 h n) = ∑ m : Fin 4096, Cert.Spec.weightU (Cert.Spec.qh (aX a0) (aPW a1) (aPB a2) (aG a3) (aB a4) (aQW a5) h) (Cert.Spec.kh (aX a0) (aPW a1) (aPB a2) (aG a3) (aB a4) (aQW a5) h) n m := by
  have ei : ∀ k : Fin 4096, idx_main_v54 (ix2 h n) k = ix3 h n k := fun k => funext fun a => by match a with | ⟨0, _⟩ => rfl | ⟨1, _⟩ => rfl | ⟨2, _⟩ => rfl
  rw [val_main_v54_apply, val_main_cst_7_apply]
  simp only [ei, weight_at, Ideal.ofBits_def, Ideal.ofBits_zero_f32, zero_add]

/-- The normalised weight. -/
theorem prob_at (h : Fin 12) (n m : Fin 4096) :
    val_main_v57 (F := Ideal) a0 a1 a2 a3 a4 a5 (ix3 h n m)
      = Ideal.div (Cert.Spec.weightU (Cert.Spec.qh (aX a0) (aPW a1) (aPB a2) (aG a3) (aB a4) (aQW a5) h) (Cert.Spec.kh (aX a0) (aPW a1) (aPB a2) (aG a3) (aB a4) (aQW a5) h) n m) (∑ m' : Fin 4096, Cert.Spec.weightU (Cert.Spec.qh (aX a0) (aPW a1) (aPB a2) (aG a3) (aB a4) (aQW a5) h) (Cert.Spec.kh (aX a0) (aPW a1) (aPB a2) (aG a3) (aB a4) (aQW a5) h) n m') := by
  have e56 : idx_main_v55 (idx_main_v56 (ix3 h n m)) = ix2 h n := funext fun a => by match a with | ⟨0, _⟩ => rfl | ⟨1, _⟩ => rfl
  rw [val_main_v57_apply, val_main_v56_apply, val_main_v55_apply, e56, weight_at, den_at]
  rfl

/-- The average of the values under the normalised weights. -/
theorem attn_at (h : Fin 12) (n : Fin 4096) (d : Fin 64) :
    val_main_v58 (F := Ideal) a0 a1 a2 a3 a4 a5 (ix3 h n d) = Cert.Spec.attnU (Cert.Spec.qh (aX a0) (aPW a1) (aPB a2) (aG a3) (aB a4) (aQW a5) h) (Cert.Spec.kh (aX a0) (aPW a1) (aPB a2) (aG a3) (aB a4) (aQW a5) h) (Cert.Spec.vh (aX a0) (aPW a1) (aPB a2) (aG a3) (aB a4) (aQW a5) h) n d := by
  have el : ∀ k : Fin 4096, lidx_main_v58 (ix3 h n d) k = ix3 h n k := fun k => funext fun a => by match a with | ⟨0, _⟩ => rfl | ⟨1, _⟩ => rfl | ⟨2, _⟩ => rfl
  have er : ∀ k : Fin 4096, ridx_main_v58 (ix3 h n d) k = ix3 h k d := fun k => funext fun a => by match a with | ⟨0, _⟩ => rfl | ⟨1, _⟩ => rfl | ⟨2, _⟩ => rfl
  rw [val_main_v58_apply]
  simp only [el, er, prob_at, v_at]
  rfl

/-! ## The result -/

/-- Heads back behind the tokens, (head, lane) flattened to 768 features, a leading unit axis added: feature c of
    token n is head c / 64, lane c % 64. -/
theorem merge_idx (z : Fin 1) (n : Fin 4096) (c : Fin 768) :
    idx_main_v59 (idx_main_v60 (idx_main_v61 (ix3 z n c)))
      = ix3 (⟨c.val / 64, by have := c.isLt; omega⟩ : Fin 12) n (⟨c.val % 64, Nat.mod_lt _ (by decide)⟩ : Fin 64) := by
  have hn := n.isLt; have hc := c.isLt
  refine funext fun a => Fin.ext ?_
  match a with
  | ⟨0, _⟩ => show (n.val * 768 + c.val) / 64 % 12 = c.val / 64; omega
  | ⟨1, _⟩ => show (n.val * 768 + c.val) / 768 = n.val; omega
  | ⟨2, _⟩ => show (n.val * 768 + c.val) % 64 = c.val % 64; omega

theorem result_at_ix (z : Fin 1) (n : Fin 4096) (c : Fin 768) :
    val_main_v61 (F := Ideal) a0 a1 a2 a3 a4 a5 (ix3 z n c) = Cert.Spec.resultU (aX a0) (aPW a1) (aPB a2) (aG a3) (aB a4) (aQW a5) n c := by
  rw [val_main_v61_apply, val_main_v60_apply, val_main_v59_apply, merge_idx, attn_at]
  rfl

/-- The reference's result at an index is the specification's unblocked form at the index's token and feature. -/
theorem result_at (i : S1x4096x768.Idx) :
    val_main_v61 (F := Ideal) a0 a1 a2 a3 a4 a5 i
      = Cert.Spec.resultU (aX a0) (aPW a1) (aPB a2) (aG a3) (aB a4) (aQW a5) ⟨(i 1).val, (i 1).isLt⟩ ⟨(i 2).val, (i 2).isLt⟩ := by
  have e : i = ix3 (⟨(i 0).val, (i 0).isLt⟩ : Fin 1) (⟨(i 1).val, (i 1).isLt⟩ : Fin 4096) (⟨(i 2).val, (i 2).isLt⟩ : Fin 768) :=
    funext fun a => by match a with | ⟨0, _⟩ => rfl | ⟨1, _⟩ => rfl | ⟨2, _⟩ => rfl
  exact (congrArg (val_main_v61 (F := Ideal) a0 a1 a2 a3 a4 a5) e).trans (result_at_ix a0 a1 a2 a3 a4 a5 _ _ _)

/-- The same for the run's result term: what every weakly fair execution of the reference leaves in its result
    buffer, as a function of the launch contents of the six argument buffers. -/
theorem res_eq (m : (ℓ : Loc nD τ sig) → Buf (Elt Ideal) ℓ) (c : Dev nD) :
    Cert.ReferenceIdeal.Value.res_main_v61 (F := Ideal) m c
      = fun i : S1x4096x768.Idx => Cert.Spec.resultU (aX (m ((c.tc : Thread nD τ).loc main_arg0))) (aPW (m ((c.tc : Thread nD τ).loc main_arg1))) (aPB (m ((c.tc : Thread nD τ).loc main_arg2))) (aG (m ((c.tc : Thread nD τ).loc main_arg3))) (aB (m ((c.tc : Thread nD τ).loc main_arg4)))
          (aQW (m ((c.tc : Thread nD τ).loc main_arg5))) ⟨(i 1).val, (i 1).isLt⟩ ⟨(i 2).val, (i 2).isLt⟩ := by
  rw [val_main_v61_eq]
  exact funext fun i => result_at _ _ _ _ _ _ i

end Cert.ReferenceIdeal.RefValue

end
-- ==== Proof.KRegion0.lean ====
/-
  Region 0 of the program (its first kernel region: a projection, a layer normalisation and a second projection, over
  a grid of 8 row blocks): the proof data of its pipeline and the body's obligation at every point, at any contents
  `V` of the TensorCore's buffers when the region is entered and for any float instance.

  The body has one control path: it loads its six input windows' staging buffers whole, computes, loads the output
  window's staging buffer (a value nothing reads) and stores one whole block into it. So what it leaves in the
  output's buffer at a point is a closed function of the six input blocks there — the store's payload laid over the
  whole buffer — and what it finds in an input's buffer is that window's block at the point, fetched there or not
  (windows 1 to 5 have a constant block index: fetched once, their block is the same at every point).
-/
import proofs.«139566_j53790170415805_2_alg».proof.Proof.Gen.Kernel.Launch
import proofs.«139566_j53790170415805_2_alg».proof.Proof.Gen.Kernel.Skeleton
import proofs.«139566_j53790170415805_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S512x256 := Rect.unit (s := S512x256) ![0, 0] S512x256.size inb_S512x256_S512x256_0_0
abbrev r0_1 : Rect S256x768 := Rect.unit (s := S256x768) ![0, 0] S256x768.size inb_S256x768_S256x768_0_0
abbrev r0_2 : Rect S768 := Rect.unit (s := S768) ![0] S768.size inb_S768_S768_0
abbrev r0_3 : Rect S768 := Rect.unit (s := S768) ![0] S768.size inb_S768_S768_0
abbrev r0_4 : Rect S768 := Rect.unit (s := S768) ![0] S768.size inb_S768_S768_0
abbrev r0_5 : Rect S768x2304 := Rect.unit (s := S768x2304) ![0, 0] S768x2304.size inb_S768x2304_S768x2304_0_0
abbrev r0_6 : Rect S512x2304 := Rect.unit (s := S512x2304) ![0, 0] S512x2304.size inb_S512x2304_S512x2304_0_0

/-! ## What the body leaves in the output window's buffer -/

/-- Window 6's staging buffer after the body, from the six input windows' blocks: its one store as a piece, whose payload
    is the value the body computes from what it loaded (the skeleton's named payload). -/
def out0_6 (x0 : Vec F S512x256 .bf16) (x1 : Vec F S256x768 .bf16) (x2 : Vec F S768 .f32) (x3 : Vec F S768 .f32) (x4 : Vec F S768 .f32) (x5 : Vec F S768x2304 .bf16) : Vec F S512x2304 .bf16 :=
  View.canon [⟨r0_6, k0_pay1 (View.ld x0 r0_0) (View.ld x1 r0_1) (View.ld x2 r0_2) (View.ld x3 r0_3) (View.ld x4 r0_4) (View.ld x5 r0_5)⟩]

/-- The store is of the whole block, so it covers the buffer. -/
theorem cover0_6 (p0 : Vec F S512x2304 .bf16) (y : S512x2304.Idx) :
    ∃ pc ∈ ([⟨r0_6, p0⟩] : List (View.Piece (Elt F) S512x2304 .bf16)), y ∈ pc.1.set :=
  View.cover_of_tiled [⟨r0_6, p0⟩] S512x2304.size (by rfl) y

/-! ## The body's triple -/

set_option maxHeartbeats 1000000 in
/-- The kernel body on whole staging memrefs, the inputs' at read contents `xW` and the output's at anything, runs to the
    continuation holding the inputs' as they were and the output's at `out0_6` of the inputs': the printed function is
    its skeleton of memory operations over the named payload, run operation by operation (the load of the output's
    buffer reads contents nothing uses). -/
theorem sound_kernel0 (c : Dev nD) (E : Set ℕ) (i : grid0.Coords) (arg1 : Memref sig .tc .vmem S512x256 .bf16) (harg1 : arg1.IsWhole) (arg2 : Memref sig .tc .vmem S256x768 .bf16) (harg2 : arg2.IsWhole) (arg3 : Memref sig .tc .vmem S768 .f32) (harg3 : arg3.IsWhole) (arg4 : Memref sig .tc .vmem S768 .f32) (harg4 : arg4.IsWhole) (arg5 : Memref sig .tc .vmem S768 .f32) (harg5 : arg5.IsWhole) (arg6 : Memref sig .tc .vmem S768x2304 .bf16) (harg6 : arg6.IsWhole) (arg7 : Memref sig .tc .vmem S512x2304 .bf16) (harg7 : arg7.IsWhole)
    (x0 : Vec F S512x256 .bf16) (x1 : Vec F S256x768 .bf16) (x2 : Vec F S768 .f32) (x3 : Vec F S768 .f32) (x4 : Vec F S768 .f32) (x5 : Vec F S768x2304 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0_embed_ln_qkv_kernel i arg1 harg1 arg2 harg2 arg3 harg3 arg4 harg4 arg5 harg5 arg6 harg6 arg7 harg7) K := by
  simp only [cc0_embed_ln_qkv_kernel_eq_skeleton]; unfold cc0_embed_ln_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of pipeline 0 on core `c`: the arrays as the region finds them (`V`); after the body at point `t`
    each input's buffer at its block and the output's at `out0_6` of the six input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window: an input's block in place, and in the output's buffer the store's payload
    over the six input blocks at the point. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.KR1Runs.lean ====
/-
  The attention region (the second kernel launch): what its three control cases share.

  The grid has 12 · 4 · 8 points, the last axis the sweep over the eight key blocks of one (head, query block) pair.
  The body branches twice on the position in that sweep: at its first point it resets the running maximum, the running
  denominator and the running numerator (three scratch buffers kept between points); at its last point it divides the
  numerator by the denominator and stores the quotient into the output block. A point is therefore in one of three
  cases: FIRST (reset, accumulate), MIDDLE (accumulate), LAST (accumulate, divide and store). The output block is
  written, and written back, only in case LAST.
-/
import proofs.«139566_j53790170415805_2_alg».proof.Proof.Gen.Kernel.Launch
import proofs.«139566_j53790170415805_2_alg».proof.Proof.Gen.Kernel.Skeleton
import proofs.«139566_j53790170415805_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "This is the first key block of the sweep": the body's first conditional, as the chain of comparisons it prints. -/
abbrev condFirst (i : grid1.Coords) : Prop :=
  (Scalar.cmpi .ne (Scalar.extui (Scalar.cmpi .eq (BitVec.ofNat 32 (i 2).val) 0#32)) 0#32) = 1#1
/-- It holds exactly at the points whose position in the sweep of eight is 0. -/
theorem hcondFirst : ∀ t : Fin cfg1.N, condFirst (grid1.coords t) ↔ t.val % 8 = 0 :=
  (by decide +kernel : ∀ t : Fin grid1.N, condFirst (grid1.coords t) ↔ t.val % 8 = 0)

/-- "This is the last key block of the sweep": the body's second conditional. -/
abbrev condLast (i : grid1.Coords) : Prop := k1_cond2 i = 1#1
/-- It holds exactly at the points whose position in the sweep of eight is 7. -/
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

/-- The three input windows (queries, keys, values) are never idle. -/
theorem live_q : ∀ t : Fin cfg1.N, cfg1.idle 0 (grid1.coords t) = false := fun _ => rfl
theorem live_k : ∀ t : Fin cfg1.N, cfg1.idle 1 (grid1.coords t) = false := fun _ => rfl
theorem live_v : ∀ t : Fin cfg1.N, cfg1.idle 2 (grid1.coords t) = false := fun _ => rfl
/-- Away from the last key block the output window is idle: nothing is stored into it, -/
theorem idle_o : ∀ t : Fin cfg1.N, ¬condLast (grid1.coords t) → cfg1.idle 3 (grid1.coords t) = true := by decide +kernel
/-- and it is not written back there. -/
theorem noFlush_o : ∀ t : Fin cfg1.N, ¬condLast (grid1.coords t) → (cfg1.win 3).flush t = false := by decide +kernel
/-- At the last key block it is live. -/
theorem live_o : ∀ t : Fin cfg1.N, condLast (grid1.coords t) → cfg1.idle 3 (grid1.coords t) = false := by decide +kernel

/-! ## The memrefs the body is called with -/

/-- Each window's current staging memref at point `t`, spelled as the pipeline passes it, and its wholeness. -/
abbrev msQ (t : Fin cfg1.N) : Memref sig .tc .vmem S1x1x1024x64 .bf16 := win1_0.stage (cfg1.slots t 0)
abbrev hsQ (t : Fin cfg1.N) : (msQ t).IsWhole := hstage1_0 ((cfg1.slots t 0).cast nbuf1_0)
abbrev msK (t : Fin cfg1.N) : Memref sig .tc .vmem S1x1x512x64 .bf16 := win1_1.stage (cfg1.slots t 1)
abbrev hsK (t : Fin cfg1.N) : (msK t).IsWhole := hstage1_1 ((cfg1.slots t 1).cast nbuf1_1)
abbrev msV (t : Fin cfg1.N) : Memref sig .tc .vmem S1x1x512x64 .bf16 := win1_2.stage (cfg1.slots t 2)
abbrev hsV (t : Fin cfg1.N) : (msV t).IsWhole := hstage1_2 ((cfg1.slots t 2).cast nbuf1_2)
abbrev msO (t : Fin cfg1.N) : Memref sig .tc .vmem S1x1024x64 .f32 := win1_3.stage (cfg1.slots t 3)
abbrev hsO (t : Fin cfg1.N) : (msO t).IsWhole := hstage1_3 ((cfg1.slots t 3).cast nbuf1_3)
/-- The three scratch buffers kept between points: the running maximum, the running denominator, the running numerator. -/
abbrev scMax : Memref sig .tc .vmem S1024x1 .f32 := Memref.whole cc1_scratch0
abbrev scDen : Memref sig .tc .vmem S1024x1 .f32 := Memref.whole cc1_scratch1
abbrev scNum : Memref sig .tc .vmem S1024x64 .f32 := Memref.whole cc1_scratch2
/-- Views through which the contents of the output block and of the scratch buffers are stated. -/
abbrev VOut : View sig .tc .vmem S1x1024x64 .f32 := (Memref.whole cc1_stg3_0 : Memref sig .tc .vmem S1x1024x64 .f32).view
abbrev VMax : View sig .tc .vmem S1024x1 .f32 := scMax.view
abbrev VDen : View sig .tc .vmem S1024x1 .f32 := scDen.view
abbrev VNum : View sig .tc .vmem S1024x64 .f32 := scNum.view

/-- The other launch's nine staging buffers, each at some contents: scoped buffers this body never touches. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The same nine buffers in front of a further assertion `T`, as one right-nested chain: the form the launch's list of
    scoped buffers has. -/
def beside (c : Dev nD) (T : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ T)

/-- Regrouping: the nine buffers taken apart from what follows them, -/
theorem beside_elim (c : Dev nD) (T : sProp 𝕄) : beside (F := F) c T ⊢ iprop(otherStaging (F := F) c ∗ T) := by
  unfold beside otherStaging
  iintro ⟨H1, H2, H3, H4, H5, H6, H7, H8, H9, HT⟩
  isplitr [HT]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact HT

/-- and put back in front of it. -/
theorem beside_intro (c : Dev nD) (T : sProp 𝕄) : iprop(otherStaging (F := F) c ∗ T) ⊢ beside (F := F) c T := by
  unfold beside otherStaging
  iintro ⟨⟨H1, H2, H3, H4, H5, H6, H7, H8, H9⟩, HT⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HT

/-- The class invariant of this launch, spelled out: the other launch's staging buffers, then the three scratch buffers at
    some contents each, and the generator register at some state. -/
theorem PhiA1_eq (c : Dev nD) :
    (Pipeline.ΦA spec1 c : sProp 𝕄)
      = iprop(beside (F := F) c iprop((∃ d, owns (c : Thread nD τ) scMax fullShare d) ∗ (∃ d, owns (c : Thread nD τ) scDen fullShare d)
          ∗ (∃ d, owns (c : Thread nD τ) scNum fullShare d)) ∗ (∃ r, prngReg c r)) := by
  unfold Pipeline.ΦA beside; rw [scopedRest1_eq]; simp only [scMax, scDen, scNum, owns_whole]; try rfl

end Cert.Kernel.Hand1

end
-- ==== Proof.KR1RunFirst.lean ====
/-
  The attention body at the FIRST key block of a sweep: the three scratch buffers are reset (whatever they held), then the block's scores are folded in. The output block is not touched.
-/
import proofs.«139566_j53790170415805_2_alg».proof.Proof.KR1Runs

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run in this case on whole memrefs: the three input blocks are read and handed back as they were; each
    buffer the body stores into ends holding its stores, recorded as a list of pieces (last store first) that the run
    itself determines. -/
noncomputable def runFirst (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : condFirst i) (hcL : ¬condLast i)
    (xq : Vec F S1x1x1024x64 .bf16) (xk : Vec F S1x1x512x64 .bf16) (xv : Vec F S1x1x512x64 .bf16) :
    Σ' (LMax : List (View.Piece (Elt F) S1024x1 .f32)) (LDen : List (View.Piece (Elt F) S1024x1 .f32)), { LNum : List (View.Piece (Elt F) S1024x64 .f32) //
      ∀ (xo : Vec F S1x1024x64 .f32) (E : Set ℕ) (K : PUnit → sProp 𝕄),
        iprop(owns (c : Thread nD τ) argQ fullShare xq ∗ owns (c : Thread nD τ) argK fullShare xk ∗ owns (c : Thread nD τ) argV fullShare xv ∗ owns (c : Thread nD τ) argO fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) argQ fullShare xq ∗ owns (c : Thread nD τ) argK fullShare xk ∗ owns (c : Thread nD τ) argV fullShare xv ∗ owns (c : Thread nD τ) argO fullShare xo
                ∗ (∃ f, arg7.view.loc (c : Thread nD τ) ↦[arg7.view.set]{fullShare} arg7.view.writes (Elt F) f LMax) ∗ (∃ f, arg8.view.loc (c : Thread nD τ) ↦[arg8.view.set]{fullShare} arg8.view.writes (Elt F) f LDen) ∗ (∃ f, arg9.view.loc (c : Thread nD τ) ↦[arg9.view.set]{fullShare} arg9.view.writes (Elt F) f LNum)) -∗ K ⟨⟩))
          ⊢ wp frame (wpE (defs₀ (F := F)) Variants.none c none) E (cc1_attn_kernel i argQ hQ argK hK argV hV argO hO arg7 h7 arg8 h8 arg9 h9) K } := by
  refine ⟨?_, ?_, ?_, fun xo E K => ?run⟩
  case run =>
    simp only [cc1_attn_kernel_eq_skeleton]; unfold cc1_attn_kernel_skel
    simp only [k1_part1_eq_skeleton]; unfold k1_part1_skel
    unfold owns
    iintro ⟨⟨%fq, %hfq, HQ⟩, ⟨%fk, %hfk, HK⟩, ⟨%fv, %hfv, HV⟩, ⟨%fo, %hfo, HO⟩, ⟨%d7, %f7, -, H7⟩, ⟨%d8, %f8, -, H8⟩, ⟨%d9, %f9, -, H9⟩, Hk⟩
    obtain rfl := hQ.eq_unread hfq; obtain rfl := hK.eq_unread hfk; obtain rfl := hV.eq_unread hfv; obtain rfl := hO.eq_unread hfo
    sl_exec (disch := first | exact hcF | exact hcL)
    sl_step
    iapply Hk
    isplitl [HQ]
    · iexists _; isplitr; · ipureintro; exact hQ.read_unread _
      iexact HQ
    isplitl [HK]
    · iexists _; isplitr; · ipureintro; exact hK.read_unread _
      iexact HK
    isplitl [HV]
    · iexists _; isplitr; · ipureintro; exact hV.read_unread _
      iexact HV
    isplitl [HO]
    · iexists _; isplitr; · ipureintro; exact hO.read_unread _
      iexact HO
    isplitl [H7]; · iexists _; iexact H7
    isplitl [H8]; · iexists _; iexact H8
    iexists _; iexact H9

end Cert.Kernel.Hand1

end
-- ==== Proof.KR1RunMiddle.lean ====
/-
  The attention body at a MIDDLE key block of a sweep: the scratch buffers hold what the block before left, and the block's scores are folded in. The output block is not touched.
-/
import proofs.«139566_j53790170415805_2_alg».proof.Proof.KR1RunFirst

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run in this case on whole memrefs: the three input blocks are read and handed back as they were; each
    buffer the body stores into ends holding its stores, recorded as a list of pieces (last store first) that the run
    itself determines. -/
noncomputable def runMiddle (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : ¬condLast i)
    (xq : Vec F S1x1x1024x64 .bf16) (xk : Vec F S1x1x512x64 .bf16) (xv : Vec F S1x1x512x64 .bf16) (xm : Vec F S1024x1 .f32) (xd : Vec F S1024x1 .f32) (xn : Vec F S1024x64 .f32) :
    Σ' (LMax : List (View.Piece (Elt F) S1024x1 .f32)) (LDen : List (View.Piece (Elt F) S1024x1 .f32)), { LNum : List (View.Piece (Elt F) S1024x64 .f32) //
      ∀ (xo : Vec F S1x1024x64 .f32) (E : Set ℕ) (K : PUnit → sProp 𝕄),
        iprop(owns (c : Thread nD τ) argQ fullShare xq ∗ owns (c : Thread nD τ) argK fullShare xk ∗ owns (c : Thread nD τ) argV fullShare xv ∗ owns (c : Thread nD τ) argO fullShare xo
            ∗ owns (c : Thread nD τ) arg7 fullShare xm ∗ owns (c : Thread nD τ) arg8 fullShare xd ∗ owns (c : Thread nD τ) arg9 fullShare xn
            ∗ (iprop(owns (c : Thread nD τ) argQ fullShare xq ∗ owns (c : Thread nD τ) argK fullShare xk ∗ owns (c : Thread nD τ) argV fullShare xv ∗ owns (c : Thread nD τ) argO fullShare xo
                ∗ (∃ f, arg7.view.loc (c : Thread nD τ) ↦[arg7.view.set]{fullShare} arg7.view.writes (Elt F) f LMax) ∗ (∃ f, arg8.view.loc (c : Thread nD τ) ↦[arg8.view.set]{fullShare} arg8.view.writes (Elt F) f LDen) ∗ (∃ f, arg9.view.loc (c : Thread nD τ) ↦[arg9.view.set]{fullShare} arg9.view.writes (Elt F) f LNum)) -∗ K ⟨⟩))
          ⊢ wp frame (wpE (defs₀ (F := F)) Variants.none c none) E (cc1_attn_kernel i argQ hQ argK hK argV hV argO hO arg7 h7 arg8 h8 arg9 h9) K } := by
  refine ⟨?_, ?_, ?_, fun xo E K => ?run⟩
  case run =>
    simp only [cc1_attn_kernel_eq_skeleton]; unfold cc1_attn_kernel_skel
    simp only [k1_part1_eq_skeleton]; unfold k1_part1_skel
    unfold owns
    iintro ⟨⟨%fq, %hfq, HQ⟩, ⟨%fk, %hfk, HK⟩, ⟨%fv, %hfv, HV⟩, ⟨%fo, %hfo, HO⟩, ⟨%f7, %hf7, H7⟩, ⟨%f8, %hf8, H8⟩, ⟨%f9, %hf9, H9⟩, Hk⟩
    obtain rfl := hQ.eq_unread hfq; obtain rfl := hK.eq_unread hfk; obtain rfl := hV.eq_unread hfv; obtain rfl := hO.eq_unread hfo; obtain rfl := h7.eq_unread hf7; obtain rfl := h8.eq_unread hf8; obtain rfl := h9.eq_unread hf9
    sl_exec (disch := first | exact hcF | exact hcL)
    sl_step
    iapply Hk
    isplitl [HQ]
    · iexists _; isplitr; · ipureintro; exact hQ.read_unread _
      iexact HQ
    isplitl [HK]
    · iexists _; isplitr; · ipureintro; exact hK.read_unread _
      iexact HK
    isplitl [HV]
    · iexists _; isplitr; · ipureintro; exact hV.read_unread _
      iexact HV
    isplitl [HO]
    · iexists _; isplitr; · ipureintro; exact hO.read_unread _
      iexact HO
    isplitl [H7]; · iexists _; iexact H7
    isplitl [H8]; · iexists _; iexact H8
    iexists _; iexact H9

end Cert.Kernel.Hand1

end
-- ==== Proof.KR1RunLast.lean ====
/-
  The attention body at the LAST key block of a sweep: the block's scores are folded in, then the numerator is divided by the denominator and the quotient stored into the output block.
-/
import proofs.«139566_j53790170415805_2_alg».proof.Proof.KR1RunMiddle

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run in this case on whole memrefs: the three input blocks are read and handed back as they were; each
    buffer the body stores into ends holding its stores, recorded as a list of pieces (last store first) that the run
    itself determines. -/
noncomputable def runLast (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : condLast i)
    (xq : Vec F S1x1x1024x64 .bf16) (xk : Vec F S1x1x512x64 .bf16) (xv : Vec F S1x1x512x64 .bf16) (xm : Vec F S1024x1 .f32) (xd : Vec F S1024x1 .f32) (xn : Vec F S1024x64 .f32) :
    Σ' (LOut : List (View.Piece (Elt F) S1x1024x64 .f32)) (LMax : List (View.Piece (Elt F) S1024x1 .f32)) (LDen : List (View.Piece (Elt F) S1024x1 .f32)), { LNum : List (View.Piece (Elt F) S1024x64 .f32) //
      ∀ (E : Set ℕ) (K : PUnit → sProp 𝕄),
        iprop(owns (c : Thread nD τ) argQ fullShare xq ∗ owns (c : Thread nD τ) argK fullShare xk ∗ owns (c : Thread nD τ) argV fullShare xv ∗ (∃ d, owns (c : Thread nD τ) argO fullShare d)
            ∗ owns (c : Thread nD τ) arg7 fullShare xm ∗ owns (c : Thread nD τ) arg8 fullShare xd ∗ owns (c : Thread nD τ) arg9 fullShare xn
            ∗ (iprop(owns (c : Thread nD τ) argQ fullShare xq ∗ owns (c : Thread nD τ) argK fullShare xk ∗ owns (c : Thread nD τ) argV fullShare xv ∗ (∃ f, argO.view.loc (c : Thread nD τ) ↦[argO.view.set]{fullShare} argO.view.writes (Elt F) f LOut)
                ∗ (∃ f, arg7.view.loc (c : Thread nD τ) ↦[arg7.view.set]{fullShare} arg7.view.writes (Elt F) f LMax) ∗ (∃ f, arg8.view.loc (c : Thread nD τ) ↦[arg8.view.set]{fullShare} arg8.view.writes (Elt F) f LDen) ∗ (∃ f, arg9.view.loc (c : Thread nD τ) ↦[arg9.view.set]{fullShare} arg9.view.writes (Elt F) f LNum)) -∗ K ⟨⟩))
          ⊢ wp frame (wpE (defs₀ (F := F)) Variants.none c none) E (cc1_attn_kernel i argQ hQ argK hK argV hV argO hO arg7 h7 arg8 h8 arg9 h9) K } := by
  refine ⟨?_, ?_, ?_, ?_, fun E K => ?run⟩
  case run =>
    simp only [cc1_attn_kernel_eq_skeleton]; unfold cc1_attn_kernel_skel
    simp only [k1_part1_eq_skeleton]; unfold k1_part1_skel
    unfold owns
    iintro ⟨⟨%fq, %hfq, HQ⟩, ⟨%fk, %hfk, HK⟩, ⟨%fv, %hfv, HV⟩, ⟨%dO, %fo, -, HO⟩, ⟨%f7, %hf7, H7⟩, ⟨%f8, %hf8, H8⟩, ⟨%f9, %hf9, H9⟩, Hk⟩
    obtain rfl := hQ.eq_unread hfq; obtain rfl := hK.eq_unread hfk; obtain rfl := hV.eq_unread hfv; obtain rfl := h7.eq_unread hf7; obtain rfl := h8.eq_unread hf8; obtain rfl := h9.eq_unread hf9
    sl_exec (disch := first | exact hcF | exact hcL)
    sl_step
    iapply Hk
    isplitl [HQ]
    · iexists _; isplitr; · ipureintro; exact hQ.read_unread _
      iexact HQ
    isplitl [HK]
    · iexists _; isplitr; · ipureintro; exact hK.read_unread _
      iexact HK
    isplitl [HV]
    · iexists _; isplitr; · ipureintro; exact hV.read_unread _
      iexact HV
    isplitl [HO]; · iexists _; iexact HO
    isplitl [H7]; · iexists _; iexact H7
    isplitl [H8]; · iexists _; iexact H8
    iexists _; iexact H9

end Cert.Kernel.Hand1

end
-- ==== Proof.KRegion1Data.lean ====
/-
  The attention region: its proof data.

  What the three scratch buffers and the output block hold after each grid point, by recursion on the point: at the
  first key block of a sweep the reset-and-accumulate case run on the point's blocks; at a later key block the
  accumulate case (and, at the last, the divide-and-store case) run on the point's blocks and on what the point before
  left in the scratch buffers. The region's invariant holds the scratch buffers at exactly those contents between
  points, so that each point's run is handed what the previous one left.
-/
import proofs.«139566_j53790170415805_2_alg».proof.Proof.KR1RunLast

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is made at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved since the last fetch). -/
theorem beforeQ_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem beforeK_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem beforeV_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a grid point -/

/-- The reset-and-accumulate run at a point `t` that is the first key block of its sweep, on the point's memrefs and blocks. -/
abbrev firstAt (c : Dev nD) (t : Fin cfg1.N) (hF : t.val % 8 = 0) (hL : ¬t.val % 8 = 7) :=
  runFirst (F := F) c (grid1.coords t) (msQ t) (hsQ t) (msK t) (hsK t) (msV t) (hsV t) (msO t) (hsO t) scMax (Memref.isWhole_whole _) scDen (Memref.isWhole_whole _) scNum (Memref.isWhole_whole _) ((hcondFirst t).mpr hF) (fun h => hL ((hcondLast t).mp h)) (iblk1 V c 0 t) (iblk1 V c 1 t) (iblk1 V c 2 t)
/-- The accumulate run at a middle key block, on what the point before left in the scratch buffers. -/
abbrev middleAt (c : Dev nD) (t : Fin cfg1.N) (hF : ¬t.val % 8 = 0) (hL : ¬t.val % 8 = 7) (xm xd : Vec F S1024x1 .f32) (xn : Vec F S1024x64 .f32) :=
  runMiddle (F := F) c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) (fun h => hL ((hcondLast t).mp h)) (iblk1 V c 0 t) (iblk1 V c 1 t) (iblk1 V c 2 t) xm xd xn
/-- The accumulate, divide and store run at the last key block. -/
abbrev lastAt (c : Dev nD) (t : Fin cfg1.N) (hF : ¬t.val % 8 = 0) (hL : t.val % 8 = 7) (xm xd : Vec F S1024x1 .f32) (xn : Vec F S1024x64 .f32) :=
  runLast (F := F) c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) ((hcondLast t).mpr hL) (iblk1 V c 0 t) (iblk1 V c 1 t) (iblk1 V c 2 t) xm xd xn

/-- What a point leaves: the output block, the running maximum, the running denominator, the running numerator. -/
abbrev St (F : FTy → Type) [FloatOps F] : Type := Vec F S1x1024x64 .f32 × Vec F S1024x1 .f32 × Vec F S1024x1 .f32 × Vec F S1024x64 .f32

/-- The output block where no case stores into it: a placeholder nothing consults (there the window is neither written
    back nor read at the next point). -/
def outIdle : Vec F S1x1024x64 .f32 := VOut.read (Elt F) (VOut.writes (Elt F) VOut.junk [])

/-- After a first key block: each scratch buffer holds that run's stores into it, read back. -/
def stFirst (c : Dev nD) (t : Fin cfg1.N) (hF : t.val % 8 = 0) (hL : ¬t.val % 8 = 7) : St F :=
  (outIdle,
   VMax.read (Elt F) (VMax.writes (Elt F) VMax.junk (firstAt V c t hF hL).1),
   VDen.read (Elt F) (VDen.writes (Elt F) VDen.junk (firstAt V c t hF hL).2.1),
   VNum.read (Elt F) (VNum.writes (Elt F) VNum.junk (firstAt V c t hF hL).2.2.1))
/-- After a middle key block, from what the point before left. -/
def stMiddle (c : Dev nD) (t : Fin cfg1.N) (hF : ¬t.val % 8 = 0) (hL : ¬t.val % 8 = 7) (p : St F) : St F :=
  (outIdle,
   VMax.read (Elt F) (VMax.writes (Elt F) VMax.junk (middleAt V c t hF hL p.2.1 p.2.2.1 p.2.2.2).1),
   VDen.read (Elt F) (VDen.writes (Elt F) VDen.junk (middleAt V c t hF hL p.2.1 p.2.2.1 p.2.2.2).2.1),
   VNum.read (Elt F) (VNum.writes (Elt F) VNum.junk (middleAt V c t hF hL p.2.1 p.2.2.1 p.2.2.2).2.2.1))
/-- After the last key block, from what the point before left: the output block holds the quotient's store too. -/
def stLast (c : Dev nD) (t : Fin cfg1.N) (hF : ¬t.val % 8 = 0) (hL : t.val % 8 = 7) (p : St F) : St F :=
  (VOut.read (Elt F) (VOut.writes (Elt F) VOut.junk (lastAt V c t hF hL p.2.1 p.2.2.1 p.2.2.2).1),
   VMax.read (Elt F) (VMax.writes (Elt F) VMax.junk (lastAt V c t hF hL p.2.1 p.2.2.1 p.2.2.2).2.1),
   VDen.read (Elt F) (VDen.writes (Elt F) VDen.junk (lastAt V c t hF hL p.2.1 p.2.2.1 p.2.2.2).2.2.1),
   VNum.read (Elt F) (VNum.writes (Elt F) VNum.junk (lastAt V c t hF hL p.2.1 p.2.2.1 p.2.2.2).2.2.2.1))

/-! ## Each run's stores cover the buffer they go into (whole-buffer stores) -/

theorem coverFirstMax (c : Dev nD) (t : Fin cfg1.N) (hF : t.val % 8 = 0) (hL : ¬t.val % 8 = 7) (y : S1024x1.Idx) :
    ∃ pc ∈ (firstAt V c t hF hL).1, y ∈ pc.1.set := View.cover_of_tiledL (firstAt V c t hF hL).1 S1024x1.size (by sl_kernel_rfl) y
theorem coverFirstDen (c : Dev nD) (t : Fin cfg1.N) (hF : t.val % 8 = 0) (hL : ¬t.val % 8 = 7) (y : S1024x1.Idx) :
    ∃ pc ∈ (firstAt V c t hF hL).2.1, y ∈ pc.1.set := View.cover_of_tiledL (firstAt V c t hF hL).2.1 S1024x1.size (by sl_kernel_rfl) y
theorem coverFirstNum (c : Dev nD) (t : Fin cfg1.N) (hF : t.val % 8 = 0) (hL : ¬t.val % 8 = 7) (y : S1024x64.Idx) :
    ∃ pc ∈ (firstAt V c t hF hL).2.2.1, y ∈ pc.1.set := View.cover_of_tiledL (firstAt V c t hF hL).2.2.1 S1024x64.size (by sl_kernel_rfl) y
theorem coverMiddleMax (c : Dev nD) (t : Fin cfg1.N) (hF : ¬t.val % 8 = 0) (hL : ¬t.val % 8 = 7) (xm xd : Vec F S1024x1 .f32) (xn : Vec F S1024x64 .f32) (y : S1024x1.Idx) :
    ∃ pc ∈ (middleAt V c t hF hL xm xd xn).1, y ∈ pc.1.set := View.cover_of_tiledL (middleAt V c t hF hL xm xd xn).1 S1024x1.size (by sl_kernel_rfl) y
theorem coverMiddleDen (c : Dev nD) (t : Fin cfg1.N) (hF : ¬t.val % 8 = 0) (hL : ¬t.val % 8 = 7) (xm xd : Vec F S1024x1 .f32) (xn : Vec F S1024x64 .f32) (y : S1024x1.Idx) :
    ∃ pc ∈ (middleAt V c t hF hL xm xd xn).2.1, y ∈ pc.1.set := View.cover_of_tiledL (middleAt V c t hF hL xm xd xn).2.1 S1024x1.size (by sl_kernel_rfl) y
theorem coverMiddleNum (c : Dev nD) (t : Fin cfg1.N) (hF : ¬t.val % 8 = 0) (hL : ¬t.val % 8 = 7) (xm xd : Vec F S1024x1 .f32) (xn : Vec F S1024x64 .f32) (y : S1024x64.Idx) :
    ∃ pc ∈ (middleAt V c t hF hL xm xd xn).2.2.1, y ∈ pc.1.set := View.cover_of_tiledL (middleAt V c t hF hL xm xd xn).2.2.1 S1024x64.size (by sl_kernel_rfl) y
theorem coverLastOut (c : Dev nD) (t : Fin cfg1.N) (hF : ¬t.val % 8 = 0) (hL : t.val % 8 = 7) (xm xd : Vec F S1024x1 .f32) (xn : Vec F S1024x64 .f32) (y : S1x1024x64.Idx) :
    ∃ pc ∈ (lastAt V c t hF hL xm xd xn).1, y ∈ pc.1.set := View.cover_of_tiledL (lastAt V c t hF hL xm xd xn).1 S1x1024x64.size (by sl_kernel_rfl) y
theorem coverLastMax (c : Dev nD) (t : Fin cfg1.N) (hF : ¬t.val % 8 = 0) (hL : t.val % 8 = 7) (xm xd : Vec F S1024x1 .f32) (xn : Vec F S1024x64 .f32) (y : S1024x1.Idx) :
    ∃ pc ∈ (lastAt V c t hF hL xm xd xn).2.1, y ∈ pc.1.set := View.cover_of_tiledL (lastAt V c t hF hL xm xd xn).2.1 S1024x1.size (by sl_kernel_rfl) y
theorem coverLastDen (c : Dev nD) (t : Fin cfg1.N) (hF : ¬t.val % 8 = 0) (hL : t.val % 8 = 7) (xm xd : Vec F S1024x1 .f32) (xn : Vec F S1024x64 .f32) (y : S1024x1.Idx) :
    ∃ pc ∈ (lastAt V c t hF hL xm xd xn).2.2.1, y ∈ pc.1.set := View.cover_of_tiledL (lastAt V c t hF hL xm xd xn).2.2.1 S1024x1.size (by sl_kernel_rfl) y
theorem coverLastNum (c : Dev nD) (t : Fin cfg1.N) (hF : ¬t.val % 8 = 0) (hL : t.val % 8 = 7) (xm xd : Vec F S1024x1 .f32) (xn : Vec F S1024x64 .f32) (y : S1024x64.Idx) :
    ∃ pc ∈ (lastAt V c t hF hL xm xd xn).2.2.2.1, y ∈ pc.1.set := View.cover_of_tiledL (lastAt V c t hF hL xm xd xn).2.2.2.1 S1024x64.size (by sl_kernel_rfl) y

/-! ## The state point by point -/

/-- What the output block and the scratch buffers hold after the body at position `n`: the case the position in the sweep of
    eight selects, run on the point's blocks and (after a first block) on what position `n - 1` left. -/
def outsAt1 (c : Dev nD) : (n : ℕ) → n < cfg1.N → St F
  | 0, hn => stFirst V c ⟨0, hn⟩ (Nat.zero_mod _) (by simp)
  | n + 1, hn =>
    if hF : (n + 1) % 8 = 0 then stFirst V c ⟨n + 1, hn⟩ hF (fun h => by dsimp only at h hF; omega)
    else if hL : (n + 1) % 8 = 7 then stLast V c ⟨n + 1, hn⟩ hF hL (outsAt1 c n (Nat.lt_of_succ_lt hn))
    else stMiddle V c ⟨n + 1, hn⟩ hF hL (outsAt1 c n (Nat.lt_of_succ_lt hn))

theorem outsAt1_first (c : Dev nD) (t : Fin cfg1.N) (hF : t.val % 8 = 0) (hL : ¬t.val % 8 = 7) :
    outsAt1 V c t.val t.isLt = stFirst V c t hF hL := by
  obtain ⟨n, hn⟩ := t
  cases n with
  | zero => rfl
  | succ n => exact dif_pos hF
theorem outsAt1_middle (c : Dev nD) (t : Fin cfg1.N) (hF : ¬t.val % 8 = 0) (hL : ¬t.val % 8 = 7) :
    outsAt1 V c t.val t.isLt = stMiddle V c t hF hL (outsAt1 V c (t.val - 1) (Nat.lt_of_le_of_lt (Nat.sub_le _ _) t.isLt)) := by
  obtain ⟨n, hn⟩ := t
  cases n with
  | zero => exact absurd (Nat.zero_mod _) hF
  | succ n => exact (dif_neg hF).trans (dif_neg hL)
theorem outsAt1_last (c : Dev nD) (t : Fin cfg1.N) (hF : ¬t.val % 8 = 0) (hL : t.val % 8 = 7) :
    outsAt1 V c t.val t.isLt = stLast V c t hF hL (outsAt1 V c (t.val - 1) (Nat.lt_of_le_of_lt (Nat.sub_le _ _) t.isLt)) := by
  obtain ⟨n, hn⟩ := t
  cases n with
  | zero => exact absurd (Nat.zero_mod _) hF
  | succ n => exact (dif_neg hF).trans (dif_pos hL)

/-! ## The invariant between points -/

/-- The scratch buffers at given contents, beside the other launch's staging buffers and the generator register. -/
def scratchAt (c : Dev nD) (xm xd : Vec F S1024x1 .f32) (xn : Vec F S1024x64 .f32) : sProp 𝕄 :=
  iprop(iprop(otherStaging (F := F) c ∗ owns (c : Thread nD τ) scMax fullShare xm ∗ owns (c : Thread nD τ) scDen fullShare xd
    ∗ owns (c : Thread nD τ) scNum fullShare xn) ∗ (∃ r, prngReg c r))

/-- Before position `n`: at the region's entry the class invariant (every scratch buffer at anything); afterwards the
    scratch buffers at what position `n - 1` left in them. -/
def PhiS (c : Dev nD) : (n : ℕ) → n ≤ cfg1.N → sProp 𝕄
  | 0, _ => Pipeline.ΦA spec1 c
  | n + 1, hn => scratchAt (F := F) c (outsAt1 V c n hn).2.1 (outsAt1 V c n hn).2.2.1 (outsAt1 V c n hn).2.2.2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = scratchAt (F := F) c (outsAt1 V c n hn).2.1 (outsAt1 V c n hn).2.2.1 (outsAt1 V c n hn).2.2.2 := rfl
theorem PhiS_pos (c : Dev nD) (n : ℕ) (h : n ≤ cfg1.N) (hz : n ≠ 0) :
    PhiS V c n h = scratchAt (F := F) c (outsAt1 V c (n - 1) (by omega)).2.1 (outsAt1 V c (n - 1) (by omega)).2.2.1 (outsAt1 V c (n - 1) (by omega)).2.2.2 := by
  cases n with
  | zero => exact absurd rfl hz
  | succ n => rfl

/-! ## The proof data -/

/-- The three input windows read one array; each holds a part of it that is enough to read: a half, a quarter, a quarter. -/
abbrev shareQ : PosShare TreeShare := fullShare.left
abbrev shareK : PosShare TreeShare := fullShare.right.left
abbrev shareV : PosShare TreeShare := fullShare.right.right

/-- The proof data of the attention launch on core `c`: the arrays as the region finds them; after the body at point `t`
    each input's buffer at its block and the output's at the point's state; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => shareQ
    | ⟨1, _⟩ => shareK
    | ⟨2, _⟩ => shareV
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem afterQ (c : Dev nD) (t : Fin cfg1.N) : (dat1 V c).after 0 t = iblk1 V c 0 t := by dsimp only [dat1]
theorem afterK (c : Dev nD) (t : Fin cfg1.N) : (dat1 V c).after 1 t = iblk1 V c 1 t := by dsimp only [dat1]
theorem afterV (c : Dev nD) (t : Fin cfg1.N) : (dat1 V c).after 2 t = iblk1 V c 2 t := by dsimp only [dat1]
theorem afterO (c : Dev nD) (t : Fin cfg1.N) : (dat1 V c).after 3 t = (outsAt1 V c t.val t.isLt).1 := by dsimp only [dat1]
theorem beforeQ (c : Dev nD) (t : Fin cfg1.N) (d) : (dat1 V c).before 0 t d = iblk1 V c 0 t :=
  beforeQ_of V (dat1 V c) (A_eq1 V c 0) (afterQ V c) t d
theorem beforeK (c : Dev nD) (t : Fin cfg1.N) (d) : (dat1 V c).before 1 t d = iblk1 V c 1 t :=
  beforeK_of V (dat1 V c) (A_eq1 V c 1) (afterK V c) t d
theorem beforeV (c : Dev nD) (t : Fin cfg1.N) (d) : (dat1 V c).before 2 t d = iblk1 V c 2 t :=
  beforeV_of V (dat1 V c) (A_eq1 V c 2) (afterV V c) t d

end Cert.Kernel.Hand1

end
-- ==== Proof.KRegion1Cases.lean ====
/-
  The attention region: its body obligation.

  At every grid point the body, handed the three input blocks, the output buffer and the invariant, runs to the end and
  hands back the invariant at the point's new scratch contents: by cases on the position in the sweep of eight key
  blocks, each case its whole-body run. At a first key block the scratch buffers may hold anything (they are reset); at
  a later one the invariant supplies exactly what the point before left in them.
-/
import proofs.«139566_j53790170415805_2_alg».proof.Proof.KRegion1Data

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant with the scratch contents forgotten -/

/-- The scratch buffers at some contents each, beside the other launch's staging buffers and the generator register. -/
def anyScratch (c : Dev nD) : sProp 𝕄 :=
  iprop(iprop(otherStaging (F := F) c ∗ (∃ d, owns (c : Thread nD τ) scMax fullShare d) ∗ (∃ d, owns (c : Thread nD τ) scDen fullShare d)
    ∗ (∃ d, owns (c : Thread nD τ) scNum fullShare d)) ∗ (∃ r, prngReg c r))

theorem scratchAt_any (c : Dev nD) (xm xd : Vec F S1024x1 .f32) (xn : Vec F S1024x64 .f32) :
    scratchAt (F := F) c xm xd xn ⊢ anyScratch (F := F) c := by
  unfold scratchAt anyScratch
  iintro ⟨⟨Hoth, H7, H8, H9⟩, Hg⟩
  isplitr [Hg]
  · isplitl [Hoth]; · iexact Hoth
    isplitl [H7]; · iexists _; iexact H7
    isplitl [H8]; · iexists _; iexact H8
    iexists _; iexact H9
  · iexact Hg

theorem PhiA_any (c : Dev nD) : (Pipeline.ΦA spec1 c : sProp 𝕄) ⊢ anyScratch (F := F) c := by
  rw [PhiA1_eq]; unfold anyScratch
  iintro ⟨Hb, Hg⟩
  ihave H := (beside_elim (F := F) c _) $$ Hb
  isplitl [H]; · iexact H
  iexact Hg

theorem any_PhiA (c : Dev nD) : anyScratch (F := F) c ⊢ (Pipeline.ΦA spec1 c : sProp 𝕄) := by
  rw [PhiA1_eq]; unfold anyScratch
  iintro ⟨H, Hg⟩
  isplitl [H]
  · iapply (beside_intro (F := F) c _); iexact H
  · iexact Hg

theorem PhiS_any (c : Dev nD) (n : ℕ) (h : n ≤ cfg1.N) : PhiS V c n h ⊢ anyScratch (F := F) c := by
  cases n with
  | zero => exact PhiA_any c
  | succ n => exact scratchAt_any c _ _ _

/-! ## The three cases -/

set_option maxHeartbeats 1600000 in
/-- A first key block: from the scratch buffers at anything. The output buffer is handed back as found. -/
theorem caseFirst (c : Dev nD) (t : Fin cfg1.N) (hF : t.val % 8 = 0) (hL : ¬t.val % 8 = 7) (R : sProp 𝕄) (xo : Vec F S1x1024x64 .f32)
    (PO : sProp 𝕄) (hO : owns (c : Thread nD τ) (msO t) fullShare xo ⊢ PO) :
    iprop(anyScratch (F := F) c ∗ R ∗ owns (c : Thread nD τ) (msQ t) fullShare (iblk1 V c 0 t) ∗ owns (c : Thread nD τ) (msK t) fullShare (iblk1 V c 1 t) ∗ owns (c : Thread nD τ) (msV t) fullShare (iblk1 V c 2 t) ∗ owns (c : Thread nD τ) (msO t) fullShare xo)
      ⊢ wp frame (wpE (defs₀ (F := F)) Variants.none c none) Set.univ (bodyAt1 t)
          (fun _ => iprop(scratchAt (F := F) c (stFirst V c t hF hL).2.1 (stFirst V c t hF hL).2.2.1 (stFirst V c t hF hL).2.2.2 ∗ R
            ∗ owns (c : Thread nD τ) (msQ t) fullShare (iblk1 V c 0 t) ∗ owns (c : Thread nD τ) (msK t) fullShare (iblk1 V c 1 t) ∗ owns (c : Thread nD τ) (msV t) fullShare (iblk1 V c 2 t) ∗ PO)) := by
  unfold anyScratch scratchAt stFirst bodyAt1
  dsimp only
  iintro ⟨⟨⟨Hoth, HS0, HS1, HS2⟩, Hg⟩, HR, HQ, HK, HV, HO⟩
  iapply ((firstAt V c t hF hL).2.2.2 xo Set.univ _)
  isplitl [HQ]; · iexact HQ
  isplitl [HK]; · iexact HK
  isplitl [HV]; · iexact HV
  isplitl [HO]; · iexact HO
  isplitl [HS0]; · iexact HS0
  isplitl [HS1]; · iexact HS1
  isplitl [HS2]; · iexact HS2
  iintro ⟨HQ, HK, HV, HO, ⟨%e7, H7⟩, ⟨%e8, H8⟩, ⟨%e9, H9⟩⟩
  isplitl [Hoth H7 H8 H9 Hg]
  · isplitl [Hoth H7 H8 H9]
    · isplitl [Hoth]; · iexact Hoth
      isplitl [H7]
      · unfold owns; iexists _; isplitr
        swap; · iexact H7
        ipureintro; exact View.read_writes_of_cover _ _ _ _ _ (coverFirstMax V c t hF hL )
      isplitl [H8]
      · unfold owns; iexists _; isplitr
        swap; · iexact H8
        ipureintro; exact View.read_writes_of_cover _ _ _ _ _ (coverFirstDen V c t hF hL )
      · unfold owns; iexists _; isplitr
        swap; · iexact H9
        ipureintro; exact View.read_writes_of_cover _ _ _ _ _ (coverFirstNum V c t hF hL )
    · iexact Hg
  isplitl [HR]; · iexact HR
  isplitl [HQ]; · iexact HQ
  isplitl [HK]; · iexact HK
  isplitl [HV]; · iexact HV
  iapply hO; iexact HO

set_option maxHeartbeats 1600000 in
/-- A middle key block: from the scratch buffers at what the point before left (`p`). -/
theorem caseMiddle (c : Dev nD) (t : Fin cfg1.N) (hF : ¬t.val % 8 = 0) (hL : ¬t.val % 8 = 7) (p : St F) (R : sProp 𝕄) (xo : Vec F S1x1024x64 .f32)
    (PO : sProp 𝕄) (hO : owns (c : Thread nD τ) (msO t) fullShare xo ⊢ PO) :
    iprop(scratchAt (F := F) c p.2.1 p.2.2.1 p.2.2.2 ∗ R ∗ owns (c : Thread nD τ) (msQ t) fullShare (iblk1 V c 0 t) ∗ owns (c : Thread nD τ) (msK t) fullShare (iblk1 V c 1 t) ∗ owns (c : Thread nD τ) (msV t) fullShare (iblk1 V c 2 t) ∗ owns (c : Thread nD τ) (msO t) fullShare xo)
      ⊢ wp frame (wpE (defs₀ (F := F)) Variants.none c none) Set.univ (bodyAt1 t)
          (fun _ => iprop(scratchAt (F := F) c (stMiddle V c t hF hL p).2.1 (stMiddle V c t hF hL p).2.2.1 (stMiddle V c t hF hL p).2.2.2 ∗ R
            ∗ owns (c : Thread nD τ) (msQ t) fullShare (iblk1 V c 0 t) ∗ owns (c : Thread nD τ) (msK t) fullShare (iblk1 V c 1 t) ∗ owns (c : Thread nD τ) (msV t) fullShare (iblk1 V c 2 t) ∗ PO)) := by
  unfold scratchAt stMiddle bodyAt1
  dsimp only
  iintro ⟨⟨⟨Hoth, HS0, HS1, HS2⟩, Hg⟩, HR, HQ, HK, HV, HO⟩
  iapply ((middleAt V c t hF hL p.2.1 p.2.2.1 p.2.2.2).2.2.2 xo Set.univ _)
  isplitl [HQ]; · iexact HQ
  isplitl [HK]; · iexact HK
  isplitl [HV]; · iexact HV
  isplitl [HO]; · iexact HO
  isplitl [HS0]; · iexact HS0
  isplitl [HS1]; · iexact HS1
  isplitl [HS2]; · iexact HS2
  iintro ⟨HQ, HK, HV, HO, ⟨%e7, H7⟩, ⟨%e8, H8⟩, ⟨%e9, H9⟩⟩
  isplitl [Hoth H7 H8 H9 Hg]
  · isplitl [Hoth H7 H8 H9]
    · isplitl [Hoth]; · iexact Hoth
      isplitl [H7]
      · unfold owns; iexists _; isplitr
        swap; · iexact H7
        ipureintro; exact View.read_writes_of_cover _ _ _ _ _ (coverMiddleMax V c t hF hL _ _ _)
      isplitl [H8]
      · unfold owns; iexists _; isplitr
        swap; · iexact H8
        ipureintro; exact View.read_writes_of_cover _ _ _ _ _ (coverMiddleDen V c t hF hL _ _ _)
      · unfold owns; iexists _; isplitr
        swap; · iexact H9
        ipureintro; exact View.read_writes_of_cover _ _ _ _ _ (coverMiddleNum V c t hF hL _ _ _)
    · iexact Hg
  isplitl [HR]; · iexact HR
  isplitl [HQ]; · iexact HQ
  isplitl [HK]; · iexact HK
  isplitl [HV]; · iexact HV
  iapply hO; iexact HO

set_option maxHeartbeats 1600000 in
/-- The last key block: from the scratch buffers at what the point before left; the output buffer, at anything, ends
    holding the quotient's store. -/
theorem caseLast (c : Dev nD) (t : Fin cfg1.N) (hF : ¬t.val % 8 = 0) (hL : t.val % 8 = 7) (p : St F) (R : sProp 𝕄) :
    iprop(scratchAt (F := F) c p.2.1 p.2.2.1 p.2.2.2 ∗ R ∗ owns (c : Thread nD τ) (msQ t) fullShare (iblk1 V c 0 t) ∗ owns (c : Thread nD τ) (msK t) fullShare (iblk1 V c 1 t) ∗ owns (c : Thread nD τ) (msV t) fullShare (iblk1 V c 2 t) ∗ (∃ d, owns (c : Thread nD τ) (msO t) fullShare d))
      ⊢ wp frame (wpE (defs₀ (F := F)) Variants.none c none) Set.univ (bodyAt1 t)
          (fun _ => iprop(scratchAt (F := F) c (stLast V c t hF hL p).2.1 (stLast V c t hF hL p).2.2.1 (stLast V c t hF hL p).2.2.2 ∗ R
            ∗ owns (c : Thread nD τ) (msQ t) fullShare (iblk1 V c 0 t) ∗ owns (c : Thread nD τ) (msK t) fullShare (iblk1 V c 1 t) ∗ owns (c : Thread nD τ) (msV t) fullShare (iblk1 V c 2 t) ∗ owns (c : Thread nD τ) (msO t) fullShare (stLast V c t hF hL p).1)) := by
  unfold scratchAt stLast bodyAt1
  dsimp only
  iintro ⟨⟨⟨Hoth, HS0, HS1, HS2⟩, Hg⟩, HR, HQ, HK, HV, HO⟩
  iapply ((lastAt V c t hF hL p.2.1 p.2.2.1 p.2.2.2).2.2.2.2 Set.univ _)
  isplitl [HQ]; · iexact HQ
  isplitl [HK]; · iexact HK
  isplitl [HV]; · iexact HV
  isplitl [HO]; · iexact HO
  isplitl [HS0]; · iexact HS0
  isplitl [HS1]; · iexact HS1
  isplitl [HS2]; · iexact HS2
  iintro ⟨HQ, HK, HV, ⟨%eO, HO⟩, ⟨%e7, H7⟩, ⟨%e8, H8⟩, ⟨%e9, H9⟩⟩
  isplitl [Hoth H7 H8 H9 Hg]
  · isplitl [Hoth H7 H8 H9]
    · isplitl [Hoth]; · iexact Hoth
      isplitl [H7]
      · unfold owns; iexists _; isplitr
        swap; · iexact H7
        ipureintro; exact View.read_writes_of_cover _ _ _ _ _ (coverLastMax V c t hF hL _ _ _)
      isplitl [H8]
      · unfold owns; iexists _; isplitr
        swap; · iexact H8
        ipureintro; exact View.read_writes_of_cover _ _ _ _ _ (coverLastDen V c t hF hL _ _ _)
      · unfold owns; iexists _; isplitr
        swap; · iexact H9
        ipureintro; exact View.read_writes_of_cover _ _ _ _ _ (coverLastNum V c t hF hL _ _ _)
    · iexact Hg
  isplitl [HR]; · iexact HR
  isplitl [HQ]; · iexact HQ
  isplitl [HK]; · iexact HK
  isplitl [HV]; · iexact HV
  unfold owns; iexists _; isplitr
  swap; · iexact HO
  ipureintro; exact View.read_writes_of_cover _ _ _ _ _ (coverLastOut V c t hF hL _ _ _)

end Cert.Kernel.Hand1

end
-- ==== Proof.KRegion1.lean ====
/-
  The attention region: the body obligation at every grid point, and how the region's invariant begins and ends.
-/
import proofs.«139566_j53790170415805_2_alg».proof.Proof.KRegion1Cases

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`: the invariant, what the core owes, and the four windows' current staging
    buffers at what they hold before the body, -/
def bodyPre1 (c : Dev nD) (t : Fin cfg1.N) : sProp 𝕄 :=
  iprop((dat1 V c).Φ t.castSucc ∗ (dat1 V c).owesAt () t.castSucc
    ∗ (∃ d, owns (c : Thread nD τ) (msQ t) fullShare ((dat1 V c).before 0 t d))
    ∗ (∃ d, owns (c : Thread nD τ) (msK t) fullShare ((dat1 V c).before 1 t d))
    ∗ (∃ d, owns (c : Thread nD τ) (msV t) fullShare ((dat1 V c).before 2 t d))
    ∗ (∃ d, owns (c : Thread nD τ) (msO t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' buffers hold their blocks; the position in the sweep says which case the point is
    in; the invariant supplies the scratch buffers (at anything before a first key block, at what the point before left
    otherwise) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [beforeQ, beforeK, beforeV]
  rw [show (dat1 V c).owesAt () t.succ = (dat1 V c).owesAt () t.castSucc from rfl]
  rw [show (dat1 V c).Φ t.succ = PhiS V c (t.val + 1) t.isLt from rfl, PhiS_succ, PhiS_castSucc]
  rw [show (dat1 V c).leavesExact 0 t = owns (c : Thread nD τ) (msQ t) fullShare ((dat1 V c).after 0 t) from by
    unfold Dat.leavesExact; rw [live_q t], afterQ]
  rw [show (dat1 V c).leavesExact 1 t = owns (c : Thread nD τ) (msK t) fullShare ((dat1 V c).after 1 t) from by
    unfold Dat.leavesExact; rw [live_k t], afterK]
  rw [show (dat1 V c).leavesExact 2 t = owns (c : Thread nD τ) (msV t) fullShare ((dat1 V c).after 2 t) from by
    unfold Dat.leavesExact; rw [live_v t], afterV]
  have hN : t.val < 384 := lt_of_lt_of_eq t.isLt N_1
  by_cases hF : t.val % 8 = 0
  · have hL : ¬t.val % 8 = 7 := by omega
    have hnl : ¬condLast (grid1.coords t) := fun h => hL ((hcondLast t).mp h)
    rw [Dat.leavesExact_idle (dat1 V c) 3 t (idle_o t hnl) (noFlush_o t hnl), outsAt1_first V c t hF hL]
    iintro ⟨HΦ, Ho, ⟨%dq, HQ⟩, ⟨%dk, HK⟩, ⟨%dv, HV⟩, ⟨%dO, HO⟩⟩
    ihave HA := (PhiS_any V c t.val _) $$ HΦ
    iapply (caseFirst V c t hF hL ((dat1 V c).owesAt () t.castSucc) ((dat1 V c).before 3 t dO) _
      (show owns (c : Thread nD τ) (msO t) fullShare ((dat1 V c).before 3 t dO) ⊢ iprop(∃ d, owns (c : Thread nD τ) (msO t) fullShare ((dat1 V c).before 3 t d)) from by
        iintro H; iexists dO; iexact H))
    isplitl [HA]; · iexact HA
    isplitl [Ho]; · iexact Ho
    isplitl [HQ]; · iexact HQ
    isplitl [HK]; · iexact HK
    isplitl [HV]; · iexact HV
    iexact HO
  · have hz : t.val ≠ 0 := fun h => hF (by rw [h])
    by_cases hL : t.val % 8 = 7
    · rw [show (dat1 V c).leavesExact 3 t = owns (c : Thread nD τ) (msO t) fullShare ((dat1 V c).after 3 t) from by
        unfold Dat.leavesExact; rw [live_o t ((hcondLast t).mpr hL)], afterO]
      rw [outsAt1_last V c t hF hL, PhiS_pos V c t.val _ hz]
      iintro ⟨HΦ, Ho, ⟨%dq, HQ⟩, ⟨%dk, HK⟩, ⟨%dv, HV⟩, ⟨%dO, HO⟩⟩
      iapply (caseLast V c t hF hL (outsAt1 V c (t.val - 1) (Nat.lt_of_le_of_lt (Nat.sub_le _ _) t.isLt)) ((dat1 V c).owesAt () t.castSucc))
      isplitl [HΦ]; · iexact HΦ
      isplitl [Ho]; · iexact Ho
      isplitl [HQ]; · iexact HQ
      isplitl [HK]; · iexact HK
      isplitl [HV]; · iexact HV
      iexists _; iexact HO
    · have hnl : ¬condLast (grid1.coords t) := fun h => hL ((hcondLast t).mp h)
      rw [Dat.leavesExact_idle (dat1 V c) 3 t (idle_o t hnl) (noFlush_o t hnl), outsAt1_middle V c t hF hL, PhiS_pos V c t.val _ hz]
      iintro ⟨HΦ, Ho, ⟨%dq, HQ⟩, ⟨%dk, HK⟩, ⟨%dv, HV⟩, ⟨%dO, HO⟩⟩
      iapply (caseMiddle V c t hF hL (outsAt1 V c (t.val - 1) (Nat.lt_of_le_of_lt (Nat.sub_le _ _) t.isLt)) ((dat1 V c).owesAt () t.castSucc) ((dat1 V c).before 3 t dO) _
        (show owns (c : Thread nD τ) (msO t) fullShare ((dat1 V c).before 3 t dO) ⊢ iprop(∃ d, owns (c : Thread nD τ) (msO t) fullShare ((dat1 V c).before 3 t d)) from by
          iintro H; iexists dO; iexact H))
      isplitl [HΦ]; · iexact HΦ
      isplitl [Ho]; · iexact Ho
      isplitl [HQ]; · iexact HQ
      isplitl [HK]; · iexact HK
      isplitl [HV]; · iexact HV
      iexact HO

/-- The body obligation of the attention launch, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class invariant back: the scratch buffers' contents are forgotten. -/
theorem hout1 (c : Dev nD) : (dat1 V c).Φ (Fin.last cfg1.N) ⊢ (Pipeline.ΦA spec1 c : sProp 𝕄) := by
  dsimp only [dat1]
  exact (PhiS_any V c _ _).trans (any_PhiA c)

end Cert.Kernel.Hand1

end
-- ==== Proof.KFrames0.lean ====
/-
  The frame, first half: what the buffers hold between @main's five items, and the first launch as a segment.

  @main is a host stretch (patchify, two transposes, three format changes), the first launch, a host stretch (the head
  split), the attention launch, and a host stretch (the head merge). Between items every unscoped buffer is held at a
  known valuation: the launch memory, then each host stretch's operations applied, then each launch's output array
  replaced by what that launch's proof data computes for it. The first launch's seven windows read six distinct arrays
  and write a seventh, so its arrays are taken out of the unscoped buffers and put back whole.
-/
import proofs.«139566_j53790170415805_2_alg».proof.Proof.KRegion0
import proofs.«139566_j53790170415805_2_alg».proof.Proof.KRegion1
import proofs.«139566_j53790170415805_2_alg».proof.Proof.Gen.Kernel.Regions
import Idealize.ShloMosaic.Lib.Pipeline.RegionsLoop
import Idealize.ShloMosaic.Lib.Pipeline.FrameSuffix

set_option maxRecDepth 16384

noncomputable section

namespace Cert.Kernel.HandFrame

open Cert.Kernel Cert.Kernel.Gen Cert.Kernel.Hand0 Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- What the first launch is entered from: the launch memory with the first host stretch applied. -/
abbrev Vin0 : (c : Dev nD) → (b : Ref sig .tc) → Buf (Elt F) ((c : Thread nD τ).loc b) := fun c b => Gen.V1 m c b
/-- What the first launch leaves in its output array. -/
def X0 (c : Dev nD) : Buf (Elt F) ((c : Thread nD τ).loc main_v8) := (dat0 (Vin0 m) c).arrAt 6 cfg0.N
/-- After the first launch, -/
def W2 (c : Dev nD) : Valuation τ sig (Elt F) := Function.update (Gen.V1 m c) main_v8 (X0 m c)
/-- and after the head split. -/
def W3 (c : Dev nD) : Valuation τ sig (Elt F) := StableHlo.after hostOps1 (W2 m c)
/-- What the attention launch is entered from. -/
abbrev Vin1 : (c : Dev nD) → (b : Ref sig .tc) → Buf (Elt F) ((c : Thread nD τ).loc b) := fun c b => W3 m c b
/-- What the attention launch leaves in its output array. -/
def X1 (c : Dev nD) : Buf (Elt F) ((c : Thread nD τ).loc main_v11) := (dat1 (Vin1 m) c).arrAt 3 cfg1.N

/-- The two launches' output contents, as the table the generated valuations are written over. -/
def outs : Gen.Outs (F := F) := fun _ r c =>
  if h : r = main_v8 then h ▸ X0 m c else if h' : r = main_v11 then h' ▸ X1 m c else m ((c : Thread nD τ).loc r)

theorem outs_v8 (c : Dev nD) (j : ℕ) : outs m j main_v8 c = X0 m c := by
  unfold outs; rw [dif_pos rfl]
theorem outs_v11 (c : Dev nD) (j : ℕ) : outs m j main_v11 c = X1 m c := by
  unfold outs; rw [dif_neg (by decide), dif_pos rfl]

theorem V2_eq (c : Dev nD) : Gen.V2 m (outs m) c = W2 m c := by
  show Function.update (Gen.V1 m c) main_v8 (outs m 2 main_v8 c) = _
  rw [outs_v8]; rfl
theorem V3_eq (c : Dev nD) : Gen.V3 m (outs m) c = W3 m c := by
  show StableHlo.after hostOps1 (Gen.V2 m (outs m) c) = _
  rw [V2_eq]; rfl
theorem V4_eq (c : Dev nD) : Gen.V4 m (outs m) c = Function.update (W3 m c) main_v11 (X1 m c) := by
  show Function.update (Gen.V3 m (outs m) c) main_v11 (outs m 4 main_v11 c) = _
  rw [V3_eq, outs_v11]

/-! ## The proof data family and what rides beside the buffers -/

/-- Both launches' proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state and its debts, none. -/
abbrev R (c : Dev nD) : sProp 𝕄 := iprop((∃ r, prngReg c r) ∗ ∃ W, owes (c : Thread nD τ) (0 : CellTallies nD τ sig Unit) W)

/-! ## The first launch as a segment -/

/-- What the first launch is left at, read at the TensorCore's references. -/
abbrev Vout0 : (c : Dev nD) → (b : Ref sig .tc) → Buf (Elt F) ((c : Thread nD τ).loc b) := fun c b => Gen.V2 m (outs m) c b

/-- At the first launch's exit each of its arrays holds what the pipeline leaves: the six inputs as entered, the output the
    launch's result. -/
theorem hF0 (c : Dev nD) (w : Fin cfg0.W) : (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (Gen.V2_of m (outs m) c _ (by decide)).symm)
  | ⟨1, _⟩ => exact ((dat0 (Vin0 m) c).arrAt_in 1 rfl _).trans ((A_eq0 (Vin0 m) c 1).trans (Gen.V2_of m (outs m) c _ (by decide)).symm)
  | ⟨2, _⟩ => exact ((dat0 (Vin0 m) c).arrAt_in 2 rfl _).trans ((A_eq0 (Vin0 m) c 2).trans (Gen.V2_of m (outs m) c _ (by decide)).symm)
  | ⟨3, _⟩ => exact ((dat0 (Vin0 m) c).arrAt_in 3 rfl _).trans ((A_eq0 (Vin0 m) c 3).trans (Gen.V2_of m (outs m) c _ (by decide)).symm)
  | ⟨4, _⟩ => exact ((dat0 (Vin0 m) c).arrAt_in 4 rfl _).trans ((A_eq0 (Vin0 m) c 4).trans (Gen.V2_of m (outs m) c _ (by decide)).symm)
  | ⟨5, _⟩ => exact ((dat0 (Vin0 m) c).arrAt_in 5 rfl _).trans ((A_eq0 (Vin0 m) c 5).trans (Gen.V2_of m (outs m) c _ (by decide)).symm)
  | ⟨6, _⟩ =>
    show (dat0 (Vin0 m) c).arrAt 6 cfg0.N = Function.update (Gen.V1 m c) main_v8 (outs m 2 main_v8 c) main_v8
    rw [Function.update_self, outs_v8]; rfl
/-- and every other buffer what it held at entry. -/
theorem hrest0 (c : Dev nD) : ∀ b, b ∉ Finset.univ.image (Pipeline.arrRef spec0) → Vout0 m c b = Vin0 m c b := fun b hb =>
  Gen.V2_of m (outs m) c b (by
    intro h
    rw [List.mem_singleton] at h
    exact hb (Finset.mem_image.mpr ⟨6, Finset.mem_univ _, h.symm⟩))

set_option backward.isDefEq.respectTransparency.types false in
/-- THE FIRST LAUNCH over the thread state: entered from every unscoped buffer at the contents after the first host stretch,
    left with its output array replaced by the launch's result. Its arrays are split out of the unscoped buffers and put
    back; the generator register goes into the class invariant and comes out; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandFrame

end
-- ==== Proof.KFrames1.lean ====
/-
  The frame, second half: the attention launch as a segment.

  Its three input windows (queries, keys, values) read ONE array, the head-split projection, and its output window
  writes another. The array the three inputs share is held whole between items; at the launch's entry its one full
  holding is cut into a half and two quarters, one part per input window (each enough to read), and at the exit the three
  parts, still at the entry contents since no input window writes, are joined back. The output array goes in whole and
  comes back at what the launch computes.
-/
import proofs.«139566_j53790170415805_2_alg».proof.Proof.KFrames0

set_option maxRecDepth 16384

noncomputable section

namespace Cert.Kernel.HandFrame

open Cert.Kernel Cert.Kernel.Gen Cert.Kernel.Hand0 Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One buffer's full holding as a half and two quarters -/

theorem split3 (ℓ : Loc nD τ sig) (f : ℓ.ty.Contents (Elt F)) :
    (ℓ ↦{fullShare} f : sProp 𝕄) ⊢ iprop((ℓ ↦{shareQ} f) ∗ (ℓ ↦{shareK} f) ∗ (ℓ ↦{shareV} f)) := by
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  iexact Hrr

theorem join3 (ℓ : Loc nD τ sig) (f : ℓ.ty.Contents (Elt F)) :
    iprop((ℓ ↦{shareQ} f) ∗ (ℓ ↦{shareK} f) ∗ (ℓ ↦{shareV} f)) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-! ## The attention launch's arrays, listed -/

variable (V : (c : Dev nD) → (b : Ref sig .tc) → Buf (Elt F) ((c : Thread nD τ).loc b))

/-- The launch's holdings of its windows' arrays at contents `Fa`: three parts of the shared array, the output array whole. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v10) ↦{shareQ} Fa 0) ∗ (((c : Thread nD τ).loc main_v10) ↦{shareK} Fa 1)
          ∗ (((c : Thread nD τ).loc main_v10) ↦{shareV} Fa 2) ∗ (((c : Thread nD τ).loc main_v11) ↦{fullShare} Fa 3)) := by
  unfold Dat.arrays
  rw [bigSep_W1, (arr_whole1 0).set_eq_univ, (arr_whole1 3).set_eq_univ]
  rfl

/-- The two distinct buffers behind the four windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v10) ↦{fullShare} W main_v10) ∗ (((c : Thread nD τ).loc main_v11) ↦{fullShare} W main_v11)) := by
  unfold Pipeline.arrBufs
  rw [show Finset.univ.image (Pipeline.arrRef spec1) = insert main_v10 {main_v11} from by decide,
    BI.bigSep_insert (by decide), BI.bigSep_singleton]
  rfl

/-- The core's unscoped buffers are those two and the rest. -/
theorem ubufs_split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄) ∗ Pipeline.unscopedRest spec1 c W) := by
  classical
  have hA : Finset.univ.image (Pipeline.arrRef spec1) ⊆ Finset.univ.filter fun b : Ref sig .tc => ¬ b.isScoped := by decide
  unfold unscopedBufs Pipeline.unscopedRest Pipeline.arrBufs
  rw [BI.bigSep_sdiff_split hA]
  rfl

/-! ## The attention launch as a segment -/

/-- What the attention launch is left at, read at the TensorCore's references. -/
abbrev Vout1 : (c : Dev nD) → (b : Ref sig .tc) → Buf (Elt F) ((c : Thread nD τ).loc b) :=
  fun c b => Function.update (W3 m c) main_v11 (X1 m c) b

theorem Vout1_v10 (c : Dev nD) : Vout1 m c main_v10 = Vin1 m c main_v10 :=
  Function.update_of_ne (StableHlo.devRef_ne_of_ne (by decide) : (Proc.devRef .tc main_v10 : DevRef τ sig) ≠ Proc.devRef .tc main_v11) ..
theorem Vout1_v11 (c : Dev nD) : Vout1 m c main_v11 = X1 m c := Function.update_self ..
theorem rest1_eq (c : Dev nD) :
    (Pipeline.unscopedRest (Ix := Unit) (Name := ℕ) (U := UR sig nD τ) (Lvl := ℕ) spec1 c (Vout1 m c) : sProp 𝕄)
      = Pipeline.unscopedRest spec1 c (Vin1 m c) := by
  unfold Pipeline.unscopedRest
  refine BI.bigSep_congr fun b hb => ?_
  have hne : b ≠ main_v11 := fun h => (Finset.mem_sdiff.mp hb).2 (Finset.mem_image.mpr ⟨3, Finset.mem_univ _, h.symm⟩)
  rw [show Vout1 m c b = Vin1 m c b from
    Function.update_of_ne (StableHlo.devRef_ne_of_ne hne : (Proc.devRef .tc b : DevRef τ sig) ≠ Proc.devRef .tc main_v11) ..]

/-- At the exit the three parts of the shared array, still at the entry contents, are one full holding again; the output
    array is held at the launch's result. -/
theorem exit_arrays (c : Dev nD) :
    ((dat1 (Vin1 m) c).arrays ((dat1 (Vin1 m) c).arrAt · cfg1.N) : sProp 𝕄)
      ⊢ iprop((((c : Thread nD τ).loc main_v10) ↦{fullShare} Vin1 m c main_v10) ∗ (((c : Thread nD τ).loc main_v11) ↦{fullShare} X1 m c)) := by
  rw [arrays1_eq (Vin1 m) c]
  rw [(dat1 (Vin1 m) c).arrAt_in 0 rfl cfg1.N, (dat1 (Vin1 m) c).arrAt_in 1 rfl cfg1.N, (dat1 (Vin1 m) c).arrAt_in 2 rfl cfg1.N]
  iintro ⟨Hq, Hk, Hv, H11⟩
  isplitl [Hq Hk Hv]
  · iapply (join3 _ _)
    isplitl [Hq]; · iexact Hq
    isplitl [Hk]; · iexact Hk
    iexact Hv
  · iexact H11

set_option backward.isDefEq.respectTransparency.types false in
/-- THE ATTENTION LAUNCH over the thread state: entered from every unscoped buffer at the contents after the head split,
    left with its output array replaced by the launch's result. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V3_eq, ← Pipeline.unscopedBufs_held c (W3 m c), ubufs_split1 c (Vin1 m c), arrBufs1_eq c (Vin1 m c)]
    rw [show (pdats m 1 c).arrays ((pdats m 1 c).arrAt · 0) = (dat1 (Vin1 m) c).arrays ((dat1 (Vin1 m) c).arrAt · 0) from rfl,
      arrays1_eq (Vin1 m) c]
    iintro ⟨⟨⟨⟨H10, H11⟩, Hrest⟩, Hp, HO⟩, -, -⟩
    ihave H3 := (split3 _ _) $$ H10
    icases H3 with ⟨Hq, Hk, Hv⟩
    imodintro
    isplitl [Hq Hk Hv H11]
    · isplitl [Hq]; · iexact Hq
      isplitl [Hk]; · iexact Hk
      isplitl [Hv]; · iexact Hv
      iexact H11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    rw [V4_eq, ← Pipeline.unscopedBufs_held c (Function.update (W3 m c) main_v11 (X1 m c)), ubufs_split1 c (Vout1 m c), arrBufs1_eq c (Vout1 m c),
      rest1_eq, Vout1_v10, Vout1_v11]
    have hx : ((pdats m 1 c).arrays (fun x => (pdats m 1 c).arrAt x (Pipeline.pin (pcfgs (F := F)) Gen.adm 1).N) : sProp 𝕄)
        ⊢ iprop((((c : Thread nD τ).loc main_v10) ↦{fullShare} Vin1 m c main_v10) ∗ (((c : Thread nD τ).loc main_v11) ↦{fullShare} X1 m c)) :=
      exit_arrays m c
    iintro ⟨Ha, HO, HY, Hrest⟩
    ihave Ha' := hx $$ Ha
    icases Ha' with ⟨H10, H11⟩
    imodintro
    isplitr [HO HY]
    · isplitr [Hrest]
      · isplitl [H10]; · iexact H10
        iexact H11
      · iexact Hrest
    isplitl [HY]; · iexact HY
    unfold Pipeline.Dat.owesAt Pipeline.owesWithin
    icases HO with ⟨%W, -, HO⟩; iexists W; iexact HO

end Cert.Kernel.HandFrame

end
-- ==== Proof.KFrames.lean ====
/-
  The frame of the whole program, at any float instance.

  Both launches' segment records fit the thread states between @main's items, so the conditional frame over the five
  items applies: every weakly fair execution of @main terminates, nothing faults, and the six argument arrays end as
  launched.
-/
import proofs.«139566_j53790170415805_2_alg».proof.Proof.KFrames1

set_option maxRecDepth 16384

noncomputable section

namespace Cert.Kernel.HandFrame

open Cert.Kernel Cert.Kernel.Gen Cert.Kernel.Hand0 Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells and duty tokens, nothing else. -/
def u₀ : UR sig nD τ := initOf (Pipeline.cells cfgs cellOf_inj) (Pipeline.launchToks cfgs cellOf_inj)

/-- What rides beside the buffers through every item, as the family the conditional frame asks for. -/
abbrev E : Fin 3 → Dev nD → sProp 𝕄 := fun _ c => R (F := F) c

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME of the program at any float instance: every weakly fair execution of @main from memory `m` with zero counters
    terminates, nothing faulting, and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb (UR sig nD τ) 𝕄) () 𝒱₀ L lv (fun _ _ => rfl) ρ (outs m) (pdats m)
    (fun _ => 0) (fun _ => iprop(emp)) u₀ hu₀ (E (F := F)) (hE0 ρ) hE2
    (reg0 m) (fun _ => .rfl) (fun _ => .rfl) (reg1 m) (fun _ => .rfl) (fun _ => .rfl)

end Cert.Kernel.HandFrame

end
-- ==== Proof.Region0.lean ====
/-
  Region 0 of the program (its first kernel region: a projection, a layer normalisation and a second projection, over
  a grid of 8 row blocks): the proof data of its pipeline and the body's obligation at every point, at any contents
  `V` of the TensorCore's buffers when the region is entered and for any float instance.

  The body has one control path: it loads its six input windows' staging buffers whole, computes, loads the output
  window's staging buffer (a value nothing reads) and stores one whole block into it. So what it leaves in the
  output's buffer at a point is a closed function of the six input blocks there — the store's payload laid over the
  whole buffer — and what it finds in an input's buffer is that window's block at the point, fetched there or not
  (windows 1 to 5 have a constant block index: fetched once, their block is the same at every point).
-/
import proofs.«139566_j53790170415805_2_alg».proof.Proof.Gen.KernelIdeal.Launch
import proofs.«139566_j53790170415805_2_alg».proof.Proof.Gen.KernelIdeal.Skeleton
import proofs.«139566_j53790170415805_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S512x256 := Rect.unit (s := S512x256) ![0, 0] S512x256.size inb_S512x256_S512x256_0_0
abbrev r0_1 : Rect S256x768 := Rect.unit (s := S256x768) ![0, 0] S256x768.size inb_S256x768_S256x768_0_0
abbrev r0_2 : Rect S768 := Rect.unit (s := S768) ![0] S768.size inb_S768_S768_0
abbrev r0_3 : Rect S768 := Rect.unit (s := S768) ![0] S768.size inb_S768_S768_0
abbrev r0_4 : Rect S768 := Rect.unit (s := S768) ![0] S768.size inb_S768_S768_0
abbrev r0_5 : Rect S768x2304 := Rect.unit (s := S768x2304) ![0, 0] S768x2304.size inb_S768x2304_S768x2304_0_0
abbrev r0_6 : Rect S512x2304 := Rect.unit (s := S512x2304) ![0, 0] S512x2304.size inb_S512x2304_S512x2304_0_0

/-! ## What the body leaves in the output window's buffer -/

/-- Window 6's staging buffer after the body, from the six input windows' blocks: its one store as a piece, whose payload
    is the value the body computes from what it loaded (the skeleton's named payload). -/
def out0_6 (x0 : Vec F S512x256 .bf16) (x1 : Vec F S256x768 .bf16) (x2 : Vec F S768 .f32) (x3 : Vec F S768 .f32) (x4 : Vec F S768 .f32) (x5 : Vec F S768x2304 .bf16) : Vec F S512x2304 .bf16 :=
  View.canon [⟨r0_6, k0_pay1 (View.ld x0 r0_0) (View.ld x1 r0_1) (View.ld x2 r0_2) (View.ld x3 r0_3) (View.ld x4 r0_4) (View.ld x5 r0_5)⟩]

/-- The store is of the whole block, so it covers the buffer. -/
theorem cover0_6 (p0 : Vec F S512x2304 .bf16) (y : S512x2304.Idx) :
    ∃ pc ∈ ([⟨r0_6, p0⟩] : List (View.Piece (Elt F) S512x2304 .bf16)), y ∈ pc.1.set :=
  View.cover_of_tiled [⟨r0_6, p0⟩] S512x2304.size (by rfl) y

/-! ## The body's triple -/

set_option maxHeartbeats 1000000 in
/-- The kernel body on whole staging memrefs, the inputs' at read contents `xW` and the output's at anything, runs to the
    continuation holding the inputs' as they were and the output's at `out0_6` of the inputs': the printed function is
    its skeleton of memory operations over the named payload, run operation by operation (the load of the output's
    buffer reads contents nothing uses). -/
theorem sound_kernel0 (c : Dev nD) (E : Set ℕ) (i : grid0.Coords) (arg1 : Memref sig .tc .vmem S512x256 .bf16) (harg1 : arg1.IsWhole) (arg2 : Memref sig .tc .vmem S256x768 .bf16) (harg2 : arg2.IsWhole) (arg3 : Memref sig .tc .vmem S768 .f32) (harg3 : arg3.IsWhole) (arg4 : Memref sig .tc .vmem S768 .f32) (harg4 : arg4.IsWhole) (arg5 : Memref sig .tc .vmem S768 .f32) (harg5 : arg5.IsWhole) (arg6 : Memref sig .tc .vmem S768x2304 .bf16) (harg6 : arg6.IsWhole) (arg7 : Memref sig .tc .vmem S512x2304 .bf16) (harg7 : arg7.IsWhole)
    (x0 : Vec F S512x256 .bf16) (x1 : Vec F S256x768 .bf16) (x2 : Vec F S768 .f32) (x3 : Vec F S768 .f32) (x4 : Vec F S768 .f32) (x5 : Vec F S768x2304 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0_embed_ln_qkv_kernel i arg1 harg1 arg2 harg2 arg3 harg3 arg4 harg4 arg5 harg5 arg6 harg6 arg7 harg7) K := by
  simp only [cc0_embed_ln_qkv_kernel_eq_skeleton]; unfold cc0_embed_ln_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of pipeline 0 on core `c`: the arrays as the region finds them (`V`); after the body at point `t`
    each input's buffer at its block and the output's at `out0_6` of the six input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window: an input's block in place, and in the output's buffer the store's payload
    over the six input blocks at the point. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.R1Runs.lean ====
/-
  The attention region (the second kernel launch): what its three control cases share.

  The grid has 12 · 4 · 8 points, the last axis the sweep over the eight key blocks of one (head, query block) pair.
  The body branches twice on the position in that sweep: at its first point it resets the running maximum, the running
  denominator and the running numerator (three scratch buffers kept between points); at its last point it divides the
  numerator by the denominator and stores the quotient into the output block. A point is therefore in one of three
  cases: FIRST (reset, accumulate), MIDDLE (accumulate), LAST (accumulate, divide and store). The output block is
  written, and written back, only in case LAST.
-/
import proofs.«139566_j53790170415805_2_alg».proof.Proof.Gen.KernelIdeal.Launch
import proofs.«139566_j53790170415805_2_alg».proof.Proof.Gen.KernelIdeal.Skeleton
import proofs.«139566_j53790170415805_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "This is the first key block of the sweep": the body's first conditional, as the chain of comparisons it prints. -/
abbrev condFirst (i : grid1.Coords) : Prop :=
  (Scalar.cmpi .ne (Scalar.extui (Scalar.cmpi .eq (BitVec.ofNat 32 (i 2).val) 0#32)) 0#32) = 1#1
/-- It holds exactly at the points whose position in the sweep of eight is 0. -/
theorem hcondFirst : ∀ t : Fin cfg1.N, condFirst (grid1.coords t) ↔ t.val % 8 = 0 :=
  (by decide +kernel : ∀ t : Fin grid1.N, condFirst (grid1.coords t) ↔ t.val % 8 = 0)

/-- "This is the last key block of the sweep": the body's second conditional. -/
abbrev condLast (i : grid1.Coords) : Prop := k1_cond2 i = 1#1
/-- It holds exactly at the points whose position in the sweep of eight is 7. -/
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

/-- The three input windows (queries, keys, values) are never idle. -/
theorem live_q : ∀ t : Fin cfg1.N, cfg1.idle 0 (grid1.coords t) = false := fun _ => rfl
theorem live_k : ∀ t : Fin cfg1.N, cfg1.idle 1 (grid1.coords t) = false := fun _ => rfl
theorem live_v : ∀ t : Fin cfg1.N, cfg1.idle 2 (grid1.coords t) = false := fun _ => rfl
/-- Away from the last key block the output window is idle: nothing is stored into it, -/
theorem idle_o : ∀ t : Fin cfg1.N, ¬condLast (grid1.coords t) → cfg1.idle 3 (grid1.coords t) = true := by decide +kernel
/-- and it is not written back there. -/
theorem noFlush_o : ∀ t : Fin cfg1.N, ¬condLast (grid1.coords t) → (cfg1.win 3).flush t = false := by decide +kernel
/-- At the last key block it is live. -/
theorem live_o : ∀ t : Fin cfg1.N, condLast (grid1.coords t) → cfg1.idle 3 (grid1.coords t) = false := by decide +kernel

/-! ## The memrefs the body is called with -/

/-- Each window's current staging memref at point `t`, spelled as the pipeline passes it, and its wholeness. -/
abbrev msQ (t : Fin cfg1.N) : Memref sig .tc .vmem S1x1x1024x64 .bf16 := win1_0.stage (cfg1.slots t 0)
abbrev hsQ (t : Fin cfg1.N) : (msQ t).IsWhole := hstage1_0 ((cfg1.slots t 0).cast nbuf1_0)
abbrev msK (t : Fin cfg1.N) : Memref sig .tc .vmem S1x1x512x64 .bf16 := win1_1.stage (cfg1.slots t 1)
abbrev hsK (t : Fin cfg1.N) : (msK t).IsWhole := hstage1_1 ((cfg1.slots t 1).cast nbuf1_1)
abbrev msV (t : Fin cfg1.N) : Memref sig .tc .vmem S1x1x512x64 .bf16 := win1_2.stage (cfg1.slots t 2)
abbrev hsV (t : Fin cfg1.N) : (msV t).IsWhole := hstage1_2 ((cfg1.slots t 2).cast nbuf1_2)
abbrev msO (t : Fin cfg1.N) : Memref sig .tc .vmem S1x1024x64 .f32 := win1_3.stage (cfg1.slots t 3)
abbrev hsO (t : Fin cfg1.N) : (msO t).IsWhole := hstage1_3 ((cfg1.slots t 3).cast nbuf1_3)
/-- The three scratch buffers kept between points: the running maximum, the running denominator, the running numerator. -/
abbrev scMax : Memref sig .tc .vmem S1024x1 .f32 := Memref.whole cc1_scratch0
abbrev scDen : Memref sig .tc .vmem S1024x1 .f32 := Memref.whole cc1_scratch1
abbrev scNum : Memref sig .tc .vmem S1024x64 .f32 := Memref.whole cc1_scratch2
/-- Views through which the contents of the output block and of the scratch buffers are stated. -/
abbrev VOut : View sig .tc .vmem S1x1024x64 .f32 := (Memref.whole cc1_stg3_0 : Memref sig .tc .vmem S1x1024x64 .f32).view
abbrev VMax : View sig .tc .vmem S1024x1 .f32 := scMax.view
abbrev VDen : View sig .tc .vmem S1024x1 .f32 := scDen.view
abbrev VNum : View sig .tc .vmem S1024x64 .f32 := scNum.view

/-- The other launch's nine staging buffers, each at some contents: scoped buffers this body never touches. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The same nine buffers in front of a further assertion `T`, as one right-nested chain: the form the launch's list of
    scoped buffers has. -/
def beside (c : Dev nD) (T : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ T)

/-- Regrouping: the nine buffers taken apart from what follows them, -/
theorem beside_elim (c : Dev nD) (T : sProp 𝕄) : beside (F := F) c T ⊢ iprop(otherStaging (F := F) c ∗ T) := by
  unfold beside otherStaging
  iintro ⟨H1, H2, H3, H4, H5, H6, H7, H8, H9, HT⟩
  isplitr [HT]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact HT

/-- and put back in front of it. -/
theorem beside_intro (c : Dev nD) (T : sProp 𝕄) : iprop(otherStaging (F := F) c ∗ T) ⊢ beside (F := F) c T := by
  unfold beside otherStaging
  iintro ⟨⟨H1, H2, H3, H4, H5, H6, H7, H8, H9⟩, HT⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HT

/-- The class invariant of this launch, spelled out: the other launch's staging buffers, then the three scratch buffers at
    some contents each, and the generator register at some state. -/
theorem PhiA1_eq (c : Dev nD) :
    (Pipeline.ΦA spec1 c : sProp 𝕄)
      = iprop(beside (F := F) c iprop((∃ d, owns (c : Thread nD τ) scMax fullShare d) ∗ (∃ d, owns (c : Thread nD τ) scDen fullShare d)
          ∗ (∃ d, owns (c : Thread nD τ) scNum fullShare d)) ∗ (∃ r, prngReg c r)) := by
  unfold Pipeline.ΦA beside; rw [scopedRest1_eq]; simp only [scMax, scDen, scNum, owns_whole]; try rfl

end Cert.KernelIdeal.Hand1

end
-- ==== Proof.R1RunFirst.lean ====
/-
  The attention body at the FIRST key block of a sweep: the three scratch buffers are reset (whatever they held), then the block's scores are folded in. The output block is not touched.
-/
import proofs.«139566_j53790170415805_2_alg».proof.Proof.R1Runs

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run in this case on whole memrefs: the three input blocks are read and handed back as they were; each
    buffer the body stores into ends holding its stores, recorded as a list of pieces (last store first) that the run
    itself determines. -/
noncomputable def runFirst (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : condFirst i) (hcL : ¬condLast i)
    (xq : Vec F S1x1x1024x64 .bf16) (xk : Vec F S1x1x512x64 .bf16) (xv : Vec F S1x1x512x64 .bf16) :
    Σ' (LMax : List (View.Piece (Elt F) S1024x1 .f32)) (LDen : List (View.Piece (Elt F) S1024x1 .f32)), { LNum : List (View.Piece (Elt F) S1024x64 .f32) //
      ∀ (xo : Vec F S1x1024x64 .f32) (E : Set ℕ) (K : PUnit → sProp 𝕄),
        iprop(owns (c : Thread nD τ) argQ fullShare xq ∗ owns (c : Thread nD τ) argK fullShare xk ∗ owns (c : Thread nD τ) argV fullShare xv ∗ owns (c : Thread nD τ) argO fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) argQ fullShare xq ∗ owns (c : Thread nD τ) argK fullShare xk ∗ owns (c : Thread nD τ) argV fullShare xv ∗ owns (c : Thread nD τ) argO fullShare xo
                ∗ (∃ f, arg7.view.loc (c : Thread nD τ) ↦[arg7.view.set]{fullShare} arg7.view.writes (Elt F) f LMax) ∗ (∃ f, arg8.view.loc (c : Thread nD τ) ↦[arg8.view.set]{fullShare} arg8.view.writes (Elt F) f LDen) ∗ (∃ f, arg9.view.loc (c : Thread nD τ) ↦[arg9.view.set]{fullShare} arg9.view.writes (Elt F) f LNum)) -∗ K ⟨⟩))
          ⊢ wp frame (wpE (defs₀ (F := F)) Variants.none c none) E (cc1_attn_kernel i argQ hQ argK hK argV hV argO hO arg7 h7 arg8 h8 arg9 h9) K } := by
  refine ⟨?_, ?_, ?_, fun xo E K => ?run⟩
  case run =>
    simp only [cc1_attn_kernel_eq_skeleton]; unfold cc1_attn_kernel_skel
    simp only [k1_part1_eq_skeleton]; unfold k1_part1_skel
    unfold owns
    iintro ⟨⟨%fq, %hfq, HQ⟩, ⟨%fk, %hfk, HK⟩, ⟨%fv, %hfv, HV⟩, ⟨%fo, %hfo, HO⟩, ⟨%d7, %f7, -, H7⟩, ⟨%d8, %f8, -, H8⟩, ⟨%d9, %f9, -, H9⟩, Hk⟩
    obtain rfl := hQ.eq_unread hfq; obtain rfl := hK.eq_unread hfk; obtain rfl := hV.eq_unread hfv; obtain rfl := hO.eq_unread hfo
    sl_exec (disch := first | exact hcF | exact hcL)
    sl_step
    iapply Hk
    isplitl [HQ]
    · iexists _; isplitr; · ipureintro; exact hQ.read_unread _
      iexact HQ
    isplitl [HK]
    · iexists _; isplitr; · ipureintro; exact hK.read_unread _
      iexact HK
    isplitl [HV]
    · iexists _; isplitr; · ipureintro; exact hV.read_unread _
      iexact HV
    isplitl [HO]
    · iexists _; isplitr; · ipureintro; exact hO.read_unread _
      iexact HO
    isplitl [H7]; · iexists _; iexact H7
    isplitl [H8]; · iexists _; iexact H8
    iexists _; iexact H9

end Cert.KernelIdeal.Hand1

end
-- ==== Proof.R1RunMiddle.lean ====
/-
  The attention body at a MIDDLE key block of a sweep: the scratch buffers hold what the block before left, and the block's scores are folded in. The output block is not touched.
-/
import proofs.«139566_j53790170415805_2_alg».proof.Proof.R1RunFirst

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run in this case on whole memrefs: the three input blocks are read and handed back as they were; each
    buffer the body stores into ends holding its stores, recorded as a list of pieces (last store first) that the run
    itself determines. -/
noncomputable def runMiddle (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : ¬condLast i)
    (xq : Vec F S1x1x1024x64 .bf16) (xk : Vec F S1x1x512x64 .bf16) (xv : Vec F S1x1x512x64 .bf16) (xm : Vec F S1024x1 .f32) (xd : Vec F S1024x1 .f32) (xn : Vec F S1024x64 .f32) :
    Σ' (LMax : List (View.Piece (Elt F) S1024x1 .f32)) (LDen : List (View.Piece (Elt F) S1024x1 .f32)), { LNum : List (View.Piece (Elt F) S1024x64 .f32) //
      ∀ (xo : Vec F S1x1024x64 .f32) (E : Set ℕ) (K : PUnit → sProp 𝕄),
        iprop(owns (c : Thread nD τ) argQ fullShare xq ∗ owns (c : Thread nD τ) argK fullShare xk ∗ owns (c : Thread nD τ) argV fullShare xv ∗ owns (c : Thread nD τ) argO fullShare xo
            ∗ owns (c : Thread nD τ) arg7 fullShare xm ∗ owns (c : Thread nD τ) arg8 fullShare xd ∗ owns (c : Thread nD τ) arg9 fullShare xn
            ∗ (iprop(owns (c : Thread nD τ) argQ fullShare xq ∗ owns (c : Thread nD τ) argK fullShare xk ∗ owns (c : Thread nD τ) argV fullShare xv ∗ owns (c : Thread nD τ) argO fullShare xo
                ∗ (∃ f, arg7.view.loc (c : Thread nD τ) ↦[arg7.view.set]{fullShare} arg7.view.writes (Elt F) f LMax) ∗ (∃ f, arg8.view.loc (c : Thread nD τ) ↦[arg8.view.set]{fullShare} arg8.view.writes (Elt F) f LDen) ∗ (∃ f, arg9.view.loc (c : Thread nD τ) ↦[arg9.view.set]{fullShare} arg9.view.writes (Elt F) f LNum)) -∗ K ⟨⟩))
          ⊢ wp frame (wpE (defs₀ (F := F)) Variants.none c none) E (cc1_attn_kernel i argQ hQ argK hK argV hV argO hO arg7 h7 arg8 h8 arg9 h9) K } := by
  refine ⟨?_, ?_, ?_, fun xo E K => ?run⟩
  case run =>
    simp only [cc1_attn_kernel_eq_skeleton]; unfold cc1_attn_kernel_skel
    simp only [k1_part1_eq_skeleton]; unfold k1_part1_skel
    unfold owns
    iintro ⟨⟨%fq, %hfq, HQ⟩, ⟨%fk, %hfk, HK⟩, ⟨%fv, %hfv, HV⟩, ⟨%fo, %hfo, HO⟩, ⟨%f7, %hf7, H7⟩, ⟨%f8, %hf8, H8⟩, ⟨%f9, %hf9, H9⟩, Hk⟩
    obtain rfl := hQ.eq_unread hfq; obtain rfl := hK.eq_unread hfk; obtain rfl := hV.eq_unread hfv; obtain rfl := hO.eq_unread hfo; obtain rfl := h7.eq_unread hf7; obtain rfl := h8.eq_unread hf8; obtain rfl := h9.eq_unread hf9
    sl_exec (disch := first | exact hcF | exact hcL)
    sl_step
    iapply Hk
    isplitl [HQ]
    · iexists _; isplitr; · ipureintro; exact hQ.read_unread _
      iexact HQ
    isplitl [HK]
    · iexists _; isplitr; · ipureintro; exact hK.read_unread _
      iexact HK
    isplitl [HV]
    · iexists _; isplitr; · ipureintro; exact hV.read_unread _
      iexact HV
    isplitl [HO]
    · iexists _; isplitr; · ipureintro; exact hO.read_unread _
      iexact HO
    isplitl [H7]; · iexists _; iexact H7
    isplitl [H8]; · iexists _; iexact H8
    iexists _; iexact H9

end Cert.KernelIdeal.Hand1

end
-- ==== Proof.R1RunLast.lean ====
/-
  The attention body at the LAST key block of a sweep: the block's scores are folded in, then the numerator is divided by the denominator and the quotient stored into the output block.
-/
import proofs.«139566_j53790170415805_2_alg».proof.Proof.R1RunMiddle

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run in this case on whole memrefs: the three input blocks are read and handed back as they were; each
    buffer the body stores into ends holding its stores, recorded as a list of pieces (last store first) that the run
    itself determines. -/
noncomputable def runLast (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : condLast i)
    (xq : Vec F S1x1x1024x64 .bf16) (xk : Vec F S1x1x512x64 .bf16) (xv : Vec F S1x1x512x64 .bf16) (xm : Vec F S1024x1 .f32) (xd : Vec F S1024x1 .f32) (xn : Vec F S1024x64 .f32) :
    Σ' (LOut : List (View.Piece (Elt F) S1x1024x64 .f32)) (LMax : List (View.Piece (Elt F) S1024x1 .f32)) (LDen : List (View.Piece (Elt F) S1024x1 .f32)), { LNum : List (View.Piece (Elt F) S1024x64 .f32) //
      ∀ (E : Set ℕ) (K : PUnit → sProp 𝕄),
        iprop(owns (c : Thread nD τ) argQ fullShare xq ∗ owns (c : Thread nD τ) argK fullShare xk ∗ owns (c : Thread nD τ) argV fullShare xv ∗ (∃ d, owns (c : Thread nD τ) argO fullShare d)
            ∗ owns (c : Thread nD τ) arg7 fullShare xm ∗ owns (c : Thread nD τ) arg8 fullShare xd ∗ owns (c : Thread nD τ) arg9 fullShare xn
            ∗ (iprop(owns (c : Thread nD τ) argQ fullShare xq ∗ owns (c : Thread nD τ) argK fullShare xk ∗ owns (c : Thread nD τ) argV fullShare xv ∗ (∃ f, argO.view.loc (c : Thread nD τ) ↦[argO.view.set]{fullShare} argO.view.writes (Elt F) f LOut)
                ∗ (∃ f, arg7.view.loc (c : Thread nD τ) ↦[arg7.view.set]{fullShare} arg7.view.writes (Elt F) f LMax) ∗ (∃ f, arg8.view.loc (c : Thread nD τ) ↦[arg8.view.set]{fullShare} arg8.view.writes (Elt F) f LDen) ∗ (∃ f, arg9.view.loc (c : Thread nD τ) ↦[arg9.view.set]{fullShare} arg9.view.writes (Elt F) f LNum)) -∗ K ⟨⟩))
          ⊢ wp frame (wpE (defs₀ (F := F)) Variants.none c none) E (cc1_attn_kernel i argQ hQ argK hK argV hV argO hO arg7 h7 arg8 h8 arg9 h9) K } := by
  refine ⟨?_, ?_, ?_, ?_, fun E K => ?run⟩
  case run =>
    simp only [cc1_attn_kernel_eq_skeleton]; unfold cc1_attn_kernel_skel
    simp only [k1_part1_eq_skeleton]; unfold k1_part1_skel
    unfold owns
    iintro ⟨⟨%fq, %hfq, HQ⟩, ⟨%fk, %hfk, HK⟩, ⟨%fv, %hfv, HV⟩, ⟨%dO, %fo, -, HO⟩, ⟨%f7, %hf7, H7⟩, ⟨%f8, %hf8, H8⟩, ⟨%f9, %hf9, H9⟩, Hk⟩
    obtain rfl := hQ.eq_unread hfq; obtain rfl := hK.eq_unread hfk; obtain rfl := hV.eq_unread hfv; obtain rfl := h7.eq_unread hf7; obtain rfl := h8.eq_unread hf8; obtain rfl := h9.eq_unread hf9
    sl_exec (disch := first | exact hcF | exact hcL)
    sl_step
    iapply Hk
    isplitl [HQ]
    · iexists _; isplitr; · ipureintro; exact hQ.read_unread _
      iexact HQ
    isplitl [HK]
    · iexists _; isplitr; · ipureintro; exact hK.read_unread _
      iexact HK
    isplitl [HV]
    · iexists _; isplitr; · ipureintro; exact hV.read_unread _
      iexact HV
    isplitl [HO]; · iexists _; iexact HO
    isplitl [H7]; · iexists _; iexact H7
    isplitl [H8]; · iexists _; iexact H8
    iexists _; iexact H9

end Cert.KernelIdeal.Hand1

end
-- ==== Proof.Region1Data.lean ====
/-
  The attention region: its proof data.

  What the three scratch buffers and the output block hold after each grid point, by recursion on the point: at the
  first key block of a sweep the reset-and-accumulate case run on the point's blocks; at a later key block the
  accumulate case (and, at the last, the divide-and-store case) run on the point's blocks and on what the point before
  left in the scratch buffers. The region's invariant holds the scratch buffers at exactly those contents between
  points, so that each point's run is handed what the previous one left.
-/
import proofs.«139566_j53790170415805_2_alg».proof.Proof.R1RunLast

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is made at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved since the last fetch). -/
theorem beforeQ_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem beforeK_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem beforeV_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a grid point -/

/-- The reset-and-accumulate run at a point `t` that is the first key block of its sweep, on the point's memrefs and blocks. -/
abbrev firstAt (c : Dev nD) (t : Fin cfg1.N) (hF : t.val % 8 = 0) (hL : ¬t.val % 8 = 7) :=
  runFirst (F := F) c (grid1.coords t) (msQ t) (hsQ t) (msK t) (hsK t) (msV t) (hsV t) (msO t) (hsO t) scMax (Memref.isWhole_whole _) scDen (Memref.isWhole_whole _) scNum (Memref.isWhole_whole _) ((hcondFirst t).mpr hF) (fun h => hL ((hcondLast t).mp h)) (iblk1 V c 0 t) (iblk1 V c 1 t) (iblk1 V c 2 t)
/-- The accumulate run at a middle key block, on what the point before left in the scratch buffers. -/
abbrev middleAt (c : Dev nD) (t : Fin cfg1.N) (hF : ¬t.val % 8 = 0) (hL : ¬t.val % 8 = 7) (xm xd : Vec F S1024x1 .f32) (xn : Vec F S1024x64 .f32) :=
  runMiddle (F := F) c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) (fun h => hL ((hcondLast t).mp h)) (iblk1 V c 0 t) (iblk1 V c 1 t) (iblk1 V c 2 t) xm xd xn
/-- The accumulate, divide and store run at the last key block. -/
abbrev lastAt (c : Dev nD) (t : Fin cfg1.N) (hF : ¬t.val % 8 = 0) (hL : t.val % 8 = 7) (xm xd : Vec F S1024x1 .f32) (xn : Vec F S1024x64 .f32) :=
  runLast (F := F) c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) ((hcondLast t).mpr hL) (iblk1 V c 0 t) (iblk1 V c 1 t) (iblk1 V c 2 t) xm xd xn

/-- What a point leaves: the output block, the running maximum, the running denominator, the running numerator. -/
abbrev St (F : FTy → Type) [FloatOps F] : Type := Vec F S1x1024x64 .f32 × Vec F S1024x1 .f32 × Vec F S1024x1 .f32 × Vec F S1024x64 .f32

/-- The output block where no case stores into it: a placeholder nothing consults (there the window is neither written
    back nor read at the next point). -/
def outIdle : Vec F S1x1024x64 .f32 := VOut.read (Elt F) (VOut.writes (Elt F) VOut.junk [])

/-- After a first key block: each scratch buffer holds that run's stores into it, read back. -/
def stFirst (c : Dev nD) (t : Fin cfg1.N) (hF : t.val % 8 = 0) (hL : ¬t.val % 8 = 7) : St F :=
  (outIdle,
   VMax.read (Elt F) (VMax.writes (Elt F) VMax.junk (firstAt V c t hF hL).1),
   VDen.read (Elt F) (VDen.writes (Elt F) VDen.junk (firstAt V c t hF hL).2.1),
   VNum.read (Elt F) (VNum.writes (Elt F) VNum.junk (firstAt V c t hF hL).2.2.1))
/-- After a middle key block, from what the point before left. -/
def stMiddle (c : Dev nD) (t : Fin cfg1.N) (hF : ¬t.val % 8 = 0) (hL : ¬t.val % 8 = 7) (p : St F) : St F :=
  (outIdle,
   VMax.read (Elt F) (VMax.writes (Elt F) VMax.junk (middleAt V c t hF hL p.2.1 p.2.2.1 p.2.2.2).1),
   VDen.read (Elt F) (VDen.writes (Elt F) VDen.junk (middleAt V c t hF hL p.2.1 p.2.2.1 p.2.2.2).2.1),
   VNum.read (Elt F) (VNum.writes (Elt F) VNum.junk (middleAt V c t hF hL p.2.1 p.2.2.1 p.2.2.2).2.2.1))
/-- After the last key block, from what the point before left: the output block holds the quotient's store too. -/
def stLast (c : Dev nD) (t : Fin cfg1.N) (hF : ¬t.val % 8 = 0) (hL : t.val % 8 = 7) (p : St F) : St F :=
  (VOut.read (Elt F) (VOut.writes (Elt F) VOut.junk (lastAt V c t hF hL p.2.1 p.2.2.1 p.2.2.2).1),
   VMax.read (Elt F) (VMax.writes (Elt F) VMax.junk (lastAt V c t hF hL p.2.1 p.2.2.1 p.2.2.2).2.1),
   VDen.read (Elt F) (VDen.writes (Elt F) VDen.junk (lastAt V c t hF hL p.2.1 p.2.2.1 p.2.2.2).2.2.1),
   VNum.read (Elt F) (VNum.writes (Elt F) VNum.junk (lastAt V c t hF hL p.2.1 p.2.2.1 p.2.2.2).2.2.2.1))

/-! ## Each run's stores cover the buffer they go into (whole-buffer stores) -/

theorem coverFirstMax (c : Dev nD) (t : Fin cfg1.N) (hF : t.val % 8 = 0) (hL : ¬t.val % 8 = 7) (y : S1024x1.Idx) :
    ∃ pc ∈ (firstAt V c t hF hL).1, y ∈ pc.1.set := View.cover_of_tiledL (firstAt V c t hF hL).1 S1024x1.size (by sl_kernel_rfl) y
theorem coverFirstDen (c : Dev nD) (t : Fin cfg1.N) (hF : t.val % 8 = 0) (hL : ¬t.val % 8 = 7) (y : S1024x1.Idx) :
    ∃ pc ∈ (firstAt V c t hF hL).2.1, y ∈ pc.1.set := View.cover_of_tiledL (firstAt V c t hF hL).2.1 S1024x1.size (by sl_kernel_rfl) y
theorem coverFirstNum (c : Dev nD) (t : Fin cfg1.N) (hF : t.val % 8 = 0) (hL : ¬t.val % 8 = 7) (y : S1024x64.Idx) :
    ∃ pc ∈ (firstAt V c t hF hL).2.2.1, y ∈ pc.1.set := View.cover_of_tiledL (firstAt V c t hF hL).2.2.1 S1024x64.size (by sl_kernel_rfl) y
theorem coverMiddleMax (c : Dev nD) (t : Fin cfg1.N) (hF : ¬t.val % 8 = 0) (hL : ¬t.val % 8 = 7) (xm xd : Vec F S1024x1 .f32) (xn : Vec F S1024x64 .f32) (y : S1024x1.Idx) :
    ∃ pc ∈ (middleAt V c t hF hL xm xd xn).1, y ∈ pc.1.set := View.cover_of_tiledL (middleAt V c t hF hL xm xd xn).1 S1024x1.size (by sl_kernel_rfl) y
theorem coverMiddleDen (c : Dev nD) (t : Fin cfg1.N) (hF : ¬t.val % 8 = 0) (hL : ¬t.val % 8 = 7) (xm xd : Vec F S1024x1 .f32) (xn : Vec F S1024x64 .f32) (y : S1024x1.Idx) :
    ∃ pc ∈ (middleAt V c t hF hL xm xd xn).2.1, y ∈ pc.1.set := View.cover_of_tiledL (middleAt V c t hF hL xm xd xn).2.1 S1024x1.size (by sl_kernel_rfl) y
theorem coverMiddleNum (c : Dev nD) (t : Fin cfg1.N) (hF : ¬t.val % 8 = 0) (hL : ¬t.val % 8 = 7) (xm xd : Vec F S1024x1 .f32) (xn : Vec F S1024x64 .f32) (y : S1024x64.Idx) :
    ∃ pc ∈ (middleAt V c t hF hL xm xd xn).2.2.1, y ∈ pc.1.set := View.cover_of_tiledL (middleAt V c t hF hL xm xd xn).2.2.1 S1024x64.size (by sl_kernel_rfl) y
theorem coverLastOut (c : Dev nD) (t : Fin cfg1.N) (hF : ¬t.val % 8 = 0) (hL : t.val % 8 = 7) (xm xd : Vec F S1024x1 .f32) (xn : Vec F S1024x64 .f32) (y : S1x1024x64.Idx) :
    ∃ pc ∈ (lastAt V c t hF hL xm xd xn).1, y ∈ pc.1.set := View.cover_of_tiledL (lastAt V c t hF hL xm xd xn).1 S1x1024x64.size (by sl_kernel_rfl) y
theorem coverLastMax (c : Dev nD) (t : Fin cfg1.N) (hF : ¬t.val % 8 = 0) (hL : t.val % 8 = 7) (xm xd : Vec F S1024x1 .f32) (xn : Vec F S1024x64 .f32) (y : S1024x1.Idx) :
    ∃ pc ∈ (lastAt V c t hF hL xm xd xn).2.1, y ∈ pc.1.set := View.cover_of_tiledL (lastAt V c t hF hL xm xd xn).2.1 S1024x1.size (by sl_kernel_rfl) y
theorem coverLastDen (c : Dev nD) (t : Fin cfg1.N) (hF : ¬t.val % 8 = 0) (hL : t.val % 8 = 7) (xm xd : Vec F S1024x1 .f32) (xn : Vec F S1024x64 .f32) (y : S1024x1.Idx) :
    ∃ pc ∈ (lastAt V c t hF hL xm xd xn).2.2.1, y ∈ pc.1.set := View.cover_of_tiledL (lastAt V c t hF hL xm xd xn).2.2.1 S1024x1.size (by sl_kernel_rfl) y
theorem coverLastNum (c : Dev nD) (t : Fin cfg1.N) (hF : ¬t.val % 8 = 0) (hL : t.val % 8 = 7) (xm xd : Vec F S1024x1 .f32) (xn : Vec F S1024x64 .f32) (y : S1024x64.Idx) :
    ∃ pc ∈ (lastAt V c t hF hL xm xd xn).2.2.2.1, y ∈ pc.1.set := View.cover_of_tiledL (lastAt V c t hF hL xm xd xn).2.2.2.1 S1024x64.size (by sl_kernel_rfl) y

/-! ## The state point by point -/

/-- What the output block and the scratch buffers hold after the body at position `n`: the case the position in the sweep of
    eight selects, run on the point's blocks and (after a first block) on what position `n - 1` left. -/
def outsAt1 (c : Dev nD) : (n : ℕ) → n < cfg1.N → St F
  | 0, hn => stFirst V c ⟨0, hn⟩ (Nat.zero_mod _) (by simp)
  | n + 1, hn =>
    if hF : (n + 1) % 8 = 0 then stFirst V c ⟨n + 1, hn⟩ hF (fun h => by dsimp only at h hF; omega)
    else if hL : (n + 1) % 8 = 7 then stLast V c ⟨n + 1, hn⟩ hF hL (outsAt1 c n (Nat.lt_of_succ_lt hn))
    else stMiddle V c ⟨n + 1, hn⟩ hF hL (outsAt1 c n (Nat.lt_of_succ_lt hn))

theorem outsAt1_first (c : Dev nD) (t : Fin cfg1.N) (hF : t.val % 8 = 0) (hL : ¬t.val % 8 = 7) :
    outsAt1 V c t.val t.isLt = stFirst V c t hF hL := by
  obtain ⟨n, hn⟩ := t
  cases n with
  | zero => rfl
  | succ n => exact dif_pos hF
theorem outsAt1_middle (c : Dev nD) (t : Fin cfg1.N) (hF : ¬t.val % 8 = 0) (hL : ¬t.val % 8 = 7) :
    outsAt1 V c t.val t.isLt = stMiddle V c t hF hL (outsAt1 V c (t.val - 1) (Nat.lt_of_le_of_lt (Nat.sub_le _ _) t.isLt)) := by
  obtain ⟨n, hn⟩ := t
  cases n with
  | zero => exact absurd (Nat.zero_mod _) hF
  | succ n => exact (dif_neg hF).trans (dif_neg hL)
theorem outsAt1_last (c : Dev nD) (t : Fin cfg1.N) (hF : ¬t.val % 8 = 0) (hL : t.val % 8 = 7) :
    outsAt1 V c t.val t.isLt = stLast V c t hF hL (outsAt1 V c (t.val - 1) (Nat.lt_of_le_of_lt (Nat.sub_le _ _) t.isLt)) := by
  obtain ⟨n, hn⟩ := t
  cases n with
  | zero => exact absurd (Nat.zero_mod _) hF
  | succ n => exact (dif_neg hF).trans (dif_pos hL)

/-! ## The invariant between points -/

/-- The scratch buffers at given contents, beside the other launch's staging buffers and the generator register. -/
def scratchAt (c : Dev nD) (xm xd : Vec F S1024x1 .f32) (xn : Vec F S1024x64 .f32) : sProp 𝕄 :=
  iprop(iprop(otherStaging (F := F) c ∗ owns (c : Thread nD τ) scMax fullShare xm ∗ owns (c : Thread nD τ) scDen fullShare xd
    ∗ owns (c : Thread nD τ) scNum fullShare xn) ∗ (∃ r, prngReg c r))

/-- Before position `n`: at the region's entry the class invariant (every scratch buffer at anything); afterwards the
    scratch buffers at what position `n - 1` left in them. -/
def PhiS (c : Dev nD) : (n : ℕ) → n ≤ cfg1.N → sProp 𝕄
  | 0, _ => Pipeline.ΦA spec1 c
  | n + 1, hn => scratchAt (F := F) c (outsAt1 V c n hn).2.1 (outsAt1 V c n hn).2.2.1 (outsAt1 V c n hn).2.2.2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = scratchAt (F := F) c (outsAt1 V c n hn).2.1 (outsAt1 V c n hn).2.2.1 (outsAt1 V c n hn).2.2.2 := rfl
theorem PhiS_pos (c : Dev nD) (n : ℕ) (h : n ≤ cfg1.N) (hz : n ≠ 0) :
    PhiS V c n h = scratchAt (F := F) c (outsAt1 V c (n - 1) (by omega)).2.1 (outsAt1 V c (n - 1) (by omega)).2.2.1 (outsAt1 V c (n - 1) (by omega)).2.2.2 := by
  cases n with
  | zero => exact absurd rfl hz
  | succ n => rfl

/-! ## The proof data -/

/-- The three input windows read one array; each holds a part of it that is enough to read: a half, a quarter, a quarter. -/
abbrev shareQ : PosShare TreeShare := fullShare.left
abbrev shareK : PosShare TreeShare := fullShare.right.left
abbrev shareV : PosShare TreeShare := fullShare.right.right

/-- The proof data of the attention launch on core `c`: the arrays as the region finds them; after the body at point `t`
    each input's buffer at its block and the output's at the point's state; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => shareQ
    | ⟨1, _⟩ => shareK
    | ⟨2, _⟩ => shareV
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem afterQ (c : Dev nD) (t : Fin cfg1.N) : (dat1 V c).after 0 t = iblk1 V c 0 t := by dsimp only [dat1]
theorem afterK (c : Dev nD) (t : Fin cfg1.N) : (dat1 V c).after 1 t = iblk1 V c 1 t := by dsimp only [dat1]
theorem afterV (c : Dev nD) (t : Fin cfg1.N) : (dat1 V c).after 2 t = iblk1 V c 2 t := by dsimp only [dat1]
theorem afterO (c : Dev nD) (t : Fin cfg1.N) : (dat1 V c).after 3 t = (outsAt1 V c t.val t.isLt).1 := by dsimp only [dat1]
theorem beforeQ (c : Dev nD) (t : Fin cfg1.N) (d) : (dat1 V c).before 0 t d = iblk1 V c 0 t :=
  beforeQ_of V (dat1 V c) (A_eq1 V c 0) (afterQ V c) t d
theorem beforeK (c : Dev nD) (t : Fin cfg1.N) (d) : (dat1 V c).before 1 t d = iblk1 V c 1 t :=
  beforeK_of V (dat1 V c) (A_eq1 V c 1) (afterK V c) t d
theorem beforeV (c : Dev nD) (t : Fin cfg1.N) (d) : (dat1 V c).before 2 t d = iblk1 V c 2 t :=
  beforeV_of V (dat1 V c) (A_eq1 V c 2) (afterV V c) t d

end Cert.KernelIdeal.Hand1

end
-- ==== Proof.Region1Cases.lean ====
/-
  The attention region: its body obligation.

  At every grid point the body, handed the three input blocks, the output buffer and the invariant, runs to the end and
  hands back the invariant at the point's new scratch contents: by cases on the position in the sweep of eight key
  blocks, each case its whole-body run. At a first key block the scratch buffers may hold anything (they are reset); at
  a later one the invariant supplies exactly what the point before left in them.
-/
import proofs.«139566_j53790170415805_2_alg».proof.Proof.Region1Data

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant with the scratch contents forgotten -/

/-- The scratch buffers at some contents each, beside the other launch's staging buffers and the generator register. -/
def anyScratch (c : Dev nD) : sProp 𝕄 :=
  iprop(iprop(otherStaging (F := F) c ∗ (∃ d, owns (c : Thread nD τ) scMax fullShare d) ∗ (∃ d, owns (c : Thread nD τ) scDen fullShare d)
    ∗ (∃ d, owns (c : Thread nD τ) scNum fullShare d)) ∗ (∃ r, prngReg c r))

theorem scratchAt_any (c : Dev nD) (xm xd : Vec F S1024x1 .f32) (xn : Vec F S1024x64 .f32) :
    scratchAt (F := F) c xm xd xn ⊢ anyScratch (F := F) c := by
  unfold scratchAt anyScratch
  iintro ⟨⟨Hoth, H7, H8, H9⟩, Hg⟩
  isplitr [Hg]
  · isplitl [Hoth]; · iexact Hoth
    isplitl [H7]; · iexists _; iexact H7
    isplitl [H8]; · iexists _; iexact H8
    iexists _; iexact H9
  · iexact Hg

theorem PhiA_any (c : Dev nD) : (Pipeline.ΦA spec1 c : sProp 𝕄) ⊢ anyScratch (F := F) c := by
  rw [PhiA1_eq]; unfold anyScratch
  iintro ⟨Hb, Hg⟩
  ihave H := (beside_elim (F := F) c _) $$ Hb
  isplitl [H]; · iexact H
  iexact Hg

theorem any_PhiA (c : Dev nD) : anyScratch (F := F) c ⊢ (Pipeline.ΦA spec1 c : sProp 𝕄) := by
  rw [PhiA1_eq]; unfold anyScratch
  iintro ⟨H, Hg⟩
  isplitl [H]
  · iapply (beside_intro (F := F) c _); iexact H
  · iexact Hg

theorem PhiS_any (c : Dev nD) (n : ℕ) (h : n ≤ cfg1.N) : PhiS V c n h ⊢ anyScratch (F := F) c := by
  cases n with
  | zero => exact PhiA_any c
  | succ n => exact scratchAt_any c _ _ _

/-! ## The three cases -/

set_option maxHeartbeats 1600000 in
/-- A first key block: from the scratch buffers at anything. The output buffer is handed back as found. -/
theorem caseFirst (c : Dev nD) (t : Fin cfg1.N) (hF : t.val % 8 = 0) (hL : ¬t.val % 8 = 7) (R : sProp 𝕄) (xo : Vec F S1x1024x64 .f32)
    (PO : sProp 𝕄) (hO : owns (c : Thread nD τ) (msO t) fullShare xo ⊢ PO) :
    iprop(anyScratch (F := F) c ∗ R ∗ owns (c : Thread nD τ) (msQ t) fullShare (iblk1 V c 0 t) ∗ owns (c : Thread nD τ) (msK t) fullShare (iblk1 V c 1 t) ∗ owns (c : Thread nD τ) (msV t) fullShare (iblk1 V c 2 t) ∗ owns (c : Thread nD τ) (msO t) fullShare xo)
      ⊢ wp frame (wpE (defs₀ (F := F)) Variants.none c none) Set.univ (bodyAt1 t)
          (fun _ => iprop(scratchAt (F := F) c (stFirst V c t hF hL).2.1 (stFirst V c t hF hL).2.2.1 (stFirst V c t hF hL).2.2.2 ∗ R
            ∗ owns (c : Thread nD τ) (msQ t) fullShare (iblk1 V c 0 t) ∗ owns (c : Thread nD τ) (msK t) fullShare (iblk1 V c 1 t) ∗ owns (c : Thread nD τ) (msV t) fullShare (iblk1 V c 2 t) ∗ PO)) := by
  unfold anyScratch scratchAt stFirst bodyAt1
  dsimp only
  iintro ⟨⟨⟨Hoth, HS0, HS1, HS2⟩, Hg⟩, HR, HQ, HK, HV, HO⟩
  iapply ((firstAt V c t hF hL).2.2.2 xo Set.univ _)
  isplitl [HQ]; · iexact HQ
  isplitl [HK]; · iexact HK
  isplitl [HV]; · iexact HV
  isplitl [HO]; · iexact HO
  isplitl [HS0]; · iexact HS0
  isplitl [HS1]; · iexact HS1
  isplitl [HS2]; · iexact HS2
  iintro ⟨HQ, HK, HV, HO, ⟨%e7, H7⟩, ⟨%e8, H8⟩, ⟨%e9, H9⟩⟩
  isplitl [Hoth H7 H8 H9 Hg]
  · isplitl [Hoth H7 H8 H9]
    · isplitl [Hoth]; · iexact Hoth
      isplitl [H7]
      · unfold owns; iexists _; isplitr
        swap; · iexact H7
        ipureintro; exact View.read_writes_of_cover _ _ _ _ _ (coverFirstMax V c t hF hL )
      isplitl [H8]
      · unfold owns; iexists _; isplitr
        swap; · iexact H8
        ipureintro; exact View.read_writes_of_cover _ _ _ _ _ (coverFirstDen V c t hF hL )
      · unfold owns; iexists _; isplitr
        swap; · iexact H9
        ipureintro; exact View.read_writes_of_cover _ _ _ _ _ (coverFirstNum V c t hF hL )
    · iexact Hg
  isplitl [HR]; · iexact HR
  isplitl [HQ]; · iexact HQ
  isplitl [HK]; · iexact HK
  isplitl [HV]; · iexact HV
  iapply hO; iexact HO

set_option maxHeartbeats 1600000 in
/-- A middle key block: from the scratch buffers at what the point before left (`p`). -/
theorem caseMiddle (c : Dev nD) (t : Fin cfg1.N) (hF : ¬t.val % 8 = 0) (hL : ¬t.val % 8 = 7) (p : St F) (R : sProp 𝕄) (xo : Vec F S1x1024x64 .f32)
    (PO : sProp 𝕄) (hO : owns (c : Thread nD τ) (msO t) fullShare xo ⊢ PO) :
    iprop(scratchAt (F := F) c p.2.1 p.2.2.1 p.2.2.2 ∗ R ∗ owns (c : Thread nD τ) (msQ t) fullShare (iblk1 V c 0 t) ∗ owns (c : Thread nD τ) (msK t) fullShare (iblk1 V c 1 t) ∗ owns (c : Thread nD τ) (msV t) fullShare (iblk1 V c 2 t) ∗ owns (c : Thread nD τ) (msO t) fullShare xo)
      ⊢ wp frame (wpE (defs₀ (F := F)) Variants.none c none) Set.univ (bodyAt1 t)
          (fun _ => iprop(scratchAt (F := F) c (stMiddle V c t hF hL p).2.1 (stMiddle V c t hF hL p).2.2.1 (stMiddle V c t hF hL p).2.2.2 ∗ R
            ∗ owns (c : Thread nD τ) (msQ t) fullShare (iblk1 V c 0 t) ∗ owns (c : Thread nD τ) (msK t) fullShare (iblk1 V c 1 t) ∗ owns (c : Thread nD τ) (msV t) fullShare (iblk1 V c 2 t) ∗ PO)) := by
  unfold scratchAt stMiddle bodyAt1
  dsimp only
  iintro ⟨⟨⟨Hoth, HS0, HS1, HS2⟩, Hg⟩, HR, HQ, HK, HV, HO⟩
  iapply ((middleAt V c t hF hL p.2.1 p.2.2.1 p.2.2.2).2.2.2 xo Set.univ _)
  isplitl [HQ]; · iexact HQ
  isplitl [HK]; · iexact HK
  isplitl [HV]; · iexact HV
  isplitl [HO]; · iexact HO
  isplitl [HS0]; · iexact HS0
  isplitl [HS1]; · iexact HS1
  isplitl [HS2]; · iexact HS2
  iintro ⟨HQ, HK, HV, HO, ⟨%e7, H7⟩, ⟨%e8, H8⟩, ⟨%e9, H9⟩⟩
  isplitl [Hoth H7 H8 H9 Hg]
  · isplitl [Hoth H7 H8 H9]
    · isplitl [Hoth]; · iexact Hoth
      isplitl [H7]
      · unfold owns; iexists _; isplitr
        swap; · iexact H7
        ipureintro; exact View.read_writes_of_cover _ _ _ _ _ (coverMiddleMax V c t hF hL _ _ _)
      isplitl [H8]
      · unfold owns; iexists _; isplitr
        swap; · iexact H8
        ipureintro; exact View.read_writes_of_cover _ _ _ _ _ (coverMiddleDen V c t hF hL _ _ _)
      · unfold owns; iexists _; isplitr
        swap; · iexact H9
        ipureintro; exact View.read_writes_of_cover _ _ _ _ _ (coverMiddleNum V c t hF hL _ _ _)
    · iexact Hg
  isplitl [HR]; · iexact HR
  isplitl [HQ]; · iexact HQ
  isplitl [HK]; · iexact HK
  isplitl [HV]; · iexact HV
  iapply hO; iexact HO

set_option maxHeartbeats 1600000 in
/-- The last key block: from the scratch buffers at what the point before left; the output buffer, at anything, ends
    holding the quotient's store. -/
theorem caseLast (c : Dev nD) (t : Fin cfg1.N) (hF : ¬t.val % 8 = 0) (hL : t.val % 8 = 7) (p : St F) (R : sProp 𝕄) :
    iprop(scratchAt (F := F) c p.2.1 p.2.2.1 p.2.2.2 ∗ R ∗ owns (c : Thread nD τ) (msQ t) fullShare (iblk1 V c 0 t) ∗ owns (c : Thread nD τ) (msK t) fullShare (iblk1 V c 1 t) ∗ owns (c : Thread nD τ) (msV t) fullShare (iblk1 V c 2 t) ∗ (∃ d, owns (c : Thread nD τ) (msO t) fullShare d))
      ⊢ wp frame (wpE (defs₀ (F := F)) Variants.none c none) Set.univ (bodyAt1 t)
          (fun _ => iprop(scratchAt (F := F) c (stLast V c t hF hL p).2.1 (stLast V c t hF hL p).2.2.1 (stLast V c t hF hL p).2.2.2 ∗ R
            ∗ owns (c : Thread nD τ) (msQ t) fullShare (iblk1 V c 0 t) ∗ owns (c : Thread nD τ) (msK t) fullShare (iblk1 V c 1 t) ∗ owns (c : Thread nD τ) (msV t) fullShare (iblk1 V c 2 t) ∗ owns (c : Thread nD τ) (msO t) fullShare (stLast V c t hF hL p).1)) := by
  unfold scratchAt stLast bodyAt1
  dsimp only
  iintro ⟨⟨⟨Hoth, HS0, HS1, HS2⟩, Hg⟩, HR, HQ, HK, HV, HO⟩
  iapply ((lastAt V c t hF hL p.2.1 p.2.2.1 p.2.2.2).2.2.2.2 Set.univ _)
  isplitl [HQ]; · iexact HQ
  isplitl [HK]; · iexact HK
  isplitl [HV]; · iexact HV
  isplitl [HO]; · iexact HO
  isplitl [HS0]; · iexact HS0
  isplitl [HS1]; · iexact HS1
  isplitl [HS2]; · iexact HS2
  iintro ⟨HQ, HK, HV, ⟨%eO, HO⟩, ⟨%e7, H7⟩, ⟨%e8, H8⟩, ⟨%e9, H9⟩⟩
  isplitl [Hoth H7 H8 H9 Hg]
  · isplitl [Hoth H7 H8 H9]
    · isplitl [Hoth]; · iexact Hoth
      isplitl [H7]
      · unfold owns; iexists _; isplitr
        swap; · iexact H7
        ipureintro; exact View.read_writes_of_cover _ _ _ _ _ (coverLastMax V c t hF hL _ _ _)
      isplitl [H8]
      · unfold owns; iexists _; isplitr
        swap; · iexact H8
        ipureintro; exact View.read_writes_of_cover _ _ _ _ _ (coverLastDen V c t hF hL _ _ _)
      · unfold owns; iexists _; isplitr
        swap; · iexact H9
        ipureintro; exact View.read_writes_of_cover _ _ _ _ _ (coverLastNum V c t hF hL _ _ _)
    · iexact Hg
  isplitl [HR]; · iexact HR
  isplitl [HQ]; · iexact HQ
  isplitl [HK]; · iexact HK
  isplitl [HV]; · iexact HV
  unfold owns; iexists _; isplitr
  swap; · iexact HO
  ipureintro; exact View.read_writes_of_cover _ _ _ _ _ (coverLastOut V c t hF hL _ _ _)

end Cert.KernelIdeal.Hand1

end
-- ==== Proof.Region1.lean ====
/-
  The attention region: the body obligation at every grid point, and how the region's invariant begins and ends.
-/
import proofs.«139566_j53790170415805_2_alg».proof.Proof.Region1Cases

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`: the invariant, what the core owes, and the four windows' current staging
    buffers at what they hold before the body, -/
def bodyPre1 (c : Dev nD) (t : Fin cfg1.N) : sProp 𝕄 :=
  iprop((dat1 V c).Φ t.castSucc ∗ (dat1 V c).owesAt () t.castSucc
    ∗ (∃ d, owns (c : Thread nD τ) (msQ t) fullShare ((dat1 V c).before 0 t d))
    ∗ (∃ d, owns (c : Thread nD τ) (msK t) fullShare ((dat1 V c).before 1 t d))
    ∗ (∃ d, owns (c : Thread nD τ) (msV t) fullShare ((dat1 V c).before 2 t d))
    ∗ (∃ d, owns (c : Thread nD τ) (msO t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' buffers hold their blocks; the position in the sweep says which case the point is
    in; the invariant supplies the scratch buffers (at anything before a first key block, at what the point before left
    otherwise) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [beforeQ, beforeK, beforeV]
  rw [show (dat1 V c).owesAt () t.succ = (dat1 V c).owesAt () t.castSucc from rfl]
  rw [show (dat1 V c).Φ t.succ = PhiS V c (t.val + 1) t.isLt from rfl, PhiS_succ, PhiS_castSucc]
  rw [show (dat1 V c).leavesExact 0 t = owns (c : Thread nD τ) (msQ t) fullShare ((dat1 V c).after 0 t) from by
    unfold Dat.leavesExact; rw [live_q t], afterQ]
  rw [show (dat1 V c).leavesExact 1 t = owns (c : Thread nD τ) (msK t) fullShare ((dat1 V c).after 1 t) from by
    unfold Dat.leavesExact; rw [live_k t], afterK]
  rw [show (dat1 V c).leavesExact 2 t = owns (c : Thread nD τ) (msV t) fullShare ((dat1 V c).after 2 t) from by
    unfold Dat.leavesExact; rw [live_v t], afterV]
  have hN : t.val < 384 := lt_of_lt_of_eq t.isLt N_1
  by_cases hF : t.val % 8 = 0
  · have hL : ¬t.val % 8 = 7 := by omega
    have hnl : ¬condLast (grid1.coords t) := fun h => hL ((hcondLast t).mp h)
    rw [Dat.leavesExact_idle (dat1 V c) 3 t (idle_o t hnl) (noFlush_o t hnl), outsAt1_first V c t hF hL]
    iintro ⟨HΦ, Ho, ⟨%dq, HQ⟩, ⟨%dk, HK⟩, ⟨%dv, HV⟩, ⟨%dO, HO⟩⟩
    ihave HA := (PhiS_any V c t.val _) $$ HΦ
    iapply (caseFirst V c t hF hL ((dat1 V c).owesAt () t.castSucc) ((dat1 V c).before 3 t dO) _
      (show owns (c : Thread nD τ) (msO t) fullShare ((dat1 V c).before 3 t dO) ⊢ iprop(∃ d, owns (c : Thread nD τ) (msO t) fullShare ((dat1 V c).before 3 t d)) from by
        iintro H; iexists dO; iexact H))
    isplitl [HA]; · iexact HA
    isplitl [Ho]; · iexact Ho
    isplitl [HQ]; · iexact HQ
    isplitl [HK]; · iexact HK
    isplitl [HV]; · iexact HV
    iexact HO
  · have hz : t.val ≠ 0 := fun h => hF (by rw [h])
    by_cases hL : t.val % 8 = 7
    · rw [show (dat1 V c).leavesExact 3 t = owns (c : Thread nD τ) (msO t) fullShare ((dat1 V c).after 3 t) from by
        unfold Dat.leavesExact; rw [live_o t ((hcondLast t).mpr hL)], afterO]
      rw [outsAt1_last V c t hF hL, PhiS_pos V c t.val _ hz]
      iintro ⟨HΦ, Ho, ⟨%dq, HQ⟩, ⟨%dk, HK⟩, ⟨%dv, HV⟩, ⟨%dO, HO⟩⟩
      iapply (caseLast V c t hF hL (outsAt1 V c (t.val - 1) (Nat.lt_of_le_of_lt (Nat.sub_le _ _) t.isLt)) ((dat1 V c).owesAt () t.castSucc))
      isplitl [HΦ]; · iexact HΦ
      isplitl [Ho]; · iexact Ho
      isplitl [HQ]; · iexact HQ
      isplitl [HK]; · iexact HK
      isplitl [HV]; · iexact HV
      iexists _; iexact HO
    · have hnl : ¬condLast (grid1.coords t) := fun h => hL ((hcondLast t).mp h)
      rw [Dat.leavesExact_idle (dat1 V c) 3 t (idle_o t hnl) (noFlush_o t hnl), outsAt1_middle V c t hF hL, PhiS_pos V c t.val _ hz]
      iintro ⟨HΦ, Ho, ⟨%dq, HQ⟩, ⟨%dk, HK⟩, ⟨%dv, HV⟩, ⟨%dO, HO⟩⟩
      iapply (caseMiddle V c t hF hL (outsAt1 V c (t.val - 1) (Nat.lt_of_le_of_lt (Nat.sub_le _ _) t.isLt)) ((dat1 V c).owesAt () t.castSucc) ((dat1 V c).before 3 t dO) _
        (show owns (c : Thread nD τ) (msO t) fullShare ((dat1 V c).before 3 t dO) ⊢ iprop(∃ d, owns (c : Thread nD τ) (msO t) fullShare ((dat1 V c).before 3 t d)) from by
          iintro H; iexists dO; iexact H))
      isplitl [HΦ]; · iexact HΦ
      isplitl [Ho]; · iexact Ho
      isplitl [HQ]; · iexact HQ
      isplitl [HK]; · iexact HK
      isplitl [HV]; · iexact HV
      iexact HO

/-- The body obligation of the attention launch, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class invariant back: the scratch buffers' contents are forgotten. -/
theorem hout1 (c : Dev nD) : (dat1 V c).Φ (Fin.last cfg1.N) ⊢ (Pipeline.ΦA spec1 c : sProp 𝕄) := by
  dsimp only [dat1]
  exact (PhiS_any V c _ _).trans (any_PhiA c)

end Cert.KernelIdeal.Hand1

end
-- ==== Proof.Frames0.lean ====
/-
  The frame, first half: what the buffers hold between @main's five items, and the first launch as a segment.

  @main is a host stretch (patchify, two transposes, three format changes), the first launch, a host stretch (the head
  split), the attention launch, and a host stretch (the head merge). Between items every unscoped buffer is held at a
  known valuation: the launch memory, then each host stretch's operations applied, then each launch's output array
  replaced by what that launch's proof data computes for it. The first launch's seven windows read six distinct arrays
  and write a seventh, so its arrays are taken out of the unscoped buffers and put back whole.
-/
import proofs.«139566_j53790170415805_2_alg».proof.Proof.Region0
import proofs.«139566_j53790170415805_2_alg».proof.Proof.Region1
import proofs.«139566_j53790170415805_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.HandFrame

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- What the first launch is entered from: the launch memory with the first host stretch applied. -/
abbrev Vin0 : (c : Dev nD) → (b : Ref sig .tc) → Buf (Elt F) ((c : Thread nD τ).loc b) := fun c b => Gen.V1 m c b
/-- What the first launch leaves in its output array. -/
def X0 (c : Dev nD) : Buf (Elt F) ((c : Thread nD τ).loc main_v8) := (dat0 (Vin0 m) c).arrAt 6 cfg0.N
/-- After the first launch, -/
def W2 (c : Dev nD) : Valuation τ sig (Elt F) := Function.update (Gen.V1 m c) main_v8 (X0 m c)
/-- and after the head split. -/
def W3 (c : Dev nD) : Valuation τ sig (Elt F) := StableHlo.after hostOps1 (W2 m c)
/-- What the attention launch is entered from. -/
abbrev Vin1 : (c : Dev nD) → (b : Ref sig .tc) → Buf (Elt F) ((c : Thread nD τ).loc b) := fun c b => W3 m c b
/-- What the attention launch leaves in its output array. -/
def X1 (c : Dev nD) : Buf (Elt F) ((c : Thread nD τ).loc main_v11) := (dat1 (Vin1 m) c).arrAt 3 cfg1.N

/-- The two launches' output contents, as the table the generated valuations are written over. -/
def outs : Gen.Outs (F := F) := fun _ r c =>
  if h : r = main_v8 then h ▸ X0 m c else if h' : r = main_v11 then h' ▸ X1 m c else m ((c : Thread nD τ).loc r)

theorem outs_v8 (c : Dev nD) (j : ℕ) : outs m j main_v8 c = X0 m c := by
  unfold outs; rw [dif_pos rfl]
theorem outs_v11 (c : Dev nD) (j : ℕ) : outs m j main_v11 c = X1 m c := by
  unfold outs; rw [dif_neg (by decide), dif_pos rfl]

theorem V2_eq (c : Dev nD) : Gen.V2 m (outs m) c = W2 m c := by
  show Function.update (Gen.V1 m c) main_v8 (outs m 2 main_v8 c) = _
  rw [outs_v8]; rfl
theorem V3_eq (c : Dev nD) : Gen.V3 m (outs m) c = W3 m c := by
  show StableHlo.after hostOps1 (Gen.V2 m (outs m) c) = _
  rw [V2_eq]; rfl
theorem V4_eq (c : Dev nD) : Gen.V4 m (outs m) c = Function.update (W3 m c) main_v11 (X1 m c) := by
  show Function.update (Gen.V3 m (outs m) c) main_v11 (outs m 4 main_v11 c) = _
  rw [V3_eq, outs_v11]

/-! ## The proof data family and what rides beside the buffers -/

/-- Both launches' proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state and its debts, none. -/
abbrev R (c : Dev nD) : sProp 𝕄 := iprop((∃ r, prngReg c r) ∗ ∃ W, owes (c : Thread nD τ) (0 : CellTallies nD τ sig Unit) W)

/-! ## The first launch as a segment -/

/-- What the first launch is left at, read at the TensorCore's references. -/
abbrev Vout0 : (c : Dev nD) → (b : Ref sig .tc) → Buf (Elt F) ((c : Thread nD τ).loc b) := fun c b => Gen.V2 m (outs m) c b

/-- At the first launch's exit each of its arrays holds what the pipeline leaves: the six inputs as entered, the output the
    launch's result. -/
theorem hF0 (c : Dev nD) (w : Fin cfg0.W) : (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (Gen.V2_of m (outs m) c _ (by decide)).symm)
  | ⟨1, _⟩ => exact ((dat0 (Vin0 m) c).arrAt_in 1 rfl _).trans ((A_eq0 (Vin0 m) c 1).trans (Gen.V2_of m (outs m) c _ (by decide)).symm)
  | ⟨2, _⟩ => exact ((dat0 (Vin0 m) c).arrAt_in 2 rfl _).trans ((A_eq0 (Vin0 m) c 2).trans (Gen.V2_of m (outs m) c _ (by decide)).symm)
  | ⟨3, _⟩ => exact ((dat0 (Vin0 m) c).arrAt_in 3 rfl _).trans ((A_eq0 (Vin0 m) c 3).trans (Gen.V2_of m (outs m) c _ (by decide)).symm)
  | ⟨4, _⟩ => exact ((dat0 (Vin0 m) c).arrAt_in 4 rfl _).trans ((A_eq0 (Vin0 m) c 4).trans (Gen.V2_of m (outs m) c _ (by decide)).symm)
  | ⟨5, _⟩ => exact ((dat0 (Vin0 m) c).arrAt_in 5 rfl _).trans ((A_eq0 (Vin0 m) c 5).trans (Gen.V2_of m (outs m) c _ (by decide)).symm)
  | ⟨6, _⟩ =>
    show (dat0 (Vin0 m) c).arrAt 6 cfg0.N = Function.update (Gen.V1 m c) main_v8 (outs m 2 main_v8 c) main_v8
    rw [Function.update_self, outs_v8]; rfl
/-- and every other buffer what it held at entry. -/
theorem hrest0 (c : Dev nD) : ∀ b, b ∉ Finset.univ.image (Pipeline.arrRef spec0) → Vout0 m c b = Vin0 m c b := fun b hb =>
  Gen.V2_of m (outs m) c b (by
    intro h
    rw [List.mem_singleton] at h
    exact hb (Finset.mem_image.mpr ⟨6, Finset.mem_univ _, h.symm⟩))

set_option backward.isDefEq.respectTransparency.types false in
/-- THE FIRST LAUNCH over the thread state: entered from every unscoped buffer at the contents after the first host stretch,
    left with its output array replaced by the launch's result. Its arrays are split out of the unscoped buffers and put
    back; the generator register goes into the class invariant and comes out; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandFrame

end
-- ==== Proof.Frames1.lean ====
/-
  The frame, second half: the attention launch as a segment.

  Its three input windows (queries, keys, values) read ONE array, the head-split projection, and its output window
  writes another. The array the three inputs share is held whole between items; at the launch's entry its one full
  holding is cut into a half and two quarters, one part per input window (each enough to read), and at the exit the three
  parts, still at the entry contents since no input window writes, are joined back. The output array goes in whole and
  comes back at what the launch computes.
-/
import proofs.«139566_j53790170415805_2_alg».proof.Proof.Frames0

set_option maxRecDepth 16384

noncomputable section

namespace Cert.KernelIdeal.HandFrame

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One buffer's full holding as a half and two quarters -/

theorem split3 (ℓ : Loc nD τ sig) (f : ℓ.ty.Contents (Elt F)) :
    (ℓ ↦{fullShare} f : sProp 𝕄) ⊢ iprop((ℓ ↦{shareQ} f) ∗ (ℓ ↦{shareK} f) ∗ (ℓ ↦{shareV} f)) := by
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  iexact Hrr

theorem join3 (ℓ : Loc nD τ sig) (f : ℓ.ty.Contents (Elt F)) :
    iprop((ℓ ↦{shareQ} f) ∗ (ℓ ↦{shareK} f) ∗ (ℓ ↦{shareV} f)) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-! ## The attention launch's arrays, listed -/

variable (V : (c : Dev nD) → (b : Ref sig .tc) → Buf (Elt F) ((c : Thread nD τ).loc b))

/-- The launch's holdings of its windows' arrays at contents `Fa`: three parts of the shared array, the output array whole. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v10) ↦{shareQ} Fa 0) ∗ (((c : Thread nD τ).loc main_v10) ↦{shareK} Fa 1)
          ∗ (((c : Thread nD τ).loc main_v10) ↦{shareV} Fa 2) ∗ (((c : Thread nD τ).loc main_v11) ↦{fullShare} Fa 3)) := by
  unfold Dat.arrays
  rw [bigSep_W1, (arr_whole1 0).set_eq_univ, (arr_whole1 3).set_eq_univ]
  rfl

/-- The two distinct buffers behind the four windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v10) ↦{fullShare} W main_v10) ∗ (((c : Thread nD τ).loc main_v11) ↦{fullShare} W main_v11)) := by
  unfold Pipeline.arrBufs
  rw [show Finset.univ.image (Pipeline.arrRef spec1) = insert main_v10 {main_v11} from by decide,
    BI.bigSep_insert (by decide), BI.bigSep_singleton]
  rfl

/-- The core's unscoped buffers are those two and the rest. -/
theorem ubufs_split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄) ∗ Pipeline.unscopedRest spec1 c W) := by
  classical
  have hA : Finset.univ.image (Pipeline.arrRef spec1) ⊆ Finset.univ.filter fun b : Ref sig .tc => ¬ b.isScoped := by decide
  unfold unscopedBufs Pipeline.unscopedRest Pipeline.arrBufs
  rw [BI.bigSep_sdiff_split hA]
  rfl

/-! ## The attention launch as a segment -/

/-- What the attention launch is left at, read at the TensorCore's references. -/
abbrev Vout1 : (c : Dev nD) → (b : Ref sig .tc) → Buf (Elt F) ((c : Thread nD τ).loc b) :=
  fun c b => Function.update (W3 m c) main_v11 (X1 m c) b

theorem Vout1_v10 (c : Dev nD) : Vout1 m c main_v10 = Vin1 m c main_v10 :=
  Function.update_of_ne (StableHlo.devRef_ne_of_ne (by decide) : (Proc.devRef .tc main_v10 : DevRef τ sig) ≠ Proc.devRef .tc main_v11) ..
theorem Vout1_v11 (c : Dev nD) : Vout1 m c main_v11 = X1 m c := Function.update_self ..
theorem rest1_eq (c : Dev nD) :
    (Pipeline.unscopedRest (Ix := Unit) (Name := ℕ) (U := UR sig nD τ) (Lvl := ℕ) spec1 c (Vout1 m c) : sProp 𝕄)
      = Pipeline.unscopedRest spec1 c (Vin1 m c) := by
  unfold Pipeline.unscopedRest
  refine BI.bigSep_congr fun b hb => ?_
  have hne : b ≠ main_v11 := fun h => (Finset.mem_sdiff.mp hb).2 (Finset.mem_image.mpr ⟨3, Finset.mem_univ _, h.symm⟩)
  rw [show Vout1 m c b = Vin1 m c b from
    Function.update_of_ne (StableHlo.devRef_ne_of_ne hne : (Proc.devRef .tc b : DevRef τ sig) ≠ Proc.devRef .tc main_v11) ..]

/-- At the exit the three parts of the shared array, still at the entry contents, are one full holding again; the output
    array is held at the launch's result. -/
theorem exit_arrays (c : Dev nD) :
    ((dat1 (Vin1 m) c).arrays ((dat1 (Vin1 m) c).arrAt · cfg1.N) : sProp 𝕄)
      ⊢ iprop((((c : Thread nD τ).loc main_v10) ↦{fullShare} Vin1 m c main_v10) ∗ (((c : Thread nD τ).loc main_v11) ↦{fullShare} X1 m c)) := by
  rw [arrays1_eq (Vin1 m) c]
  rw [(dat1 (Vin1 m) c).arrAt_in 0 rfl cfg1.N, (dat1 (Vin1 m) c).arrAt_in 1 rfl cfg1.N, (dat1 (Vin1 m) c).arrAt_in 2 rfl cfg1.N]
  iintro ⟨Hq, Hk, Hv, H11⟩
  isplitl [Hq Hk Hv]
  · iapply (join3 _ _)
    isplitl [Hq]; · iexact Hq
    isplitl [Hk]; · iexact Hk
    iexact Hv
  · iexact H11

set_option backward.isDefEq.respectTransparency.types false in
/-- THE ATTENTION LAUNCH over the thread state: entered from every unscoped buffer at the contents after the head split,
    left with its output array replaced by the launch's result. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V3_eq, ← Pipeline.unscopedBufs_held c (W3 m c), ubufs_split1 c (Vin1 m c), arrBufs1_eq c (Vin1 m c)]
    rw [show (pdats m 1 c).arrays ((pdats m 1 c).arrAt · 0) = (dat1 (Vin1 m) c).arrays ((dat1 (Vin1 m) c).arrAt · 0) from rfl,
      arrays1_eq (Vin1 m) c]
    iintro ⟨⟨⟨⟨H10, H11⟩, Hrest⟩, Hp, HO⟩, -, -⟩
    ihave H3 := (split3 _ _) $$ H10
    icases H3 with ⟨Hq, Hk, Hv⟩
    imodintro
    isplitl [Hq Hk Hv H11]
    · isplitl [Hq]; · iexact Hq
      isplitl [Hk]; · iexact Hk
      isplitl [Hv]; · iexact Hv
      iexact H11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    rw [V4_eq, ← Pipeline.unscopedBufs_held c (Function.update (W3 m c) main_v11 (X1 m c)), ubufs_split1 c (Vout1 m c), arrBufs1_eq c (Vout1 m c),
      rest1_eq, Vout1_v10, Vout1_v11]
    have hx : ((pdats m 1 c).arrays (fun x => (pdats m 1 c).arrAt x (Pipeline.pin (pcfgs (F := F)) Gen.adm 1).N) : sProp 𝕄)
        ⊢ iprop((((c : Thread nD τ).loc main_v10) ↦{fullShare} Vin1 m c main_v10) ∗ (((c : Thread nD τ).loc main_v11) ↦{fullShare} X1 m c)) :=
      exit_arrays m c
    iintro ⟨Ha, HO, HY, Hrest⟩
    ihave Ha' := hx $$ Ha
    icases Ha' with ⟨H10, H11⟩
    imodintro
    isplitr [HO HY]
    · isplitr [Hrest]
      · isplitl [H10]; · iexact H10
        iexact H11
      · iexact Hrest
    isplitl [HY]; · iexact HY
    unfold Pipeline.Dat.owesAt Pipeline.owesWithin
    icases HO with ⟨%W, -, HO⟩; iexists W; iexact HO

end Cert.KernelIdeal.HandFrame

end
-- ==== Proof.Frames.lean ====
/-
  The frame of the whole program, at any float instance, and the same run with the result read.

  Both launches' segment records fit the thread states between @main's items, so the conditional frame over the five
  items applies: every weakly fair execution of @main terminates, nothing faults, and the six argument arrays end as
  launched. Read against the last valuation instead of only the arguments, the same run also says what the result buffer
  holds: the head merge applied to what the attention launch's proof data computes.
-/
import proofs.«139566_j53790170415805_2_alg».proof.Proof.Frames1

set_option maxRecDepth 16384

noncomputable section

namespace Cert.KernelIdeal.HandFrame

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells and duty tokens, nothing else. -/
def u₀ : UR sig nD τ := initOf (Pipeline.cells cfgs cellOf_inj) (Pipeline.launchToks cfgs cellOf_inj)

/-- What rides beside the buffers through every item, as the family the conditional frame asks for. -/
abbrev E : Fin 3 → Dev nD → sProp 𝕄 := fun _ c => R (F := F) c

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME of the program at any float instance: every weakly fair execution of @main from memory `m` with zero counters
    terminates, nothing faulting, and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb (UR sig nD τ) 𝕄) () 𝒱₀ L lv (fun _ _ => rfl) ρ (outs m) (pdats m)
    (fun _ => 0) (fun _ => iprop(emp)) u₀ hu₀ (E (F := F)) (hE0 ρ) hE2
    (reg0 m) (fun _ => .rfl) (fun _ => .rfl) (reg1 m) (fun _ => .rfl) (fun _ => .rfl)

set_option backward.isDefEq.respectTransparency.types false in
/-- THE RUN WITH THE RESULT READ: the same launch, the last valuation read at the result buffer as well — it holds the head
    merge of what the attention launch's proof data computes for its output array — and at the six arguments. -/
theorem run_value : θ_run defs (onTc (τ := τ) (main (F := F))) ⟨m, fun _ => 0, ρ⟩ (fun r => ∀ c : Dev nD,
      r.2.mem ((c.tc : Thread nD τ).loc main_v14) = Gen.V5 m (outs m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb (UR sig nD τ) 𝕄) defs₀ 𝒱₀ L lv m ρ main
    (Gen.segs m (outs m) 𝒱₀ L lv (E (F := F)) () (pdats m) (reg0 m) (reg1 m))
    (fun c Q => by
      rewrite [main_chain c, Seg.run_eq_chain,
        show (Gen.segs m (outs m) 𝒱₀ L lv (E (F := F)) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (fun _ => 0) (fun _ _ => rfl) (fun _ => iprop(emp)) u₀ hu₀
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V5 m (outs m) c))
    (hch := fun c => ⟨.rfl, .rfl, .rfl, .rfl, .rfl, sep_mono .rfl (hE2 c)⟩)
    (hinit := ?_) (QY := fun c s => s.mem ((c.tc : Thread nD τ).loc main_v14) = Gen.V5 m (outs m) c main_v14
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c)⟩
    · iexact HSI

end Cert.KernelIdeal.HandFrame

end
-- ==== Proof.Region0Value.lean ====
/-
  The value of the first kernel region at the extended reals: what its body computes at one entry of a block, what
  each grid point writes back, and the whole array of projected features after the region, entry by entry, as the
  specification's function of the six argument arrays.
-/
import proofs.«139566_j53790170415805_2_alg».proof.Proof.Region0
import proofs.«139566_j53790170415805_2_alg».proof.Proof.Spec
import proofs.«139566_j53790170415805_2_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand0V

open Cert.KernelIdeal Cert.KernelIdeal.Gen Cert.KernelIdeal.Hand0
open Idealize.ShloMosaic Idealize.ShloMosaic.TcCoe Idealize.SL.Sem Idealize.ShloMosaic.ValueIdx
open Idealize.ShloMosaic.Pipeline (Dat)

/-! ## Layout operations of the body read at coordinates -/

/-- A vector `[a]` cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root is taken entry by entry. -/
theorem rsqrt_apply {s : Shape} {φ : FTy} (a : FVec Ideal s φ) (i : s.Idx) : rsqrt a i = Ideal.rsqrt (a i) := rfl

/-- A sum over the 768 lanes of a `[512, 768]` block, read at row `r`: the sum of the row's entries. -/
theorem rowsum_apply (src : FVec Ideal S512x768 .f32) (h : S512x768.Reduces [1] S512) (hφ : FTy.f32 = FTy.f32 ∨ FTy.f32 = FTy.bf16)
    (hacc : (0x00000000#32 : BitVec 32) = 0x00000000#32) (r : Fin 512) :
    multiReduction .add [1] S512 src 0x00000000#32 h hφ hacc (ix1 r) = ∑ e : Fin 768, src (ix2 r e) := by
  refine (Ideal.multiReduction_add_single src 0x00000000#32 h hφ hacc (ix1 r)).trans ?_
  refine Finset.sum_congr rfl fun e _ => congrArg src (funext fun a => ?_)
  match a with
  | ⟨0, _⟩ => rfl
  | ⟨1, _⟩ => rfl

/-! ## The two matrix products read at coordinates -/

theorem mm1_lhs0 (i : S512x768.Idx) (q : dot_S512x256_S256x768_S512x768_1_0_0_1_n_n.contr.Idx) : (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
theorem mm1_lhs1 (i : S512x768.Idx) (q : dot_S512x256_S256x768_S512x768_1_0_0_1_n_n.contr.Idx) : (dot_S512x256_S256x768_S512x768_1_0_0_1_n_n.lhsIdx i q 1).val = (q ⟨0, by decide⟩).val :=
  dot_S512x256_S256x768_S512x768_1_0_0_1_n_n.lhsIdx_val_of_single rfl i q
theorem mm1_rhs0 (i : S512x768.Idx) (q : dot_S512x256_S256x768_S512x768_1_0_0_1_n_n.contr.Idx) : (dot_S512x256_S256x768_S512x768_1_0_0_1_n_n.rhsIdx i q 0).val = (q ⟨0, by decide⟩).val :=
  dot_S512x256_S256x768_S512x768_1_0_0_1_n_n.rhsIdx_val_of_single rfl i q
theorem mm1_rhs1 (i : S512x768.Idx) (q : dot_S512x256_S256x768_S512x768_1_0_0_1_n_n.contr.Idx) : (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

/-- The first product, into a zero accumulator, at `(r, c)`: row `r` of the left block against column `c` of the right. -/
theorem mm1_apply (lhs : FVec Ideal S512x256 .bf16) (rhs : FVec Ideal S256x768 .bf16) (r : Fin 512) (c : Fin 768) :
    matmul dot_S512x256_S256x768_S512x768_1_0_0_1_n_n none lhs rhs (constant S512x768 .f32 0x00000000#32) (ix2 r c) = ∑ k : Fin 256, lhs (ix2 r k) * rhs (ix2 k c) := by
  simp only [matmul]
  rw [Ideal.matmul_constant_zero_apply, ← Equiv.sum_comp (contrEquiv1 dot_S512x256_S256x768_S512x768_1_0_0_1_n_n 256 rfl rfl).symm]
  refine Finset.sum_congr rfl fun k _ => ?_
  have hk := contrEquiv1_symm_val dot_S512x256_S256x768_S512x768_1_0_0_1_n_n 256 rfl rfl k
  have el : dot_S512x256_S256x768_S512x768_1_0_0_1_n_n.lhsIdx (ix2 r c) ((contrEquiv1 dot_S512x256_S256x768_S512x768_1_0_0_1_n_n 256 rfl rfl).symm k) = ix2 r k := funext fun a => Fin.ext (by
    match a with
    | ⟨0, _⟩ => exact mm1_lhs0 _ _
    | ⟨1, _⟩ => exact (mm1_lhs1 _ _).trans hk)
  have er : dot_S512x256_S256x768_S512x768_1_0_0_1_n_n.rhsIdx (ix2 r c) ((contrEquiv1 dot_S512x256_S256x768_S512x768_1_0_0_1_n_n 256 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (i : S512x2304.Idx) (q : dot_S512x768_S768x2304_S512x2304_1_0_0_1_n_n.contr.Idx) : (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
theorem mm2_lhs1 (i : S512x2304.Idx) (q : dot_S512x768_S768x2304_S512x2304_1_0_0_1_n_n.contr.Idx) : (dot_S512x768_S768x2304_S512x2304_1_0_0_1_n_n.lhsIdx i q 1).val = (q ⟨0, by decide⟩).val :=
  dot_S512x768_S768x2304_S512x2304_1_0_0_1_n_n.lhsIdx_val_of_single rfl i q
theorem mm2_rhs0 (i : S512x2304.Idx) (q : dot_S512x768_S768x2304_S512x2304_1_0_0_1_n_n.contr.Idx) : (dot_S512x768_S768x2304_S512x2304_1_0_0_1_n_n.rhsIdx i q 0).val = (q ⟨0, by decide⟩).val :=
  dot_S512x768_S768x2304_S512x2304_1_0_0_1_n_n.rhsIdx_val_of_single rfl i q
theorem mm2_rhs1 (i : S512x2304.Idx) (q : dot_S512x768_S768x2304_S512x2304_1_0_0_1_n_n.contr.Idx) : (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The second product likewise. -/
theorem mm2_apply (lhs : FVec Ideal S512x768 .bf16) (rhs : FVec Ideal S768x2304 .bf16) (r : Fin 512) (c : Fin 2304) :
    matmul dot_S512x768_S768x2304_S512x2304_1_0_0_1_n_n none lhs rhs (constant S512x2304 .f32 0x00000000#32) (ix2 r c) = ∑ k : Fin 768, lhs (ix2 r k) * rhs (ix2 k c) := by
  simp only [matmul]
  rw [Ideal.matmul_constant_zero_apply, ← Equiv.sum_comp (contrEquiv1 dot_S512x768_S768x2304_S512x2304_1_0_0_1_n_n 768 rfl rfl).symm]
  refine Finset.sum_congr rfl fun k _ => ?_
  have hk := contrEquiv1_symm_val dot_S512x768_S768x2304_S512x2304_1_0_0_1_n_n 768 rfl rfl k
  have el : dot_S512x768_S768x2304_S512x2304_1_0_0_1_n_n.lhsIdx (ix2 r c) ((contrEquiv1 dot_S512x768_S768x2304_S512x2304_1_0_0_1_n_n 768 rfl rfl).symm k) = ix2 r k := funext fun a => Fin.ext (by
    match a with
    | ⟨0, _⟩ => exact mm2_lhs0 _ _
    | ⟨1, _⟩ => exact (mm2_lhs1 _ _).trans hk)
  have er : dot_S512x768_S768x2304_S512x2304_1_0_0_1_n_n.rhsIdx (ix2 r c) ((contrEquiv1 dot_S512x768_S768x2304_S512x2304_1_0_0_1_n_n 768 rfl rfl).symm k) = ix2 k c := funext fun a => Fin.ext (by
    match a with
    | ⟨0, _⟩ => exact (mm2_rhs0 _ _).trans hk
    | ⟨1, _⟩ => exact mm2_rhs1 _ _)
  rw [el, er]

/-! ## The body's value at one entry of its block -/

section Payload

variable (x : Fin 1024 → Fin 1024 → EReal) (pw : Fin 768 → Fin 256 → EReal) (pb g b : Fin 768 → EReal)
  (qw : Fin 2304 → Fin 768 → EReal)

/-- THE BODY AT AN ENTRY. If row `r` of the loaded patch block is patch `n`, and the five other loaded blocks are the
    projection's weights (transposed) and bias, the normalisation's gain and offset and the second projection's weights
    (transposed), then entry `(r, j)` of what the body stores is feature `j` of token `n`: the two matrix products are the
    two sums, the two lane sums the mean and the variance, and a change of float format changes nothing here. -/
theorem pay_at (v0 : Vec Ideal S512x256 .bf16) (v2 : Vec Ideal S256x768 .bf16) (v5 : Vec Ideal S768 .f32) (v27 : Vec Ideal S768 .f32)
    (v31 : Vec Ideal S768 .f32) (v36 : Vec Ideal S768x2304 .bf16) (n : Fin 4096) (r : Fin 512) (j : Fin 2304)
    (h0 : ∀ p : Fin 256, v0 (ix2 r p) = Spec.patch x n p)
    (h2 : ∀ (p : Fin 256) (e : Fin 768), v2 (ix2 p e) = pw e p)
    (h5 : ∀ e : Fin 768, v5 (ix1 e) = pb e) (h27 : ∀ e : Fin 768, v27 (ix1 e) = g e) (h31 : ∀ e : Fin 768, v31 (ix1 e) = b e)
    (h36 : ∀ (e : Fin 768) (j : Fin 2304), v36 (ix2 e j) = qw j e) :
    k0_pay1 (F := Ideal) v0 v2 v5 v27 v31 v36 (ix2 r j) = Spec.qkv x pw pb g b qw n j := by
  simp only [k0_pay1, truncf_apply, mm2_apply, mm1_apply, addf_apply, subf_apply, mulf_apply, divf_apply, rsqrt_apply,
    broadcast_apply, shapeCast_self, shapeCast_a_1a_apply, broadcastTo_1b_ab_apply, shapeCast_a_a1_apply,
    broadcastTo_a1_ab_apply, h0, h2, h5, h27, h31, h36]
  repeat (rw [rowsum_apply]; try simp only [k0_pay1, truncf_apply, mm2_apply, mm1_apply, addf_apply, subf_apply, mulf_apply, divf_apply, rsqrt_apply,
    broadcast_apply, shapeCast_self, shapeCast_a_1a_apply, broadcastTo_1b_ab_apply, shapeCast_a_a1_apply,
    broadcastTo_a1_ab_apply, h0, h2, h5, h27, h31, h36])
  rfl

end Payload

/-! ## From blocks to the array -/

section Blocks

variable (V : (c : Dev nD) → (b : Ref sig .tc) → Buf (Elt Ideal) ((c : Thread nD τ).loc b))
variable (x : Fin 1024 → Fin 1024 → EReal) (pw : Fin 768 → Fin 256 → EReal) (pb g b : Fin 768 → EReal)
  (qw : Fin 2304 → Fin 768 → EReal)

theorem hz2 : (![0, 0] : Fin 2 → Nat) = fun _ => 0 := funext fun a => by fin_cases a <;> rfl
theorem hz1 : (![0] : Fin 1 → Nat) = fun _ => 0 := funext fun a => by fin_cases a; rfl

/-- The projected features as one array: entry `(n, j)` is feature `j` of token `n`. -/
def G6 : S4096x2304.Idx → EReal := fun i => Spec.qkv x pw pb g b qw ⟨(i 0).val, (i 0).isLt⟩ ⟨(i 1).val, (i 1).isLt⟩

theorem G6_ix2 (n : Fin 4096) (j : Fin 2304) : G6 x pw pb g b qw (ix2 n j) = Spec.qkv x pw pb g b qw n j := rfl

/-- The printed index maps over the grid: the patch window and the output window move down one block of 512 rows per
    point; the five other windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 8 := N_0 ▸ t.isLt

/-- Row `r` of the patch block at point `t` is row `512·t + r` of the patch array. -/
theorem blk0_at (c : Dev nD) (t : Fin cfg0.N) (r : Fin 512) (p : Fin 256) :
    iblk0 V c 0 t (ix2 r p) = (V c main_v3 : S4096x256.Idx → EReal) (ix2 ⟨t.val * 512 + r.val, by have := t_lt t; omega⟩ p) := by
  obtain ⟨e0, e1, -⟩ := idx_facts t
  show (V c main_v3 : S4096x256.Idx → EReal) (((cfg0.win 0).blk t).view.emb (ix2 r p)) = _
  refine congrArg (V c main_v3 : S4096x256.Idx → EReal) (funext fun a => Fin.ext ?_)
  match a with
  | ⟨0, _⟩ => show win0_0.index t (0 : Fin 2) * 512 + 1 * r.val = t.val * 512 + r.val; omega
  | ⟨1, _⟩ => show win0_0.index t (1 : Fin 2) * 256 + 1 * p.val = p.val; omega

/-- The five other blocks are their whole arrays at every point. -/
theorem blk1_at (c : Dev nD) (t : Fin cfg0.N) (p : Fin 256) (e : Fin 768) :
    iblk0 V c 1 t (ix2 p e) = (V c main_v5 : S256x768.Idx → EReal) (ix2 p e) := by
  obtain ⟨-, -, e0, e1, -⟩ := idx_facts t
  show (V c main_v5 : S256x768.Idx → EReal) (((cfg0.win 1).blk t).view.emb (ix2 p e)) = _
  refine congrArg (V c main_v5 : S256x768.Idx → EReal) (funext fun a => Fin.ext ?_)
  match a with
  | ⟨0, _⟩ => show win0_1.index t (0 : Fin 2) * 256 + 1 * p.val = p.val; omega
  | ⟨1, _⟩ => show win0_1.index t (1 : Fin 2) * 768 + 1 * e.val = e.val; omega
theorem blk2_at (c : Dev nD) (t : Fin cfg0.N) (e : Fin 768) :
    iblk0 V c 2 t (ix1 e) = (V c main_arg2 : S768.Idx → EReal) (ix1 e) := by
  obtain ⟨-, -, -, -, e0, -⟩ := idx_facts t
  show (V c main_arg2 : S768.Idx → EReal) (((cfg0.win 2).blk t).view.emb (ix1 e)) = _
  refine congrArg (V c main_arg2 : S768.Idx → EReal) (funext fun a => Fin.ext ?_)
  match a with
  | ⟨0, _⟩ => show win0_2.index t (0 : Fin 1) * 768 + 1 * e.val = e.val; omega
theorem blk3_at (c : Dev nD) (t : Fin cfg0.N) (e : Fin 768) :
    iblk0 V c 3 t (ix1 e) = (V c main_arg3 : S768.Idx → EReal) (ix1 e) := by
  obtain ⟨-, -, -, -, -, e0, -⟩ := idx_facts t
  show (V c main_arg3 : S768.Idx → EReal) (((cfg0.win 3).blk t).view.emb (ix1 e)) = _
  refine congrArg (V c main_arg3 : S768.Idx → EReal) (funext fun a => Fin.ext ?_)
  match a with
  | ⟨0, _⟩ => show win0_3.index t (0 : Fin 1) * 768 + 1 * e.val = e.val; omega
theorem blk4_at (c : Dev nD) (t : Fin cfg0.N) (e : Fin 768) :
    iblk0 V c 4 t (ix1 e) = (V c main_arg4 : S768.Idx → EReal) (ix1 e) := by
  obtain ⟨-, -, -, -, -, -, e0, -⟩ := idx_facts t
  show (V c main_arg4 : S768.Idx → EReal) (((cfg0.win 4).blk t).view.emb (ix1 e)) = _
  refine congrArg (V c main_arg4 : S768.Idx → EReal) (funext fun a => Fin.ext ?_)
  match a with
  | ⟨0, _⟩ => show win0_4.index t (0 : Fin 1) * 768 + 1 * e.val = e.val; omega
theorem blk5_at (c : Dev nD) (t : Fin cfg0.N) (e : Fin 768) (j : Fin 2304) :
    iblk0 V c 5 t (ix2 e j) = (V c main_v7 : S768x2304.Idx → EReal) (ix2 e j) := by
  obtain ⟨-, -, -, -, -, -, -, e0, e1, -⟩ := idx_facts t
  show (V c main_v7 : S768x2304.Idx → EReal) (((cfg0.win 5).blk t).view.emb (ix2 e j)) = _
  refine congrArg (V c main_v7 : S768x2304.Idx → EReal) (funext fun a => Fin.ext ?_)
  match a with
  | ⟨0, _⟩ => show win0_5.index t (0 : Fin 2) * 768 + 1 * e.val = e.val; omega
  | ⟨1, _⟩ => show win0_5.index t (1 : Fin 2) * 2304 + 1 * j.val = j.val; omega

/-- What the region finds in its six input arrays, entry by entry: the patches, the first projection's weights
    transposed, its bias, the normalisation's gain and offset, the second projection's weights transposed. -/
structure Entry (c : Dev nD) : Prop where
  patches : ∀ (n : Fin 4096) (p : Fin 256), (V c main_v3 : S4096x256.Idx → EReal) (ix2 n p) = Spec.patch x n p
  weights1 : ∀ (p : Fin 256) (e : Fin 768), (V c main_v5 : S256x768.Idx → EReal) (ix2 p e) = pw e p
  bias : ∀ e : Fin 768, (V c main_arg2 : S768.Idx → EReal) (ix1 e) = pb e
  gain : ∀ e : Fin 768, (V c main_arg3 : S768.Idx → EReal) (ix1 e) = g e
  offset : ∀ e : Fin 768, (V c main_arg4 : S768.Idx → EReal) (ix1 e) = b e
  weights2 : ∀ (e : Fin 768) (j : Fin 2304), (V c main_v7 : S768x2304.Idx → EReal) (ix2 e j) = qw j e

variable {V x pw pb g b qw}

/-- WHAT POINT `t` WRITES BACK is block `t` — rows `512·t` to `512·t + 511` — of the projected features. -/
theorem flushed6_eq {c : Dev nD} (hE : Entry V x pw pb g b qw c) (t : Fin cfg0.N) :
    (dat0 V c).flushed 6 t = ((cfg0.win 6).blk t).view.read (Elt Ideal) (G6 x pw pb g b qw) := by
  show (cfg0.win 6).cut (grid0.coords t) ((dat0 V c).after 6 t) = _
  rw [after0_6]
  unfold out0_6
  rw [View.canon_unit_zero hz2]
  simp only [View.ld_unit_zero (S := S512x256) hz2, View.ld_unit_zero (S := S256x768) hz2, View.ld_unit_zero (S := S768) hz1,
    View.ld_unit_zero (S := S768x2304) hz2]
  funext y
  obtain ⟨r, j, rfl⟩ : ∃ (r : Fin 512) (j : Fin 2304), y = ix2 r j := ⟨y 0, y 1, eq_ix2 y⟩
  have ht := t_lt t
  obtain ⟨-, -, -, -, -, -, -, -, -, e0, e1⟩ := idx_facts t
  refine (pay_at x pw pb g b qw (iblk0 V c 0 t) (iblk0 V c 1 t) (iblk0 V c 2 t) (iblk0 V c 3 t) (iblk0 V c 4 t) (iblk0 V c 5 t)
    ⟨t.val * 512 + r.val, by omega⟩ r j
    (fun p => (blk0_at V c t r p).trans (hE.patches _ p))
    (fun p e => (blk1_at V c t p e).trans (hE.weights1 p e))
    (fun e => (blk2_at V c t e).trans (hE.bias e))
    (fun e => (blk3_at V c t e).trans (hE.gain e))
    (fun e => (blk4_at V c t e).trans (hE.offset e))
    (fun e j => (blk5_at V c t e j).trans (hE.weights2 e j))).trans ?_
  show _ = G6 x pw pb g b qw (((cfg0.win 6).blk t).view.emb (ix2 r j))
  refine ((G6_ix2 x pw pb g b qw _ j).symm.trans (congrArg (G6 x pw pb g b qw) (funext fun a => Fin.ext ?_)))
  match a with
  | ⟨0, _⟩ => show t.val * 512 + r.val = win0_6.index t (0 : Fin 2) * 512 + 1 * r.val; omega
  | ⟨1, _⟩ => show j.val = win0_6.index t (1 : Fin 2) * 2304 + 1 * j.val; omega

/-- An index of the array is in point `t`'s block iff each coordinate is in the block's range on its axis. -/
theorem mem_blk6 (t : Fin cfg0.N) (i : S4096x2304.Idx) :
    i ∈ ((cfg0.win 6).blk t).view.set ↔ ∀ a : Fin 2, win0_6.index t a * S512x2304.size a ≤ (i a).val ∧ (i a).val < win0_6.index t a * S512x2304.size a + S512x2304.size a := by
  show i ∈ ((View.whole main_v8).slice (win0_6.rect t)).set ↔ _
  rw [View.set_slice_whole, Rect.mem_set_unit]
  exact Iff.rfl

/-- Every entry is written back by some point: row `n` by point `n / 512`. -/
theorem cover6 (i : S4096x2304.Idx) : ∃ t : Fin cfg0.N, (cfg0.win 6).flush t = true ∧ i ∈ ((cfg0.win 6).blk t).view.set := by
  have hi0 : (i 0).val < 4096 := (i 0).isLt
  have hi1 : (i 1).val < 2304 := (i 1).isLt
  have hN : cfg0.N = 8 := N_0
  let t : Fin cfg0.N := ⟨(i 0).val / 512, by rw [hN]; omega⟩
  have htv : t.val = (i 0).val / 512 := rfl
  obtain ⟨-, -, -, -, -, -, -, -, -, e0, e1⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2304 ≤ (i 1).val ∧ (i 1).val < win0_6.index t (1 : Fin 2) * 2304 + 2304; omega

/-- THE ARRAY after the region: the projected features, whole. -/
theorem arrAt6 {c : Dev nD} (hE : Entry V x pw pb g b qw c) : (dat0 V c).arrAt 6 cfg0.N = G6 x pw pb g b qw :=
  (dat0 V c).arrAt_eq_of_cover 6 (G6 x pw pb g b qw) (fun t _ => flushed6_eq hE t) cover6

/-- Entry `(n, j)` of it is feature `j` of token `n`. -/
theorem qkv_at_of {c : Dev nD} (hE : Entry V x pw pb g b qw c) (n : Fin 4096) (j : Fin 2304) :
    (dat0 V c).arrAt 6 cfg0.N (ix2 n j) = Spec.qkv x pw pb g b qw n j := by
  rw [arrAt6 hE]; rfl

end Blocks

/-! ## The arrays the region is entered with: the host stretch read at coordinates -/

section Host

variable (m : (ℓ : Loc nD τ sig) → Buf (Elt Ideal) ℓ)

/-- The TensorCore's buffers when the first region is entered: the launch contents after the eight host operations
    (the image cut into patches and rounded, the two weight matrices transposed and rounded). -/
abbrev Vin : (c : Dev nD) → (b : Ref sig .tc) → Buf (Elt Ideal) ((c : Thread nD τ).loc b) := fun c b => Gen.V1 (F := Ideal) m c b

/-- The six argument arrays read coordinate by coordinate. -/
def aX (c : Dev nD) (r s : Fin 1024) : EReal := (m ((c : Thread nD τ).loc main_arg0) : S1024x1024.Idx → EReal) (ix2 r s)
def aPW (c : Dev nD) (e : Fin 768) (p : Fin 256) : EReal := (m ((c : Thread nD τ).loc main_arg1) : S768x256.Idx → EReal) (ix2 e p)
def aPB (c : Dev nD) (e : Fin 768) : EReal := (m ((c : Thread nD τ).loc main_arg2) : S768.Idx → EReal) (ix1 e)
def aG (c : Dev nD) (e : Fin 768) : EReal := (m ((c : Thread nD τ).loc main_arg3) : S768.Idx → EReal) (ix1 e)
def aB (c : Dev nD) (e : Fin 768) : EReal := (m ((c : Thread nD τ).loc main_arg4) : S768.Idx → EReal) (ix1 e)
def aQW (c : Dev nD) (j : Fin 2304) (e : Fin 768) : EReal := (m ((c : Thread nD τ).loc main_arg5) : S2304x768.Idx → EReal) (ix2 j e)

/-- The patch array is the image reshaped to (64, 16, 64, 16), its two middle axes swapped, reshaped to (4096, 256). -/
theorem Vin_v3 (c : Dev nD) : @Eq (S4096x256.Idx → EReal) (Vin m c main_v3)
    (truncf (F := Ideal) .bf16 (shapeCast S4096x256 (transpose S64x64x16x16 [0, 2, 1, 3]
        (shapeCast S64x16x64x16 (m ((c : Thread nD τ).loc main_arg0) : FVec Ideal S1024x1024 .f32) shapeCasts_S1024x1024_S64x16x64x16)
        transposes_S64x16x64x16_S64x64x16x16_0_2_1_3) shapeCasts_S64x64x16x16_S4096x256) bitsLt_bf16_f32) := by
  dsimp only [Vin, Gen.V1, Gen.hostOps0]; after_results; all_goals rfl
/-- The first weight matrix is the argument transposed, -/
theorem Vin_v5 (c : Dev nD) : @Eq (S256x768.Idx → EReal) (Vin m c main_v5)
    (truncf (F := Ideal) .bf16 (transpose S256x768 [1, 0] (m ((c : Thread nD τ).loc main_arg1) : FVec Ideal S768x256 .f32) transposes_S768x256_S256x768_1_0) bitsLt_bf16_f32) := by
  dsimp only [Vin, Gen.V1, Gen.hostOps0]; after_results; all_goals rfl
/-- and so is the second. -/
theorem Vin_v7 (c : Dev nD) : @Eq (S768x2304.Idx → EReal) (Vin m c main_v7)
    (truncf (F := Ideal) .bf16 (transpose S768x2304 [1, 0] (m ((c : Thread nD τ).loc main_arg5) : FVec Ideal S2304x768 .f32) transposes_S2304x768_S768x2304_1_0) bitsLt_bf16_f32) := by
  dsimp only [Vin, Gen.V1, Gen.hostOps0]; after_results; all_goals rfl

/-- Entry `(n, p)` of the patch array is pixel `p` of patch `n`: with `n = 64·a + b` and `p = 16·c + d`, the row-major
    position `256·n + p` in (64, 64, 16, 16) is `(a, b, c, d)`, which the swap takes to `(a, c, b, d)` in (64, 16, 64, 16),
    whose position in the image is row `16·a + c`, column `16·b + d`. -/
theorem patches_at (c : Dev nD) (n : Fin 4096) (p : Fin 256) :
    (Vin m c main_v3 : S4096x256.Idx → EReal) (ix2 n p) = Spec.patch (aX m c) n p := by
  have hn := n.isLt
  have hp := p.isLt
  rw [Vin_v3, truncf_apply]
  refine (shapeCast_apply _ shapeCasts_S64x64x16x16_S4096x256 (ix2 n p)
    (ix4 (⟨n.val / 64, by omega⟩ : Fin 64) (⟨n.val % 64, by omega⟩ : Fin 64) (⟨p.val / 16, by omega⟩ : Fin 16) (⟨p.val % 16, by omega⟩ : Fin 16)) ?_).trans ?_
  · rw [Shape.rowMajor_val_four, Shape.rowMajor_val_two]
    show ((n.val / 64 * 64 + n.val % 64) * 16 + p.val / 16) * 16 + p.val % 16 = n.val * 256 + p.val
    omega
  refine (transpose_apply [0, 2, 1, 3] _ transposes_S64x16x64x16_S64x64x16x16_0_2_1_3 _
    (ix4 (⟨n.val / 64, by omega⟩ : Fin 64) (⟨p.val / 16, by omega⟩ : Fin 16) (⟨n.val % 64, by omega⟩ : Fin 64) (⟨p.val % 16, by omega⟩ : Fin 16))
    (fun a => match a with
      | ⟨0, _⟩ => rfl
      | ⟨1, _⟩ => rfl
      | ⟨2, _⟩ => rfl
      | ⟨3, _⟩ => rfl)).trans ?_
  refine shapeCast_apply _ shapeCasts_S1024x1024_S64x16x64x16 _ (ix2 (Spec.patchRow n p) (Spec.patchCol n p)) ?_
  rw [Shape.rowMajor_val_two, Shape.rowMajor_val_four]
  show (n.val / 64 * 16 + p.val / 16) * 1024 + (n.val % 64 * 16 + p.val % 16) = ((n.val / 64 * 16 + p.val / 16) * 64 + n.val % 64) * 16 + p.val % 16
  omega

theorem weights1_at (c : Dev nD) (p : Fin 256) (e : Fin 768) :
    (Vin m c main_v5 : S256x768.Idx → EReal) (ix2 p e) = aPW m c e p := by
  rw [Vin_v5, truncf_apply]
  exact transpose_ix2_apply _ transposes_S768x256_S256x768_1_0 p e

theorem weights2_at (c : Dev nD) (e : Fin 768) (j : Fin 2304) :
    (Vin m c main_v7 : S768x2304.Idx → EReal) (ix2 e j) = aQW m c j e := by
  rw [Vin_v7, truncf_apply]
  exact transpose_ix2_apply _ transposes_S2304x768_S768x2304_1_0 e j

/-- No host operation writes the bias, the gain or the offset. -/
theorem Vin_arg2 (c : Dev nD) : Vin m c main_arg2 = m ((c : Thread nD τ).loc main_arg2) := (Gen.V1_of m c main_arg2 (by decide)).trans rfl
theorem Vin_arg3 (c : Dev nD) : Vin m c main_arg3 = m ((c : Thread nD τ).loc main_arg3) := (Gen.V1_of m c main_arg3 (by decide)).trans rfl
theorem Vin_arg4 (c : Dev nD) : Vin m c main_arg4 = m ((c : Thread nD τ).loc main_arg4) := (Gen.V1_of m c main_arg4 (by decide)).trans rfl

/-- What the region is entered with is what the specification is stated over. -/
theorem entry (c : Dev nD) : Entry (Vin m) (aX m c) (aPW m c) (aPB m c) (aG m c) (aB m c) (aQW m c) c where
  patches := patches_at m c
  weights1 := weights1_at m c
  bias e := by rw [Vin_arg2]; rfl
  gain e := by rw [Vin_arg3]; rfl
  offset e := by rw [Vin_arg4]; rfl
  weights2 := weights2_at m c

/-- THE FIRST REGION'S VALUE: after it, entry `(n, j)` of its output array is feature `j` of token `n` of the
    specification over the six argument arrays. -/
theorem qkv_at (c : Dev nD) (n : Fin 4096) (j : Fin 2304) :
    (dat0 (Vin m) c).arrAt 6 cfg0.N (ix2 n j) = Spec.qkv (aX m c) (aPW m c) (aPB m c) (aG m c) (aB m c) (aQW m c) n j :=
  qkv_at_of (entry m c) n j

end Host

end Cert.KernelIdeal.Hand0V

end
-- ==== Proof.Region1Cover.lean ====
/-
  The attention launch's output array, from its blocks.

  The launch runs over 12 heads × 4 query blocks of 1024 rows × 8 key blocks, in that order. The output array
  [12, 4096, 64] is written back one block [1, 1024, 64] at a time, at the last key block of each sweep only; the block of
  head `h` and query block `b` goes to rows `1024 b … 1024 b + 1023` of head `h`. Each entry `(h, n, d)` of the array is
  therefore covered by exactly one write-back — the last key block of the sweep of head `h` and of the query block
  `n / 1024` — and ends holding what that point left in the output block at `(0, n % 1024, d)`.
-/
import proofs.«139566_j53790170415805_2_alg».proof.Proof.Region1Data
import Idealize.ShloMosaic.Lib.Pipeline.Value
import Idealize.ShloMosaic.Lib.ValueIdx

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The last key block of the sweep of head `h` and of the query block that holds row `n`. -/
def lastPt (h : Fin 12) (n : Fin 4096) : ℕ := h.val * 32 + (n.val / 1024) * 8 + 7

theorem lastPt_lt (h : Fin 12) (n : Fin 4096) : lastPt h n < cfg1.N := by
  rw [show cfg1.N = 384 from N_1]
  unfold lastPt
  have := h.isLt
  have := n.isLt
  omega

theorem lastPt_mod (h : Fin 12) (n : Fin 4096) : lastPt h n % 8 = 7 := by
  unfold lastPt
  omega

/-- The output window's block index at point `t`: head, query block, 0. -/
theorem idxO_facts : ∀ t : Fin cfg1.N, win1_3.index t (0 : Fin 3) = t.val / 32
    ∧ win1_3.index t (1 : Fin 3) = t.val / 8 % 4 ∧ win1_3.index t (2 : Fin 3) = 0 :=
  (by decide +kernel : ∀ t : Fin grid1.N, _)

/-- What the array ends holding: at `(h, n, d)`, what the last key block of the sweep of `(h, n / 1024)` left in the
    output block at `(0, n % 1024, d)`. -/
def arrO (c : Dev nD) : Vec F S12x4096x64 .f32 := fun i =>
  (outsAt1 V c (lastPt (i 0) (i 1)) (lastPt_lt (i 0) (i 1))).1
    (ValueIdx.ix3 (0 : Fin 1) (⟨(i 1).val % 1024, Nat.mod_lt _ (by norm_num)⟩ : Fin 1024) (i 2 : Fin 64))

/-- `arrO` at an index, from any point and block index that name the same entry. -/
theorem arrO_apply (c : Dev nD) (i : S12x4096x64.Idx) (k : ℕ) (hk : k < cfg1.N) (y : S1x1024x64.Idx)
    (hk' : lastPt (i 0) (i 1) = k) (hy1 : (y 1).val = (i 1).val % 1024) (hy2 : (y 2).val = (i 2).val) :
    arrO V c i = (outsAt1 V c k hk).1 y := by
  subst hk'
  unfold arrO
  refine congrArg _ ?_
  funext a
  apply Fin.ext
  match a with
  | ⟨0, _⟩ => have := (y 0).isLt; show 0 = (y 0).val; have h1 : S1x1024x64.size 0 = 1 := rfl; omega
  | ⟨1, _⟩ => exact hy1.symm
  | ⟨2, _⟩ => exact hy2.symm

/-- WHAT A FLUSHING POINT WRITES BACK is its block of `arrO`. -/
theorem flushedO_eq (c : Dev nD) (t : Fin cfg1.N) (hf : (cfg1.win 3).flush t = true) :
    (dat1 V c).flushed 3 t = ((cfg1.win 3).blk t).view.read (Elt F) (arrO V c) := by
  have h7 : t.val % 8 = 7 := (flush1_3 t).mp hf
  have hN : t.val < 384 := lt_of_lt_of_eq t.isLt (show cfg1.N = 384 from N_1)
  obtain ⟨e0, e1, e2⟩ := idxO_facts t
  show (cfg1.win 3).cut (grid1.coords t) ((dat1 V c).after 3 t) = _
  rw [afterO]
  funext y
  show (outsAt1 V c t.val t.isLt).1 y = arrO V c (((cfg1.win 3).blk t).view.emb y)
  have hy0 : (y 0).val < 1 := (y 0).isLt
  have hy1 : (y 1).val < 1024 := (y 1).isLt
  have c0 : ((((cfg1.win 3).blk t).view.emb y) 0).val = win1_3.index t (0 : Fin 3) * 1 + 1 * (y 0).val := rfl
  have c1 : ((((cfg1.win 3).blk t).view.emb y) 1).val = win1_3.index t (1 : Fin 3) * 1024 + 1 * (y 1).val := rfl
  have c2 : ((((cfg1.win 3).blk t).view.emb y) 2).val = win1_3.index t (2 : Fin 3) * 64 + 1 * (y 2).val := rfl
  refine (arrO_apply V c _ t.val t.isLt y ?_ ?_ ?_).symm
  · unfold lastPt; omega
  · omega
  · omega

/-- An index of the array is in point `t`'s block iff each coordinate is in the block's range on its axis. -/
theorem mem_blkO (t : Fin cfg1.N) (i : S12x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v11).slice (win1_3.rect t)).set ↔ _
  rw [View.set_slice_whole, Rect.mem_set_unit]
  exact Iff.rfl

/-- Every entry is in the block of the flushing point of its head and query block. -/
theorem coverO (i : S12x4096x64.Idx) :
    ∃ t : Fin cfg1.N, (cfg1.win 3).flush t = true ∧ i ∈ ((cfg1.win 3).blk t).view.set := by
  have hi0 : (i 0).val < 12 := (i 0).isLt
  have hi1 : (i 1).val < 4096 := (i 1).isLt
  have hi2 : (i 2).val < 64 := (i 2).isLt
  refine ⟨⟨lastPt (i 0) (i 1), lastPt_lt (i 0) (i 1)⟩, (flush1_3 _).mpr (lastPt_mod (i 0) (i 1)), ?_⟩
  rw [mem_blkO]
  obtain ⟨e0, e1, e2⟩ := idxO_facts ⟨lastPt (i 0) (i 1), lastPt_lt (i 0) (i 1)⟩
  have hl : lastPt (i 0) (i 1) = (i 0).val * 32 + ((i 1).val / 1024) * 8 + 7 := rfl
  intro a
  match a with
  | ⟨0, _⟩ =>
    show win1_3.index ⟨lastPt (i 0) (i 1), _⟩ (0 : Fin 3) * 1 ≤ (i 0).val ∧ (i 0).val < win1_3.index ⟨lastPt (i 0) (i 1), _⟩ (0 : Fin 3) * 1 + 1
    rw [e0]; show lastPt (i 0) (i 1) / 32 * 1 ≤ _ ∧ _ < lastPt (i 0) (i 1) / 32 * 1 + 1; omega
  | ⟨1, _⟩ =>
    show win1_3.index ⟨lastPt (i 0) (i 1), _⟩ (1 : Fin 3) * 1024 ≤ (i 1).val ∧ (i 1).val < win1_3.index ⟨lastPt (i 0) (i 1), _⟩ (1 : Fin 3) * 1024 + 1024
    rw [e1]; show lastPt (i 0) (i 1) / 8 % 4 * 1024 ≤ _ ∧ _ < lastPt (i 0) (i 1) / 8 % 4 * 1024 + 1024; omega
  | ⟨2, _⟩ =>
    show win1_3.index ⟨lastPt (i 0) (i 1), _⟩ (2 : Fin 3) * 64 ≤ (i 2).val ∧ (i 2).val < win1_3.index ⟨lastPt (i 0) (i 1), _⟩ (2 : Fin 3) * 64 + 64
    rw [e2]; omega

/-- THE ARRAY after the launch. -/
theorem arrAtO_eq (c : Dev nD) : (dat1 V c).arrAt 3 cfg1.N = arrO V c :=
  (dat1 V c).arrAt_eq_of_cover 3 (arrO V c) (flushedO_eq V c) coverO

/-- The output array at `(h, n, d)`: what the last key block of the sweep of head `h` and of the query block holding row
    `n` left in the output block at `(0, n % 1024, d)`. -/
theorem out_at (c : Dev nD) (h : Fin 12) (n : Fin 4096) (d : Fin 64) :
    (dat1 V c).arrAt 3 cfg1.N (ValueIdx.ix3 h n d)
      = (outsAt1 V c (lastPt h n) (lastPt_lt h n)).1
          (ValueIdx.ix3 (0 : Fin 1) (⟨n.val % 1024, Nat.mod_lt _ (by norm_num)⟩ : Fin 1024) d) := by
  rw [arrAtO_eq]
  rfl

end Cert.KernelIdeal.Hand1

end
-- ==== Proof.FiniteInputs.lean ====
/-
  The precondition read as finiteness. The printed precondition takes, for each of the six argument arrays, the
  conjunction over all entries of `|x| < +∞`, and conjoins the six. When it holds every entry of every argument is a
  real number: an extended real whose absolute value `max x (-x)` lies below `+∞` is neither `+∞` nor `-∞`.
-/
import proofs.«139566_j53790170415805_2_alg».proof.Defs
import proofs.«139566_j53790170415805_2_alg».proof.Proof.Gen.Pre_finite_inputs
import Idealize.ShloMosaic.Lib.ValueIdx
import Idealize.ShloMosaic.Lib.ReduceAll
import Idealize.ShloMosaic.PureOps.Ideal

noncomputable section

namespace Cert.Finite

open Idealize.ShloMosaic Idealize.SL.Sem

/-- The word both comparisons are made against is `+∞`. -/
theorem inf_eq : Ideal.ofBits .f32 0x7F800000#32 = (⊤ : EReal) := by
  simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => exact absurd h (by simp [Ideal.cmp])
  | coe r => exact ⟨r, rfl⟩
  | top => exact absurd h (by simp [Ideal.cmp])

/-- The scalar shape has one index. -/
instance : Subsingleton Cert.Pre_finite_inputs.S_.Idx := ⟨fun a b => funext fun d => d.elim0⟩

/-- One argument's `all (|p| < +∞)`: when it is 1, every entry of `p` is a real number. -/
theorem all_real {s : Shape} (p : FVec Ideal s .f32) (hb : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (e : Host.reduce IntOp.andi
        (cmpf .olt (Host.absf p) (broadcastInDim s ![] hb (constant Cert.Pre_finite_inputs.S_ .f32 0x7F800000#32)))
        (constantI Cert.Pre_finite_inputs.S_ 1 1#1) hr hu ValueIdx.ix0 = 1#1) (i : s.Idx) :
    ∃ r : ℝ, p i = (r : EReal) :=
  real_of_abs_lt (p i) (Host.reduce_andi_all _ _ hr hu _ e i)

variable [hF : Cert.Pre_finite_inputs.Facts]

/-- Under the precondition every entry of each of the six argument arrays is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ (r s : Fin 1024), ∃ x : ℝ,
        m ((c.tc : Thread Cert.KernelIdeal.nD Cert.KernelIdeal.τ).loc Cert.KernelIdeal.main_arg0) (ValueIdx.ix2 r s) = (x : EReal))
    ∧ (∀ (e : Fin 768) (p : Fin 256), ∃ x : ℝ,
        m ((c.tc : Thread Cert.KernelIdeal.nD Cert.KernelIdeal.τ).loc Cert.KernelIdeal.main_arg1) (ValueIdx.ix2 e p) = (x : EReal))
    ∧ (∀ e : Fin 768, ∃ x : ℝ,
        m ((c.tc : Thread Cert.KernelIdeal.nD Cert.KernelIdeal.τ).loc Cert.KernelIdeal.main_arg2) (ValueIdx.ix1 e) = (x : EReal))
    ∧ (∀ e : Fin 768, ∃ x : ℝ,
        m ((c.tc : Thread Cert.KernelIdeal.nD Cert.KernelIdeal.τ).loc Cert.KernelIdeal.main_arg3) (ValueIdx.ix1 e) = (x : EReal))
    ∧ (∀ e : Fin 768, ∃ x : ℝ,
        m ((c.tc : Thread Cert.KernelIdeal.nD Cert.KernelIdeal.τ).loc Cert.KernelIdeal.main_arg4) (ValueIdx.ix1 e) = (x : EReal))
    ∧ (∀ (j : Fin 2304) (e : Fin 768), ∃ x : ℝ,
        m ((c.tc : Thread Cert.KernelIdeal.nD Cert.KernelIdeal.τ).loc Cert.KernelIdeal.main_arg5) (ValueIdx.ix2 j e) = (x : EReal)) := by
  have e := congrFun (h c) ValueIdx.ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  exact ⟨fun r s => all_real _ _ _ _ e0 _, fun a p => all_real _ _ _ _ e1 _, fun a => all_real _ _ _ _ e2 _,
    fun a => all_real _ _ _ _ e3 _, fun a => all_real _ _ _ _ e4 _, fun j a => all_real _ _ _ _ e5 _⟩

end Cert.Finite

end
-- ==== Proof.LibOnlineSoftmax.lean ====
/-
  Streaming softmax over the extended reals: the running maximum, normaliser and weighted sum that a blocked
  attention kernel carries from key block to key block hold, after every block, the softmax sums of the keys
  seen so far; at the end their quotient is the softmax-weighted mean that the unblocked formula computes.

  One query row. A key `k` has a score `s k`, a real number or `-∞` (a masked key; never `+∞`), and a real
  value `v k`. From the state `(m, l, a) = (-∞, 0, 0)` a block `B` of new keys updates

      m' = max m (sup_B s)
      l' = exp (m - m') · l + Σ_{k ∈ B} exp (s k - m')
      a' = exp (m - m') · a + Σ_{k ∈ B} exp (s k - m') · v k

  where `exp (-∞) = 0`. If every new maximum `m'` is a real number (some key seen so far is unmasked), then after the
  keys `K` the state is `m = sup_K s`, `l = Σ_K exp (s k - m)`, `a = Σ_K exp (s k - m) · v k` (`Inv`, `Inv.step`), because
  `exp (m - m') · exp (s k - m) = exp (s k - m')` for real `m`, `m'` and a masked key weighs `0` against every level. At the
  end `a / l = Σ_K (exp (s k - m) / Σ_K exp (s j - m)) · v k` (`Inv.div_eq`): the normaliser is a real number `≥ 1` (the key
  that attains the maximum weighs `exp 0`), so dividing the sum is dividing each term.
-/
import Idealize.ShloMosaic.PureOps.Ideal

noncomputable section

namespace LibOnlineSoftmax

open Idealize.ShloMosaic

variable {κ : Type} [DecidableEq κ]

/-- The weight `exp (x - M)` of a score `x` against a real level `M`, as a real number: `0` for a masked score. -/
def wt (x : EReal) (M : ℝ) : ℝ := if x = ⊥ then 0 else Real.exp (x.toReal - M)

@[simp] theorem wt_bot (M : ℝ) : wt ⊥ M = 0 := by simp [wt]

@[simp] theorem wt_coe (r M : ℝ) : wt (r : EReal) M = Real.exp (r - M) := by
  simp [wt, EReal.coe_ne_bot]

theorem wt_nonneg (x : EReal) (M : ℝ) : 0 ≤ wt x M := by
  unfold wt; split
  · exact le_rfl
  · exact (Real.exp_pos _).le

/-- Changing the level rescales every weight by one factor. -/
theorem wt_shift (x : EReal) (M M' : ℝ) : wt x M' = Real.exp (M - M') * wt x M := by
  unfold wt; split
  · simp
  · rw [← Real.exp_add]; congr 1; ring

/-- A finite sum of reals, read in the extended reals, is the sum of the terms read there. -/
theorem coe_sum (K : Finset κ) (f : κ → ℝ) : ((∑ k ∈ K, f k : ℝ) : EReal) = ∑ k ∈ K, (f k : EReal) := by
  induction K using Finset.induction_on with
  | empty => simp
  | insert a s ha ih => rw [Finset.sum_insert ha, Finset.sum_insert ha, EReal.coe_add, ih]

/-- The exponential of a score minus a real level is the score's weight. -/
theorem exp_sub_coe {x : EReal} (hx : x ≠ ⊤) (M : ℝ) : Ideal.exp (x - (M : EReal)) = ((wt x M : ℝ) : EReal) := by
  induction x using EReal.rec with
  | bot => simp
  | coe r => rw [← EReal.coe_sub, Ideal.exp_coe, wt_coe]
  | top => exact absurd rfl hx

/-- A block's largest score as a kernel's lane reduction and a host reduction both read it — the fold of `max` from `-∞` —
    is the supremum the statements above are written with. -/
theorem fold_max_bot (K : Finset κ) (f : κ → EReal) : K.fold max ⊥ f = K.sup f := by
  induction K using Finset.induction_on with
  | empty => simp
  | insert a s ha ih => rw [Finset.fold_insert ha, Finset.sup_insert, ih]

/-- After the keys `K`: the running maximum is the largest score seen; while it is `-∞` (nothing seen, or only masked
    keys) both sums are `0`; once it is a real number `M` they are the weights' sum and the weighted values' sum
    against `M`. -/
structure Inv (s : κ → EReal) (v : κ → ℝ) (K : Finset κ) (m l a : EReal) : Prop where
  max_eq : m = K.sup s
  sums : (m = ⊥ ∧ l = 0 ∧ a = 0) ∨
    ∃ M : ℝ, m = (M : EReal) ∧ l = ((∑ k ∈ K, wt (s k) M : ℝ) : EReal)
      ∧ a = ((∑ k ∈ K, wt (s k) M * v k : ℝ) : EReal)

/-- Before the first block. -/
theorem Inv.init (s : κ → EReal) (v : κ → ℝ) : Inv s v ∅ ⊥ 0 0 :=
  ⟨Finset.sup_empty.symm, Or.inl ⟨rfl, rfl, rfl⟩⟩

/-- Keys whose scores are all `-∞` weigh nothing, against any level. -/
theorem sum_wt_eq_zero {s : κ → EReal} {K : Finset κ} (h : K.sup s = ⊥) (M : ℝ) (f : κ → ℝ) :
    ∑ k ∈ K, wt (s k) M * f k = 0 :=
  Finset.sum_eq_zero fun k hk => by rw [(Finset.sup_eq_bot_iff _ _).1 h k hk, wt_bot, zero_mul]

/-- One block of new keys, when the new maximum is a real number. -/
theorem Inv.step {s : κ → EReal} {v : κ → ℝ} {K B : Finset κ} {m l a : EReal} (hs : ∀ k, s k ≠ ⊤)
    (h : Inv s v K m l a) (hd : Disjoint K B) {M' : ℝ} (hM' : max m (B.sup s) = (M' : EReal)) :
    Inv s v (K ∪ B) (max m (B.sup s))
      (Ideal.exp (m - max m (B.sup s)) * l + ∑ k ∈ B, Ideal.exp (s k - max m (B.sup s)))
      (Ideal.exp (m - max m (B.sup s)) * a + ∑ k ∈ B, Ideal.exp (s k - max m (B.sup s)) * (v k : EReal)) := by
  have hB1 : ∑ k ∈ B, Ideal.exp (s k - (M' : EReal)) = ((∑ k ∈ B, wt (s k) M' : ℝ) : EReal) := by
    rw [coe_sum]; exact Finset.sum_congr rfl fun k _ => exp_sub_coe (hs k) M'
  have hB2 : ∑ k ∈ B, Ideal.exp (s k - (M' : EReal)) * (v k : EReal) = ((∑ k ∈ B, wt (s k) M' * v k : ℝ) : EReal) := by
    rw [coe_sum]; exact Finset.sum_congr rfl fun k _ => by rw [exp_sub_coe (hs k) M', EReal.coe_mul]
  refine ⟨?_, Or.inr ⟨M', hM', ?_, ?_⟩⟩
  · rw [Finset.sup_union, ← h.max_eq]
  · rw [hM', hB1, Finset.sum_union hd]
    rcases h.sums with ⟨hm, hl, -⟩ | ⟨M, hm, hl, -⟩
    · have h0 := sum_wt_eq_zero (h.max_eq.symm.trans hm) M' (fun _ => (1 : ℝ))
      simp only [mul_one] at h0
      rw [hl, mul_zero, zero_add, h0, zero_add]
    · rw [hm, hl, ← EReal.coe_sub, Ideal.exp_coe, ← EReal.coe_mul, ← EReal.coe_add, Finset.mul_sum]
      congr 2
      exact Finset.sum_congr rfl fun k _ => (wt_shift (s k) M M').symm
  · rw [hM', hB2, Finset.sum_union hd]
    rcases h.sums with ⟨hm, -, ha⟩ | ⟨M, hm, -, ha⟩
    · rw [ha, mul_zero, zero_add, sum_wt_eq_zero (h.max_eq.symm.trans hm) M' v, zero_add]
    · rw [hm, ha, ← EReal.coe_sub, Ideal.exp_coe, ← EReal.coe_mul, ← EReal.coe_add, Finset.mul_sum]
      congr 2
      exact Finset.sum_congr rfl fun k _ => by rw [wt_shift (s k) M M', mul_assoc]

/-- At the end the quotient of the two sums is the mean of the values under the normalised weights: what the unblocked
    formula computes, row maximum subtracted, each exponential divided by their sum. -/
theorem Inv.div_eq {s : κ → EReal} {v : κ → ℝ} {K : Finset κ} {m l a : EReal} (hs : ∀ k, s k ≠ ⊤)
    (h : Inv s v K m l a) {M : ℝ} (hM : m = (M : EReal)) :
    Ideal.div a l
      = ∑ k ∈ K, Ideal.div (Ideal.exp (s k - m)) (∑ j ∈ K, Ideal.exp (s j - m)) * (v k : EReal) := by
  rcases h.sums with ⟨hm, -, -⟩ | ⟨M₀, hm, hl, ha⟩
  · exact absurd (hm.symm.trans hM) (EReal.coe_ne_bot M).symm
  · have hMM : M₀ = M := EReal.coe_eq_coe_iff.1 (hm.symm.trans hM)
    subst hMM
    -- the normaliser is at least the weight of the key that attains the maximum, which is `exp 0`
    have hne : K.Nonempty := by
      rcases K.eq_empty_or_nonempty with rfl | hne
      · have h1 := h.max_eq
        rw [Finset.sup_empty] at h1
        exact absurd (h1.symm.trans hM).symm (EReal.coe_ne_bot _)
      · exact hne
    obtain ⟨k₀, hk₀, hsup⟩ := Finset.exists_mem_eq_sup K hne s
    have hk₀' : s k₀ = (M₀ : EReal) := by rw [← hsup, ← h.max_eq, hM]
    have hL : (0 : ℝ) < ∑ k ∈ K, wt (s k) M₀ :=
      lt_of_lt_of_le (by rw [hk₀', wt_coe, sub_self, Real.exp_zero]; exact one_pos)
        (Finset.single_le_sum (fun k _ => wt_nonneg (s k) M₀) hk₀)
    have hsum : ∑ j ∈ K, Ideal.exp (s j - (M₀ : EReal)) = ((∑ k ∈ K, wt (s k) M₀ : ℝ) : EReal) := by
      rw [coe_sum]; exact Finset.sum_congr rfl fun k _ => exp_sub_coe (hs k) M₀
    rw [hM, hsum, ha, hl, Ideal.div_coe hL.ne', ← EReal.coe_mul, Finset.sum_mul, coe_sum]
    refine Finset.sum_congr rfl fun k _ => ?_
    rw [exp_sub_coe (hs k) M₀, Ideal.div_coe hL.ne', ← EReal.coe_mul, ← EReal.coe_mul]
    congr 1; ring

/-- The blocks one after the other: a sequence of states that starts at `(-∞, 0, 0)` and takes one block per step, every
    new maximum a real number, holds after `n` steps the sums over the first `n` blocks. -/
theorem Inv.blocks {s : κ → EReal} {v : κ → ℝ} (hs : ∀ k, s k ≠ ⊤) (blk : ℕ → Finset κ)
    (hd : ∀ i j, i ≠ j → Disjoint (blk i) (blk j)) (m l a : ℕ → EReal)
    (h0 : m 0 = ⊥ ∧ l 0 = 0 ∧ a 0 = 0)
    (hm : ∀ n, m (n + 1) = max (m n) ((blk n).sup s))
    (hl : ∀ n, l (n + 1) = Ideal.exp (m n - m (n + 1)) * l n + ∑ k ∈ blk n, Ideal.exp (s k - m (n + 1)))
    (ha : ∀ n, a (n + 1) = Ideal.exp (m n - m (n + 1)) * a n + ∑ k ∈ blk n, Ideal.exp (s k - m (n + 1)) * (v k : EReal))
    (hreal : ∀ n, ∃ M : ℝ, m (n + 1) = (M : EReal)) :
    ∀ n, Inv s v ((Finset.range n).biUnion blk) (m n) (l n) (a n) := by
  intro n
  induction n with
  | zero =>
    rw [Finset.range_zero, Finset.biUnion_empty, h0.1, h0.2.1, h0.2.2]
    exact Inv.init s v
  | succ n ih =>
    obtain ⟨M, hM⟩ := hreal n
    have hdis : Disjoint ((Finset.range n).biUnion blk) (blk n) :=
      (Finset.disjoint_biUnion_left _ _ _).2 fun i hi => hd i n (Finset.mem_range.1 hi).ne
    have hstep := ih.step hs hdis (M' := M) ((hm n).symm.trans hM)
    rw [Finset.range_add_one, Finset.biUnion_insert, Finset.union_comm, hl n, ha n, hm n]
    exact hstep

end LibOnlineSoftmax

end
-- ==== Proof.AttnMath.lean ====
/-
  The mathematics of the two forms of the attention and of the normalisation that feeds them, over the extended reals.

  A function is REAL-VALUED when each of its values is a real number read in the extended reals. For real-valued
  queries, keys and values:
  * scaling the query before the dot product and scaling the dot product give the same score (both are
    `(1/8) · Σ_d q · k`);
  * the streamed form (eight blocks of 512 keys folded into a running maximum, denominator and numerator, one division
    at the end) equals the unblocked form (row maximum subtracted, each weight divided by the row's sum): the blocks
    are disjoint and cover all 4096 keys, every block holds real scores so every running maximum is a real number, and the
    streaming-softmax invariant then holds after each block; at the end it is the unblocked formula.
-/
import proofs.«139566_j53790170415805_2_alg».proof.Proof.Spec
import proofs.«139566_j53790170415805_2_alg».proof.Proof.LibOnlineSoftmax
import Idealize.ShloMosaic.PureOps.Ideal

noncomputable section

namespace Cert.Math

open Idealize.ShloMosaic Cert.Spec

/-! ## Scores of real-valued queries and keys -/

section Score
variable {q k : Fin 4096 → Fin 64 → EReal} {qr kr : Fin 4096 → Fin 64 → ℝ}

/-- The unblocked score is the real number `(Σ_d q · k) · (1/8)`. -/
theorem scoreU_coe (hq : ∀ n d, q n d = (qr n d : EReal)) (hk : ∀ n d, k n d = (kr n d : EReal)) (n m : Fin 4096) :
    scoreU q k n m = (((∑ d : Fin 64, qr n d * kr m d) * (1 / 8) : ℝ) : EReal) := by
  unfold scoreU
  rw [wEighth_eq, EReal.coe_mul, LibOnlineSoftmax.coe_sum]
  congr 1
  exact Finset.sum_congr rfl fun d _ => by rw [hq, hk, EReal.coe_mul]

/-- The streamed score is the real number `Σ_d (q · (1/8)) · k`. -/
theorem scoreS_coe (hq : ∀ n d, q n d = (qr n d : EReal)) (hk : ∀ n d, k n d = (kr n d : EReal)) (n m : Fin 4096) :
    scoreS q k n m = ((∑ d : Fin 64, qr n d * (1 / 8) * kr m d : ℝ) : EReal) := by
  unfold scoreS
  rw [wEighthB_eq, LibOnlineSoftmax.coe_sum]
  exact Finset.sum_congr rfl fun d _ => by rw [hq, hk, EReal.coe_mul, EReal.coe_mul]
end Score

/-- THE SCALE COMMUTES: for real-valued queries and keys the two scores agree. -/
theorem scoreS_eq_scoreU {q k : Fin 4096 → Fin 64 → EReal} (hq : ∀ n d, ∃ r : ℝ, q n d = (r : EReal))
    (hk : ∀ n d, ∃ r : ℝ, k n d = (r : EReal)) (n m : Fin 4096) : scoreS q k n m = scoreU q k n m := by
  choose qr hqr using hq
  choose kr hkr using hk
  rw [scoreS_coe hqr hkr, scoreU_coe hqr hkr, Finset.sum_mul]
  congr 1
  exact Finset.sum_congr rfl fun d _ => by ring

/-- A score of real-valued queries and keys is a real number. -/
theorem scoreU_real {q k : Fin 4096 → Fin 64 → EReal} (hq : ∀ n d, ∃ r : ℝ, q n d = (r : EReal))
    (hk : ∀ n d, ∃ r : ℝ, k n d = (r : EReal)) (n m : Fin 4096) : ∃ r : ℝ, scoreU q k n m = (r : EReal) := by
  choose qr hqr using hq
  choose kr hkr using hk
  exact ⟨_, scoreU_coe hqr hkr n m⟩

/-! ## Suprema of real-valued scores -/

section Sup
variable {κ : Type} [DecidableEq κ]

theorem sup_ne_top {s : κ → EReal} (hs : ∀ k, s k ≠ ⊤) (K : Finset κ) : K.sup s ≠ ⊤ := by
  rw [← lt_top_iff_ne_top, Finset.sup_lt_iff bot_lt_top]
  exact fun k _ => lt_top_iff_ne_top.2 (hs k)

theorem sup_ne_bot {s : κ → EReal} {K : Finset κ} {k₀ : κ} (hk : k₀ ∈ K) (h : s k₀ ≠ ⊥) : K.sup s ≠ ⊥ := by
  intro h0
  exact h (le_bot_iff.1 (h0 ▸ Finset.le_sup hk))

theorem exists_coe_of_ne {x : EReal} (h1 : x ≠ ⊤) (h2 : x ≠ ⊥) : ∃ r : ℝ, x = (r : EReal) :=
  ⟨x.toReal, (EReal.coe_toReal h1 h2).symm⟩
end Sup

/-! ## The eight blocks of 512 keys -/

/-- Block `j`: the keys `j · 512 … j · 512 + 511`. -/
def blk (j : ℕ) : Finset (Fin 4096) := Finset.univ.filter fun m => m.val / 512 = j

theorem blk_eq_image (j : ℕ) (h : j < 8) : blk j = Finset.univ.image (keyOf ⟨j, h⟩) := by
  ext m
  simp only [blk, Finset.mem_filter, Finset.mem_univ, true_and, Finset.mem_image]
  constructor
  · intro hm
    refine ⟨⟨m.val % 512, Nat.mod_lt _ (by norm_num)⟩, Fin.ext ?_⟩
    simp only [keyOf]
    omega
  · rintro ⟨x, rfl⟩
    simp only [keyOf]
    omega

theorem keyOf_injective (j : Fin 8) : Function.Injective (keyOf j) := by
  intro a b h
  have h' := congrArg Fin.val h
  simp only [keyOf] at h'
  exact Fin.ext (by omega)

theorem blk_disjoint (i j : ℕ) (h : i ≠ j) : Disjoint (blk i) (blk j) := by
  rw [Finset.disjoint_left]
  intro m hi hj
  simp only [blk, Finset.mem_filter, Finset.mem_univ, true_and] at hi hj
  exact h (hi.symm.trans hj)

theorem biUnion_blk : (Finset.range 8).biUnion blk = Finset.univ := by
  ext m
  simp only [Finset.mem_biUnion, Finset.mem_range, blk, Finset.mem_filter, Finset.mem_univ, true_and, iff_true]
  exact ⟨m.val / 512, by omega, rfl⟩

theorem blk_nonempty (j : ℕ) (h : j < 8) : keyOf ⟨j, h⟩ ⟨0, by norm_num⟩ ∈ blk j := by
  rw [blk_eq_image j h]
  exact Finset.mem_image_of_mem _ (Finset.mem_univ _)

/-- A sum over the 512 places of block `j` is the sum over the block's keys. -/
theorem sum_blk (j : ℕ) (h : j < 8) (f : Fin 4096 → EReal) :
    ∑ x : Fin 512, f (keyOf ⟨j, h⟩ x) = ∑ m ∈ blk j, f m := by
  rw [blk_eq_image j h, Finset.sum_image fun a _ b _ hab => keyOf_injective _ hab]

/-! ## The streamed form holds the softmax sums of the keys seen so far -/

section Stream
variable {q k v : Fin 4096 → Fin 64 → EReal}

/-- The largest score of block `j` is the supremum of the unblocked scores over the block's keys. -/
theorem blockMax_eq (hq : ∀ n d, ∃ r : ℝ, q n d = (r : EReal)) (hk : ∀ n d, ∃ r : ℝ, k n d = (r : EReal))
    (n : Fin 4096) (j : ℕ) (h : j < 8) : blockMax q k n ⟨j, h⟩ = (blk j).sup (scoreU q k n) := by
  unfold blockMax
  rw [wNegInf_eq, LibOnlineSoftmax.fold_max_bot, blk_eq_image j h, Finset.sup_image]
  exact Finset.sup_congr rfl fun x _ => scoreS_eq_scoreU hq hk n _

/-- The row maximum of the unblocked form is the supremum of the scores over all keys. -/
theorem rowMaxU_eq (n : Fin 4096) : rowMaxU q k n = Finset.univ.sup (scoreU q k n) := by
  unfold rowMaxU
  rw [wNegInf_eq, LibOnlineSoftmax.fold_max_bot]

theorem runMax_succ (n : Fin 4096) (j : ℕ) (h : j < 8) :
    runMax q k n (j + 1) = max (runMax q k n j) (blockMax q k n ⟨j, h⟩) := by
  rw [runMax, dif_pos h]

theorem runDen_succ (n : Fin 4096) (j : ℕ) (h : j < 8) :
    runDen q k n (j + 1) = Ideal.exp (runMax q k n j - runMax q k n (j + 1)) * runDen q k n j
        + ∑ x : Fin 512, Ideal.exp (scoreS q k n (keyOf ⟨j, h⟩ x) - runMax q k n (j + 1)) := by
  rw [runDen, dif_pos h]

theorem runNum_succ (n : Fin 4096) (d : Fin 64) (j : ℕ) (h : j < 8) :
    runNum q k v n d (j + 1) = Ideal.exp (runMax q k n j - runMax q k n (j + 1)) * runNum q k v n d j
        + ∑ x : Fin 512, Ideal.exp (scoreS q k n (keyOf ⟨j, h⟩ x) - runMax q k n (j + 1)) * v (keyOf ⟨j, h⟩ x) d := by
  rw [runNum, dif_pos h]
end Stream

section Main
variable {q k v : Fin 4096 → Fin 64 → EReal}

/-- After the first `j` blocks the running maximum, denominator and numerator are the softmax sums of the keys seen. -/
theorem stream_inv (hq : ∀ n d, ∃ r : ℝ, q n d = (r : EReal)) (hk : ∀ n d, ∃ r : ℝ, k n d = (r : EReal))
    (n : Fin 4096) (d : Fin 64) {vr : Fin 4096 → ℝ} (hv : ∀ m, v m d = (vr m : EReal)) :
    ∀ j, j ≤ 8 → LibOnlineSoftmax.Inv (scoreU q k n) vr ((Finset.range j).biUnion blk)
      (runMax q k n j) (runDen q k n j) (runNum q k v n d j) := by
  have hs : ∀ m, scoreU q k n m ≠ ⊤ := fun m => by
    obtain ⟨r, hr⟩ := scoreU_real hq hk n m
    rw [hr]; exact EReal.coe_ne_top r
  have hsb : ∀ m, scoreU q k n m ≠ ⊥ := fun m => by
    obtain ⟨r, hr⟩ := scoreU_real hq hk n m
    rw [hr]; exact EReal.coe_ne_bot r
  intro j
  induction j with
  | zero =>
    intro _
    rw [Finset.range_zero, Finset.biUnion_empty]
    have h0 : runMax q k n 0 = ⊥ := wNegInf_eq
    have h1 : runDen q k n 0 = 0 := rfl
    have h2 : runNum q k v n d 0 = 0 := rfl
    rw [h0, h1, h2]
    exact LibOnlineSoftmax.Inv.init _ _
  | succ j ih =>
    intro hj
    have h : j < 8 := by omega
    have ih' := ih (by omega)
    have e1 : runMax q k n (j + 1) = max (runMax q k n j) ((blk j).sup (scoreU q k n)) := by
      rw [runMax_succ n j h, blockMax_eq hq hk n j h]
    have e2 : runDen q k n (j + 1) = Ideal.exp (runMax q k n j - runMax q k n (j + 1)) * runDen q k n j
        + ∑ m ∈ blk j, Ideal.exp (scoreU q k n m - runMax q k n (j + 1)) := by
      rw [runDen_succ n j h, ← sum_blk j h fun m => Ideal.exp (scoreU q k n m - runMax q k n (j + 1))]
      congr 1
      exact Finset.sum_congr rfl fun x _ => by rw [scoreS_eq_scoreU hq hk]
    have e3 : runNum q k v n d (j + 1) = Ideal.exp (runMax q k n j - runMax q k n (j + 1)) * runNum q k v n d j
        + ∑ m ∈ blk j, Ideal.exp (scoreU q k n m - runMax q k n (j + 1)) * (vr m : EReal) := by
      rw [runNum_succ n d j h,
        ← sum_blk j h fun m => Ideal.exp (scoreU q k n m - runMax q k n (j + 1)) * (vr m : EReal)]
      congr 1
      exact Finset.sum_congr rfl fun x _ => by rw [scoreS_eq_scoreU hq hk, hv]
    have hm1 : runMax q k n j ≠ ⊤ := by rw [ih'.max_eq]; exact sup_ne_top hs _
    have hB1 : (blk j).sup (scoreU q k n) ≠ ⊤ := sup_ne_top hs _
    have hB2 : (blk j).sup (scoreU q k n) ≠ ⊥ := sup_ne_bot (blk_nonempty j h) (hsb _)
    obtain ⟨M', hM'⟩ : ∃ M' : ℝ, max (runMax q k n j) ((blk j).sup (scoreU q k n)) = (M' : EReal) := by
      refine exists_coe_of_ne ?_ ?_
      · rcases max_choice (runMax q k n j) ((blk j).sup (scoreU q k n)) with e | e <;> rw [e] <;> assumption
      · exact fun e => hB2 (le_bot_iff.1 (e ▸ le_max_right _ _))
    have hdis : Disjoint ((Finset.range j).biUnion blk) (blk j) :=
      (Finset.disjoint_biUnion_left _ _ _).2 fun i hi => blk_disjoint i j (Finset.mem_range.1 hi).ne
    have hstep := ih'.step hs hdis hM'
    rw [Finset.range_add_one, Finset.biUnion_insert, Finset.union_comm, e2, e3, e1]
    exact hstep

/-- STREAMED = UNBLOCKED: for real-valued queries, keys and values the two forms of the attention agree. -/
theorem attnS_eq_attnU (hq : ∀ n d, ∃ r : ℝ, q n d = (r : EReal)) (hk : ∀ n d, ∃ r : ℝ, k n d = (r : EReal))
    (hv : ∀ n d, ∃ r : ℝ, v n d = (r : EReal)) (n : Fin 4096) (d : Fin 64) :
    attnS q k v n d = attnU q k v n d := by
  choose vr hvr using hv
  have hs : ∀ m, scoreU q k n m ≠ ⊤ := fun m => by
    obtain ⟨r, hr⟩ := scoreU_real hq hk n m
    rw [hr]; exact EReal.coe_ne_top r
  have hsb : ∀ m, scoreU q k n m ≠ ⊥ := fun m => by
    obtain ⟨r, hr⟩ := scoreU_real hq hk n m
    rw [hr]; exact EReal.coe_ne_bot r
  have hinv := stream_inv hq hk n d (vr := fun m => vr m d) (fun m => hvr m d) 8 le_rfl
  rw [biUnion_blk] at hinv
  have hmax : runMax q k n 8 = Finset.univ.sup (scoreU q k n) := hinv.max_eq
  obtain ⟨M, hM⟩ : ∃ M : ℝ, runMax q k n 8 = (M : EReal) := by
    rw [hmax]
    exact exists_coe_of_ne (sup_ne_top hs _) (sup_ne_bot (Finset.mem_univ (⟨0, by norm_num⟩ : Fin 4096)) (hsb _))
  unfold attnS attnU weightU
  rw [hinv.div_eq hs hM, rowMaxU_eq, ← hmax]
  exact Finset.sum_congr rfl fun m _ => by rw [hvr]
end Main

/-! ## Finiteness through the normalisation -/

section Norm

/-- A finite sum of products of real numbers is a real number. -/
theorem sum_mul_real {N : ℕ} {f g : Fin N → EReal} (hf : ∀ i, ∃ r : ℝ, f i = (r : EReal))
    (hg : ∀ i, ∃ r : ℝ, g i = (r : EReal)) : ∃ r : ℝ, ∑ i, f i * g i = (r : EReal) := by
  choose fr hfr using hf
  choose gr hgr using hg
  refine ⟨∑ i, fr i * gr i, ?_⟩
  rw [LibOnlineSoftmax.coe_sum]
  exact Finset.sum_congr rfl fun i _ => by rw [hfr, hgr, EReal.coe_mul]

/-- A finite sum of real numbers is a real number. -/
theorem sum_real {N : ℕ} {f : Fin N → EReal} (hf : ∀ i, ∃ r : ℝ, f i = (r : EReal)) :
    ∃ r : ℝ, ∑ i, f i = (r : EReal) := by
  choose fr hfr using hf
  refine ⟨∑ i, fr i, ?_⟩
  rw [LibOnlineSoftmax.coe_sum]
  exact Finset.sum_congr rfl fun i _ => hfr i

variable {x : Fin 1024 → Fin 1024 → EReal} {pw : Fin 768 → Fin 256 → EReal} {pb g b : Fin 768 → EReal}
  {qw : Fin 2304 → Fin 768 → EReal}

theorem tok_real (hx : ∀ i j, ∃ r : ℝ, x i j = (r : EReal)) (hpw : ∀ e p, ∃ r : ℝ, pw e p = (r : EReal))
    (hpb : ∀ e, ∃ r : ℝ, pb e = (r : EReal)) (n : Fin 4096) (e : Fin 768) :
    ∃ r : ℝ, tok x pw pb n e = (r : EReal) := by
  obtain ⟨s, hs⟩ := sum_mul_real (f := fun p => patch x n p) (g := fun p => pw e p) (fun p => hx _ _) (fun p => hpw e p)
  obtain ⟨t, ht⟩ := hpb e
  exact ⟨s + t, by unfold tok; rw [hs, ht, EReal.coe_add]⟩

theorem mean_real (hx : ∀ i j, ∃ r : ℝ, x i j = (r : EReal)) (hpw : ∀ e p, ∃ r : ℝ, pw e p = (r : EReal))
    (hpb : ∀ e, ∃ r : ℝ, pb e = (r : EReal)) (n : Fin 4096) : ∃ r : ℝ, mean x pw pb n = (r : EReal) := by
  obtain ⟨s, hs⟩ := sum_real (f := fun e => tok x pw pb n e) (fun e => tok_real hx hpw hpb n e)
  refine ⟨s * (1 / 768), ?_⟩
  unfold mean
  rw [w768_eq, Ideal.div_coe (by norm_num : (768 : ℝ) ≠ 0), hs, EReal.coe_mul]

theorem cen_real (hx : ∀ i j, ∃ r : ℝ, x i j = (r : EReal)) (hpw : ∀ e p, ∃ r : ℝ, pw e p = (r : EReal))
    (hpb : ∀ e, ∃ r : ℝ, pb e = (r : EReal)) (n : Fin 4096) (e : Fin 768) :
    ∃ r : ℝ, cen x pw pb n e = (r : EReal) := by
  obtain ⟨s, hs⟩ := tok_real hx hpw hpb n e
  obtain ⟨t, ht⟩ := mean_real hx hpw hpb n
  exact ⟨s - t, by unfold cen; rw [hs, ht, EReal.coe_sub]⟩

/-- The variance is a real number that is not negative: a sum of squares times `1/768`. -/
theorem var_real (hx : ∀ i j, ∃ r : ℝ, x i j = (r : EReal)) (hpw : ∀ e p, ∃ r : ℝ, pw e p = (r : EReal))
    (hpb : ∀ e, ∃ r : ℝ, pb e = (r : EReal)) (n : Fin 4096) :
    ∃ r : ℝ, 0 ≤ r ∧ var x pw pb n = (r : EReal) := by
  choose cr hcr using fun e => cen_real hx hpw hpb n e
  refine ⟨(∑ e, cr e * cr e) * (1 / 768), mul_nonneg (Finset.sum_nonneg fun e _ => mul_self_nonneg _) (by norm_num), ?_⟩
  unfold var
  rw [w768_eq, Ideal.div_coe (by norm_num : (768 : ℝ) ≠ 0), EReal.coe_mul, LibOnlineSoftmax.coe_sum]
  congr 1
  exact Finset.sum_congr rfl fun e _ => by rw [hcr, EReal.coe_mul]

theorem lnorm_real (hx : ∀ i j, ∃ r : ℝ, x i j = (r : EReal)) (hpw : ∀ e p, ∃ r : ℝ, pw e p = (r : EReal))
    (hpb : ∀ e, ∃ r : ℝ, pb e = (r : EReal)) (hg : ∀ e, ∃ r : ℝ, g e = (r : EReal))
    (hb : ∀ e, ∃ r : ℝ, b e = (r : EReal)) (n : Fin 4096) (e : Fin 768) :
    ∃ r : ℝ, lnorm x pw pb g b n e = (r : EReal) := by
  obtain ⟨c, hc⟩ := cen_real hx hpw hpb n e
  obtain ⟨w, hw0, hw⟩ := var_real hx hpw hpb n
  obtain ⟨ε, hε, he⟩ := wEps_pos
  obtain ⟨gg, hgg⟩ := hg e
  obtain ⟨bb, hbb⟩ := hb e
  have hpos : 0 < w + ε := add_pos_of_nonneg_of_pos hw0 hε
  refine ⟨c * (Real.sqrt (w + ε))⁻¹ * gg + bb, ?_⟩
  unfold lnorm
  rw [hc, hw, he, hgg, hbb, ← EReal.coe_add, Ideal.rsqrt_coe, if_neg (not_lt.2 hpos.le), if_neg hpos.ne',
    EReal.coe_add, EReal.coe_mul, EReal.coe_mul]

theorem qkv_real (hx : ∀ i j, ∃ r : ℝ, x i j = (r : EReal)) (hpw : ∀ e p, ∃ r : ℝ, pw e p = (r : EReal))
    (hpb : ∀ e, ∃ r : ℝ, pb e = (r : EReal)) (hg : ∀ e, ∃ r : ℝ, g e = (r : EReal))
    (hb : ∀ e, ∃ r : ℝ, b e = (r : EReal)) (hqw : ∀ j e, ∃ r : ℝ, qw j e = (r : EReal))
    (n : Fin 4096) (j : Fin 2304) : ∃ r : ℝ, qkv x pw pb g b qw n j = (r : EReal) :=
  sum_mul_real (f := fun e => lnorm x pw pb g b n e) (g := fun e => qw j e)
    (fun e => lnorm_real hx hpw hpb hg hb n e) (fun e => hqw j e)

theorem qh_real (hx : ∀ i j, ∃ r : ℝ, x i j = (r : EReal)) (hpw : ∀ e p, ∃ r : ℝ, pw e p = (r : EReal))
    (hpb : ∀ e, ∃ r : ℝ, pb e = (r : EReal)) (hg : ∀ e, ∃ r : ℝ, g e = (r : EReal))
    (hb : ∀ e, ∃ r : ℝ, b e = (r : EReal)) (hqw : ∀ j e, ∃ r : ℝ, qw j e = (r : EReal))
    (h : Fin 12) (n : Fin 4096) (d : Fin 64) : ∃ r : ℝ, qh x pw pb g b qw h n d = (r : EReal) :=
  qkv_real hx hpw hpb hg hb hqw n _

theorem kh_real (hx : ∀ i j, ∃ r : ℝ, x i j = (r : EReal)) (hpw : ∀ e p, ∃ r : ℝ, pw e p = (r : EReal))
    (hpb : ∀ e, ∃ r : ℝ, pb e = (r : EReal)) (hg : ∀ e, ∃ r : ℝ, g e = (r : EReal))
    (hb : ∀ e, ∃ r : ℝ, b e = (r : EReal)) (hqw : ∀ j e, ∃ r : ℝ, qw j e = (r : EReal))
    (h : Fin 12) (n : Fin 4096) (d : Fin 64) : ∃ r : ℝ, kh x pw pb g b qw h n d = (r : EReal) :=
  qkv_real hx hpw hpb hg hb hqw n _

theorem vh_real (hx : ∀ i j, ∃ r : ℝ, x i j = (r : EReal)) (hpw : ∀ e p, ∃ r : ℝ, pw e p = (r : EReal))
    (hpb : ∀ e, ∃ r : ℝ, pb e = (r : EReal)) (hg : ∀ e, ∃ r : ℝ, g e = (r : EReal))
    (hb : ∀ e, ∃ r : ℝ, b e = (r : EReal)) (hqw : ∀ j e, ∃ r : ℝ, qw j e = (r : EReal))
    (h : Fin 12) (n : Fin 4096) (d : Fin 64) : ∃ r : ℝ, vh x pw pb g b qw h n d = (r : EReal) :=
  qkv_real hx hpw hpb hg hb hqw n _

/-- For real-valued arguments the streamed result is the unblocked result. -/
theorem result_eq (hx : ∀ i j, ∃ r : ℝ, x i j = (r : EReal)) (hpw : ∀ e p, ∃ r : ℝ, pw e p = (r : EReal))
    (hpb : ∀ e, ∃ r : ℝ, pb e = (r : EReal)) (hg : ∀ e, ∃ r : ℝ, g e = (r : EReal))
    (hb : ∀ e, ∃ r : ℝ, b e = (r : EReal)) (hqw : ∀ j e, ∃ r : ℝ, qw j e = (r : EReal))
    (n : Fin 4096) (c : Fin 768) : resultS x pw pb g b qw n c = resultU x pw pb g b qw n c := by
  unfold resultS resultU
  exact attnS_eq_attnU (qh_real hx hpw hpb hg hb hqw _) (kh_real hx hpw hpb hg hb hqw _)
    (vh_real hx hpw hpb hg hb hqw _) n _
end Norm

end Cert.Math

end
-- ==== Proof.KernelEnds.lean ====
/-
  The two ends of the kernel-side chain at the extended reals.

  THE HEADS: the attention launch is entered from the first launch's array of projected features with its 2304 columns
  read as (part, head, lane) and the part and head axes moved in front of the tokens; entry (s, h, n, d) of that array
  is feature `s·768 + h·64 + d` of token `n`. So the queries, keys and values of head `h` the attention launch stages
  are the specification's.

  THE MERGE: the program's result is the attention launch's array of heads with the head axis moved behind the tokens and
  merged with the lanes, under a leading axis of extent one; feature `c` of token `n` is lane `c % 64` of head `c / 64`.
-/
import proofs.«139566_j53790170415805_2_alg».proof.Proof.Frames0
import proofs.«139566_j53790170415805_2_alg».proof.Proof.Region0Value
import proofs.«139566_j53790170415805_2_alg».proof.Proof.Spec
import Idealize.ShloMosaic.Lib.Pipeline.Value
import Idealize.ShloMosaic.Lib.ValueIdx
import Idealize.ShloMosaic.Lib.ValueLayout

noncomputable section

namespace Cert.KernelIdeal.HandEnds

open Cert.KernelIdeal Cert.KernelIdeal.Gen Cert.KernelIdeal.Hand0 Cert.KernelIdeal.Hand0V
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-! ## The heads -/

/-- What the attention launch is entered with in its operand array: the first launch's result reshaped to
    (4096, 3, 12, 64) and its axes permuted to (3, 12, 4096, 64). -/
theorem Vin1_v10 (c : Dev nD) : @Eq (S3x12x4096x64.Idx → EReal) (HandFrame.Vin1 (F := Ideal) m c main_v10)
    (transpose S3x12x4096x64 [1, 2, 0, 3]
      (shapeCast S4096x3x12x64 (HandFrame.X0 (F := Ideal) m c : FVec Ideal S4096x2304 .bf16) shapeCasts_S4096x2304_S4096x3x12x64)
      transposes_S4096x3x12x64_S3x12x4096x64_1_2_0_3) := by
  show StableHlo.after hostOps1 (HandFrame.W2 (F := Ideal) m c) (Proc.devRef .tc main_v10) = _
  after_results
  unfold HandFrame.W2
  rw [Function.update_self]
  rfl

/-- THE HEADS, entry by entry: part `s`, head `h`, token `n`, lane `d` is feature `s·768 + h·64 + d` of token `n`. -/
theorem heads_at (c : Dev nD) (s : Fin 3) (h : Fin 12) (n : Fin 4096) (d : Fin 64) :
    (HandFrame.Vin1 (F := Ideal) m c main_v10 : S3x12x4096x64.Idx → EReal) (ix4 s h n d)
      = Spec.qkv (aX m c) (aPW m c) (aPB m c) (aG m c) (aB m c) (aQW m c) n (Spec.feat s h d) := by
  have hs := s.isLt
  have hh := h.isLt
  have hn := n.isLt
  have hd := d.isLt
  rw [Vin1_v10]
  refine (transpose_apply [1, 2, 0, 3] _ transposes_S4096x3x12x64_S3x12x4096x64_1_2_0_3 (ix4 s h n d) (ix4 n s h d)
    (fun a => match a with
      | ⟨0, _⟩ => rfl
      | ⟨1, _⟩ => rfl
      | ⟨2, _⟩ => rfl
      | ⟨3, _⟩ => rfl)).trans ?_
  refine (shapeCast_apply _ shapeCasts_S4096x2304_S4096x3x12x64 (ix4 n s h d) (ix2 n (Spec.feat s h d)) ?_).trans ?_
  · rw [Shape.rowMajor_val_two, Shape.rowMajor_val_four]
    show n.val * 2304 + (s.val * 768 + h.val * 64 + d.val) = ((n.val * 3 + s.val) * 12 + h.val) * 64 + d.val
    omega
  exact qkv_at m c n (Spec.feat s h d)

/-- So the queries, the keys and the values of head `h` that the attention launch finds are the specification's. -/
theorem queries_eq (c : Dev nD) (h : Fin 12) :
    (fun (n : Fin 4096) (d : Fin 64) => (HandFrame.Vin1 (F := Ideal) m c main_v10 : S3x12x4096x64.Idx → EReal) (ix4 (0 : Fin 3) h n d))
      = Spec.qh (aX m c) (aPW m c) (aPB m c) (aG m c) (aB m c) (aQW m c) h :=
  funext fun n => funext fun d => heads_at m c 0 h n d
theorem keys_eq (c : Dev nD) (h : Fin 12) :
    (fun (n : Fin 4096) (d : Fin 64) => (HandFrame.Vin1 (F := Ideal) m c main_v10 : S3x12x4096x64.Idx → EReal) (ix4 (1 : Fin 3) h n d))
      = Spec.kh (aX m c) (aPW m c) (aPB m c) (aG m c) (aB m c) (aQW m c) h :=
  funext fun n => funext fun d => heads_at m c 1 h n d
theorem values_eq (c : Dev nD) (h : Fin 12) :
    (fun (n : Fin 4096) (d : Fin 64) => (HandFrame.Vin1 (F := Ideal) m c main_v10 : S3x12x4096x64.Idx → EReal) (ix4 (2 : Fin 3) h n d))
      = Spec.vh (aX m c) (aPW m c) (aPB m c) (aG m c) (aB m c) (aQW m c) h :=
  funext fun n => funext fun d => heads_at m c 2 h n d

/-! ## The merge -/

/-- The program's result array: the attention launch's result with its head axis moved behind the tokens, merged with
    the lanes, under a leading axis of extent one. -/
theorem V5_v14 (c : Dev nD) : @Eq (S1x4096x768.Idx → EReal) (Gen.V5 (F := Ideal) m (HandFrame.outs m) c main_v14)
    (broadcastInDim S1x4096x768 ![1, 2] bcast_S4096x768_S1x4096x768_1_2
      (shapeCast S4096x768 (transpose S4096x12x64 [1, 0, 2] (HandFrame.X1 (F := Ideal) m c : FVec Ideal S12x4096x64 .f32)
        transposes_S12x4096x64_S4096x12x64_1_0_2) shapeCasts_S4096x12x64_S4096x768)) := by
  show StableHlo.after hostOps2 (Gen.V4 m (HandFrame.outs m) c) (Proc.devRef .tc main_v14) = _
  rw [HandFrame.V4_eq]
  after_results
  rw [Function.update_self]
  rfl

/-- THE MERGE, entry by entry: feature `cc` of token `n` of the result is lane `cc % 64` of head `cc / 64` at token `n`. -/
theorem merge_at (c : Dev nD) (z : Fin 1) (n : Fin 4096) (cc : Fin 768) :
    (Gen.V5 (F := Ideal) m (HandFrame.outs m) c main_v14 : S1x4096x768.Idx → EReal) (ix3 z n cc)
      = (HandFrame.X1 (F := Ideal) m c : S12x4096x64.Idx → EReal)
          (ix3 (⟨cc.val / 64, by have := cc.isLt; omega⟩ : Fin 12) n (⟨cc.val % 64, by omega⟩ : Fin 64)) := by
  have hcc := cc.isLt
  have hn := n.isLt
  rw [V5_v14]
  refine (broadcastInDim_apply ![1, 2] bcast_S4096x768_S1x4096x768_1_2 _ (ix3 z n cc) (ix2 n cc)
    (fun a => match a with
      | ⟨0, _⟩ => rfl
      | ⟨1, _⟩ => rfl)).trans ?_
  refine (shapeCast_apply _ shapeCasts_S4096x12x64_S4096x768 (ix2 n cc)
    (ix3 n (⟨cc.val / 64, by omega⟩ : Fin 12) (⟨cc.val % 64, by omega⟩ : Fin 64)) ?_).trans ?_
  · rw [Shape.rowMajor_val_three, Shape.rowMajor_val_two]
    show (n.val * 12 + cc.val / 64) * 64 + cc.val % 64 = n.val * 768 + cc.val
    omega
  exact transpose_apply [1, 0, 2] _ transposes_S12x4096x64_S4096x12x64_1_0_2
    (ix3 n (⟨cc.val / 64, by omega⟩ : Fin 12) (⟨cc.val % 64, by omega⟩ : Fin 64))
    (ix3 (⟨cc.val / 64, by omega⟩ : Fin 12) n (⟨cc.val % 64, by omega⟩ : Fin 64))
    (fun a => match a with
      | ⟨0, _⟩ => rfl
      | ⟨1, _⟩ => rfl
      | ⟨2, _⟩ => rfl)

end Cert.KernelIdeal.HandEnds

end
-- ==== Proof.Region1Pieces.lean ====
/-
  The attention region: what each of the body's three control cases leaves in the running maximum, the running
  denominator, the running numerator and (in the last case) the output block, as a closed term in the body's arithmetic
  applied to the point's query, key and value blocks and to what the point before left.

  In every case each buffer ends holding the payload of the last store into it, and every store covers its whole
  buffer, so the read-back is that payload. In the first case the three scratch buffers are first overwritten with the
  start state (−∞, 0, 0) and loaded back, so the accumulation starts from those values whatever the buffers held; in
  the last case the numerator and denominator just stored are loaded back and divided, so the output block is the
  quotient of the NEW numerator by the NEW denominator.
-/
import proofs.«139566_j53790170415805_2_alg».proof.Proof.Region1Data
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Zero offsets -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The first case, on any whole memrefs -/

/-- The maximum after a first key block: the block's row maxima against the start value. -/
theorem first_max (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : condFirst i) (hcL : ¬condLast i) (xq : Vec F S1x1x1024x64 .bf16) (xk : Vec F S1x1x512x64 .bf16) (xv : Vec F S1x1x512x64 .bf16) :
    View.canon (runFirst c i argQ hQ argK hK argV hV argO hO arg7 h7 arg8 h8 arg9 h9 hcF hcL xq xk xv).1 = k1_pay3 (k1_pay10 xq xk k1_pay5) := by
  unfold runFirst
  dsimp only
  sl_unfold_words
  rw [View.canon_cons_unit_zero (S := S1024x1) hz2, View.readCov_unit_zero (S := S1024x1) _ hz2]
  simp only [View.readAt_eq_ld, hQ.read_unread, hK.read_unread, View.ld_unit_zero (S := S1x1x1024x64) hz4, View.ld_unit_zero (S := S1x1x512x64) hz4]

/-- The denominator after a first key block. -/
theorem first_den (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : condFirst i) (hcL : ¬condLast i) (xq : Vec F S1x1x1024x64 .bf16) (xk : Vec F S1x1x512x64 .bf16) (xv : Vec F S1x1x512x64 .bf16) :
    View.canon (runFirst c i argQ hQ argK hK argV hV argO hO arg7 h7 arg8 h8 arg9 h9 hcF hcL xq xk xv).2.1 = k1_pay1 (k1_pay13 xq xk k1_pay5 k1_pay5 k1_pay6) := by
  unfold runFirst
  dsimp only
  sl_unfold_words
  rw [View.canon_cons_unit_zero (S := S1024x1) hz2, View.readCov_unit_zero (S := S1024x1) _ hz2,
    View.readCov_unit_zero (S := S1024x1) _ hz2]
  simp only [View.readAt_eq_ld, hQ.read_unread, hK.read_unread, View.ld_unit_zero (S := S1x1x1024x64) hz4, View.ld_unit_zero (S := S1x1x512x64) hz4]

/-- The numerator after a first key block. -/
theorem first_num (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : condFirst i) (hcL : ¬condLast i) (xq : Vec F S1x1x1024x64 .bf16) (xk : Vec F S1x1x512x64 .bf16) (xv : Vec F S1x1x512x64 .bf16) :
    View.canon (runFirst c i argQ hQ argK hK argV hV argO hO arg7 h7 arg8 h8 arg9 h9 hcF hcL xq xk xv).2.2.1
      = k1_pay2 (k1_pay8 xv) (k1_pay11 xq xk k1_pay5 k1_pay5) (k1_pay12 xq xk k1_pay5) k1_pay7 := by
  unfold runFirst
  dsimp only
  sl_unfold_words
  rw [View.canon_cons_unit_zero (S := S1024x64) hz2, View.readCov_unit_zero (S := S1024x1) _ hz2,
    View.readCov_unit_zero (S := S1024x64) _ hz2]
  simp only [View.readAt_eq_ld, hQ.read_unread, hK.read_unread, hV.read_unread, View.ld_unit_zero (S := S1x1x1024x64) hz4, View.ld_unit_zero (S := S1x1x512x64) hz4]

/-! ## The middle case -/

theorem middle_max (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : ¬condLast i) (xq : Vec F S1x1x1024x64 .bf16) (xk : Vec F S1x1x512x64 .bf16) (xv : Vec F S1x1x512x64 .bf16) (xm xd : Vec F S1024x1 .f32) (xn : Vec F S1024x64 .f32) :
    View.canon (runMiddle c i argQ hQ argK hK argV hV argO hO arg7 h7 arg8 h8 arg9 h9 hcF hcL xq xk xv xm xd xn).1 = k1_pay3 (k1_pay10 xq xk xm) := by
  unfold runMiddle
  dsimp only
  rw [View.canon_unit_zero hz2]
  simp only [View.readAt_eq_ld, hQ.read_unread, hK.read_unread, h7.read_unread, h8.read_unread, View.ld_unit_zero (S := S1x1x1024x64) hz4, View.ld_unit_zero (S := S1x1x512x64) hz4, View.ld_unit_zero (S := S1024x1) hz2]

theorem middle_den (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : ¬condLast i) (xq : Vec F S1x1x1024x64 .bf16) (xk : Vec F S1x1x512x64 .bf16) (xv : Vec F S1x1x512x64 .bf16) (xm xd : Vec F S1024x1 .f32) (xn : Vec F S1024x64 .f32) :
    View.canon (runMiddle c i argQ hQ argK hK argV hV argO hO arg7 h7 arg8 h8 arg9 h9 hcF hcL xq xk xv xm xd xn).2.1 = k1_pay1 (k1_pay13 xq xk xm xm xd) := by
  unfold runMiddle
  dsimp only
  rw [View.canon_unit_zero hz2]
  simp only [View.readAt_eq_ld, hQ.read_unread, hK.read_unread, h7.read_unread, h8.read_unread, View.ld_unit_zero (S := S1x1x1024x64) hz4, View.ld_unit_zero (S := S1x1x512x64) hz4, View.ld_unit_zero (S := S1024x1) hz2]

theorem middle_num (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : ¬condLast i) (xq : Vec F S1x1x1024x64 .bf16) (xk : Vec F S1x1x512x64 .bf16) (xv : Vec F S1x1x512x64 .bf16) (xm xd : Vec F S1024x1 .f32) (xn : Vec F S1024x64 .f32) :
    View.canon (runMiddle c i argQ hQ argK hK argV hV argO hO arg7 h7 arg8 h8 arg9 h9 hcF hcL xq xk xv xm xd xn).2.2.1 = k1_pay2 (k1_pay8 xv) (k1_pay11 xq xk xm xm) (k1_pay12 xq xk xm) xn := by
  unfold runMiddle
  dsimp only
  rw [View.canon_unit_zero hz2]
  simp only [View.readAt_eq_ld, hQ.read_unread, hK.read_unread, hV.read_unread, h7.read_unread, h9.read_unread, View.ld_unit_zero (S := S1x1x1024x64) hz4, View.ld_unit_zero (S := S1x1x512x64) hz4, View.ld_unit_zero (S := S1024x1) hz2, View.ld_unit_zero (S := S1024x64) hz2]

/-! ## The last case -/

theorem last_max (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : condLast i) (xq : Vec F S1x1x1024x64 .bf16) (xk : Vec F S1x1x512x64 .bf16) (xv : Vec F S1x1x512x64 .bf16) (xm xd : Vec F S1024x1 .f32) (xn : Vec F S1024x64 .f32) :
    View.canon (runLast c i argQ hQ argK hK argV hV argO hO arg7 h7 arg8 h8 arg9 h9 hcF hcL xq xk xv xm xd xn).2.1 = k1_pay3 (k1_pay10 xq xk xm) := by
  unfold runLast
  dsimp only
  sl_unfold_words
  rw [View.canon_unit_zero hz2]
  simp only [View.readAt_eq_ld, hQ.read_unread, hK.read_unread, hV.read_unread, h7.read_unread, h8.read_unread, h9.read_unread, View.ld_unit_zero (S := S1x1x1024x64) hz4, View.ld_unit_zero (S := S1x1x512x64) hz4, View.ld_unit_zero (S := S1024x1) hz2, View.ld_unit_zero (S := S1024x64) hz2]

theorem last_den (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : condLast i) (xq : Vec F S1x1x1024x64 .bf16) (xk : Vec F S1x1x512x64 .bf16) (xv : Vec F S1x1x512x64 .bf16) (xm xd : Vec F S1024x1 .f32) (xn : Vec F S1024x64 .f32) :
    View.canon (runLast c i argQ hQ argK hK argV hV argO hO arg7 h7 arg8 h8 arg9 h9 hcF hcL xq xk xv xm xd xn).2.2.1 = k1_pay1 (k1_pay13 xq xk xm xm xd) := by
  unfold runLast
  dsimp only
  sl_unfold_words
  dsimp only
  rw [View.canon_unit_zero hz2]
  simp only [View.readAt_eq_ld, hQ.read_unread, hK.read_unread, hV.read_unread, h7.read_unread, h8.read_unread, h9.read_unread, View.ld_unit_zero (S := S1x1x1024x64) hz4, View.ld_unit_zero (S := S1x1x512x64) hz4, View.ld_unit_zero (S := S1024x1) hz2, View.ld_unit_zero (S := S1024x64) hz2]

theorem last_num (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : condLast i) (xq : Vec F S1x1x1024x64 .bf16) (xk : Vec F S1x1x512x64 .bf16) (xv : Vec F S1x1x512x64 .bf16) (xm xd : Vec F S1024x1 .f32) (xn : Vec F S1024x64 .f32) :
    View.canon (runLast c i argQ hQ argK hK argV hV argO hO arg7 h7 arg8 h8 arg9 h9 hcF hcL xq xk xv xm xd xn).2.2.2.1 = k1_pay2 (k1_pay8 xv) (k1_pay11 xq xk xm xm) (k1_pay12 xq xk xm) xn := by
  unfold runLast
  dsimp only
  sl_unfold_words
  dsimp only
  rw [View.canon_unit_zero hz2]
  simp only [View.readAt_eq_ld, hQ.read_unread, hK.read_unread, hV.read_unread, h7.read_unread, h8.read_unread, h9.read_unread, View.ld_unit_zero (S := S1x1x1024x64) hz4, View.ld_unit_zero (S := S1x1x512x64) hz4, View.ld_unit_zero (S := S1024x1) hz2, View.ld_unit_zero (S := S1024x64) hz2]

/-- The output block after the last key block: the numerator just stored over the denominator just stored. -/
theorem last_out (c : Dev nD) (i : grid1.Coords) (argQ : Memref sig .tc .vmem S1x1x1024x64 .bf16) (hQ : argQ.IsWhole) (argK : Memref sig .tc .vmem S1x1x512x64 .bf16) (hK : argK.IsWhole) (argV : Memref sig .tc .vmem S1x1x512x64 .bf16) (hV : argV.IsWhole) (argO : Memref sig .tc .vmem S1x1024x64 .f32) (hO : argO.IsWhole) (arg7 : Memref sig .tc .vmem S1024x1 .f32) (h7 : arg7.IsWhole) (arg8 : Memref sig .tc .vmem S1024x1 .f32) (h8 : arg8.IsWhole) (arg9 : Memref sig .tc .vmem S1024x64 .f32) (h9 : arg9.IsWhole) (hcF : ¬condFirst i) (hcL : condLast i) (xq : Vec F S1x1x1024x64 .bf16) (xk : Vec F S1x1x512x64 .bf16) (xv : Vec F S1x1x512x64 .bf16) (xm xd : Vec F S1024x1 .f32) (xn : Vec F S1024x64 .f32) :
    View.canon (runLast c i argQ hQ argK hK argV hV argO hO arg7 h7 arg8 h8 arg9 h9 hcF hcL xq xk xv xm xd xn).1
      = k1_pay4 (k1_pay2 (k1_pay8 xv) (k1_pay11 xq xk xm xm) (k1_pay12 xq xk xm) xn) (k1_pay1 (k1_pay13 xq xk xm xm xd)) := by
  unfold runLast
  dsimp only
  sl_unfold_words
  dsimp only
  rw [View.canon_unit_zero hz3, View.readCov_unit_zero (S := S1024x64) _ hz2, View.readCov_unit_zero (S := S1024x1) _ hz2]
  simp only [View.readAt_eq_ld, hQ.read_unread, hK.read_unread, hV.read_unread, h7.read_unread, h8.read_unread, h9.read_unread, View.ld_unit_zero (S := S1x1x1024x64) hz4, View.ld_unit_zero (S := S1x1x512x64) hz4, View.ld_unit_zero (S := S1024x1) hz2, View.ld_unit_zero (S := S1024x64) hz2]

/-! ## At a grid point

`q`, `k`, `v` are the point's query, key and value blocks; `p` is what the point before left. -/

/-- After a first key block: the maximum, -/
theorem stFirst_max (c : Dev nD) (t : Fin cfg1.N) (hF : t.val % 8 = 0) (hL : ¬t.val % 8 = 7) :
    (stFirst V c t hF hL).2.1 = k1_pay3 (k1_pay10 (iblk1 V c 0 t) (iblk1 V c 1 t) k1_pay5) := by
  unfold stFirst
  dsimp only
  rw [View.read_writes_eq_canon _ _ _ (coverFirstMax V c t hF hL)]
  exact first_max c (grid1.coords t) (msQ t) (hsQ t) (msK t) (hsK t) (msV t) (hsV t) (msO t) (hsO t) scMax (Memref.isWhole_whole _) scDen (Memref.isWhole_whole _) scNum (Memref.isWhole_whole _) ((hcondFirst t).mpr hF) (fun h => hL ((hcondLast t).mp h)) (iblk1 V c 0 t) (iblk1 V c 1 t) (iblk1 V c 2 t)
/-- the denominator, -/
theorem stFirst_den (c : Dev nD) (t : Fin cfg1.N) (hF : t.val % 8 = 0) (hL : ¬t.val % 8 = 7) :
    (stFirst V c t hF hL).2.2.1 = k1_pay1 (k1_pay13 (iblk1 V c 0 t) (iblk1 V c 1 t) k1_pay5 k1_pay5 k1_pay6) := by
  unfold stFirst
  dsimp only
  rw [View.read_writes_eq_canon _ _ _ (coverFirstDen V c t hF hL)]
  exact first_den c (grid1.coords t) (msQ t) (hsQ t) (msK t) (hsK t) (msV t) (hsV t) (msO t) (hsO t) scMax (Memref.isWhole_whole _) scDen (Memref.isWhole_whole _) scNum (Memref.isWhole_whole _) ((hcondFirst t).mpr hF) (fun h => hL ((hcondLast t).mp h)) (iblk1 V c 0 t) (iblk1 V c 1 t) (iblk1 V c 2 t)
/-- the numerator. -/
theorem stFirst_num (c : Dev nD) (t : Fin cfg1.N) (hF : t.val % 8 = 0) (hL : ¬t.val % 8 = 7) :
    (stFirst V c t hF hL).2.2.2
      = k1_pay2 (k1_pay8 (iblk1 V c 2 t)) (k1_pay11 (iblk1 V c 0 t) (iblk1 V c 1 t) k1_pay5 k1_pay5)
          (k1_pay12 (iblk1 V c 0 t) (iblk1 V c 1 t) k1_pay5) k1_pay7 := by
  unfold stFirst
  dsimp only
  rw [View.read_writes_eq_canon _ _ _ (coverFirstNum V c t hF hL)]
  exact first_num c (grid1.coords t) (msQ t) (hsQ t) (msK t) (hsK t) (msV t) (hsV t) (msO t) (hsO t) scMax (Memref.isWhole_whole _) scDen (Memref.isWhole_whole _) scNum (Memref.isWhole_whole _) ((hcondFirst t).mpr hF) (fun h => hL ((hcondLast t).mp h)) (iblk1 V c 0 t) (iblk1 V c 1 t) (iblk1 V c 2 t)

/-- After a middle key block: the maximum, -/
theorem stMiddle_max (c : Dev nD) (t : Fin cfg1.N) (hF : ¬t.val % 8 = 0) (hL : ¬t.val % 8 = 7) (p : St F) :
    (stMiddle V c t hF hL p).2.1 = k1_pay3 (k1_pay10 (iblk1 V c 0 t) (iblk1 V c 1 t) p.2.1) := by
  unfold stMiddle
  dsimp only
  rw [View.read_writes_eq_canon _ _ _ (coverMiddleMax V c t hF hL p.2.1 p.2.2.1 p.2.2.2)]
  exact middle_max c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) (fun h => hL ((hcondLast t).mp h)) (iblk1 V c 0 t) (iblk1 V c 1 t) (iblk1 V c 2 t) p.2.1 p.2.2.1 p.2.2.2
/-- the denominator, -/
theorem stMiddle_den (c : Dev nD) (t : Fin cfg1.N) (hF : ¬t.val % 8 = 0) (hL : ¬t.val % 8 = 7) (p : St F) :
    (stMiddle V c t hF hL p).2.2.1 = k1_pay1 (k1_pay13 (iblk1 V c 0 t) (iblk1 V c 1 t) p.2.1 p.2.1 p.2.2.1) := by
  unfold stMiddle
  dsimp only
  rw [View.read_writes_eq_canon _ _ _ (coverMiddleDen V c t hF hL p.2.1 p.2.2.1 p.2.2.2)]
  exact middle_den c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) (fun h => hL ((hcondLast t).mp h)) (iblk1 V c 0 t) (iblk1 V c 1 t) (iblk1 V c 2 t) p.2.1 p.2.2.1 p.2.2.2
/-- the numerator. -/
theorem stMiddle_num (c : Dev nD) (t : Fin cfg1.N) (hF : ¬t.val % 8 = 0) (hL : ¬t.val % 8 = 7) (p : St F) :
    (stMiddle V c t hF hL p).2.2.2
      = k1_pay2 (k1_pay8 (iblk1 V c 2 t)) (k1_pay11 (iblk1 V c 0 t) (iblk1 V c 1 t) p.2.1 p.2.1)
          (k1_pay12 (iblk1 V c 0 t) (iblk1 V c 1 t) p.2.1) p.2.2.2 := by
  unfold stMiddle
  dsimp only
  rw [View.read_writes_eq_canon _ _ _ (coverMiddleNum V c t hF hL p.2.1 p.2.2.1 p.2.2.2)]
  exact middle_num c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) (fun h => hL ((hcondLast t).mp h)) (iblk1 V c 0 t) (iblk1 V c 1 t) (iblk1 V c 2 t) p.2.1 p.2.2.1 p.2.2.2

/-- After the last key block: the maximum, -/
theorem stLast_max (c : Dev nD) (t : Fin cfg1.N) (hF : ¬t.val % 8 = 0) (hL : t.val % 8 = 7) (p : St F) :
    (stLast V c t hF hL p).2.1 = k1_pay3 (k1_pay10 (iblk1 V c 0 t) (iblk1 V c 1 t) p.2.1) := by
  unfold stLast
  dsimp only
  rw [View.read_writes_eq_canon _ _ _ (coverLastMax V c t hF hL p.2.1 p.2.2.1 p.2.2.2)]
  exact last_max c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) ((hcondLast t).mpr hL) (iblk1 V c 0 t) (iblk1 V c 1 t) (iblk1 V c 2 t) p.2.1 p.2.2.1 p.2.2.2
/-- the denominator, -/
theorem stLast_den (c : Dev nD) (t : Fin cfg1.N) (hF : ¬t.val % 8 = 0) (hL : t.val % 8 = 7) (p : St F) :
    (stLast V c t hF hL p).2.2.1 = k1_pay1 (k1_pay13 (iblk1 V c 0 t) (iblk1 V c 1 t) p.2.1 p.2.1 p.2.2.1) := by
  unfold stLast
  dsimp only
  rw [View.read_writes_eq_canon _ _ _ (coverLastDen V c t hF hL p.2.1 p.2.2.1 p.2.2.2)]
  exact last_den c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) ((hcondLast t).mpr hL) (iblk1 V c 0 t) (iblk1 V c 1 t) (iblk1 V c 2 t) p.2.1 p.2.2.1 p.2.2.2
/-- the numerator, -/
theorem stLast_num (c : Dev nD) (t : Fin cfg1.N) (hF : ¬t.val % 8 = 0) (hL : t.val % 8 = 7) (p : St F) :
    (stLast V c t hF hL p).2.2.2
      = k1_pay2 (k1_pay8 (iblk1 V c 2 t)) (k1_pay11 (iblk1 V c 0 t) (iblk1 V c 1 t) p.2.1 p.2.1)
          (k1_pay12 (iblk1 V c 0 t) (iblk1 V c 1 t) p.2.1) p.2.2.2 := by
  unfold stLast
  dsimp only
  rw [View.read_writes_eq_canon _ _ _ (coverLastNum V c t hF hL p.2.1 p.2.2.1 p.2.2.2)]
  exact last_num c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) ((hcondLast t).mpr hL) (iblk1 V c 0 t) (iblk1 V c 1 t) (iblk1 V c 2 t) p.2.1 p.2.2.1 p.2.2.2
/-- and the output block, in the blocks and the state before, -/
theorem stLast_out_blocks (c : Dev nD) (t : Fin cfg1.N) (hF : ¬t.val % 8 = 0) (hL : t.val % 8 = 7) (p : St F) :
    (stLast V c t hF hL p).1
      = k1_pay4 (k1_pay2 (k1_pay8 (iblk1 V c 2 t)) (k1_pay11 (iblk1 V c 0 t) (iblk1 V c 1 t) p.2.1 p.2.1)
            (k1_pay12 (iblk1 V c 0 t) (iblk1 V c 1 t) p.2.1) p.2.2.2)
          (k1_pay1 (k1_pay13 (iblk1 V c 0 t) (iblk1 V c 1 t) p.2.1 p.2.1 p.2.2.1)) := by
  unfold stLast
  dsimp only
  rw [View.read_writes_eq_canon _ _ _ (coverLastOut V c t hF hL p.2.1 p.2.2.1 p.2.2.2)]
  exact last_out c (grid1.coords t) (msQ t) (hsQ t) (msK t) (hsK t) (msV t) (hsV t) (msO t) (hsO t) scMax (Memref.isWhole_whole _) scDen (Memref.isWhole_whole _) scNum (Memref.isWhole_whole _) (fun h => hF ((hcondFirst t).mp h)) ((hcondLast t).mpr hL) (iblk1 V c 0 t) (iblk1 V c 1 t) (iblk1 V c 2 t) p.2.1 p.2.2.1 p.2.2.2
/-- which is the new numerator over the new denominator. -/
theorem stLast_out (c : Dev nD) (t : Fin cfg1.N) (hF : ¬t.val % 8 = 0) (hL : t.val % 8 = 7) (p : St F) :
    (stLast V c t hF hL p).1 = k1_pay4 (stLast V c t hF hL p).2.2.2 (stLast V c t hF hL p).2.2.1 := by
  rw [stLast_num, stLast_den]
  exact stLast_out_blocks V c t hF hL p

/-! ## The two stores that only re-view their value -/

theorem pay1_id (w : FVec F S1024x1 .f32) : k1_pay1 (F := F) w = w := by
  unfold k1_pay1
  exact shapeCast_self w _
theorem pay3_id (w : FVec F S1024x1 .f32) : k1_pay3 (F := F) w = w := by
  unfold k1_pay3
  exact shapeCast_self w _

end Cert.KernelIdeal.Hand1

end
-- ==== Proof.AttnPayloads.lean ====
/-
  The attention kernel's arithmetic, read one element at a time over the extended reals.

  One step of the streamed soft-max takes a block of 1024 query rows (64 lanes each) and a block of 512 keys and 512
  values, and the running state: a maximum and a denominator per row and a numerator per row and lane. Each value the
  step computes is stated here at one index as a formula in the elements of what was loaded: the scores are the dot
  products of the scaled query rows with the key rows; the new maximum is the old one against the largest score of the
  row; the old state is rescaled by the exponential of (old maximum - new maximum); each score's weight is the
  exponential of (score - new maximum); the denominator gains the row's weights, the numerator the weighted value
  rows; the last step divides numerator by denominator. The layout operations between them (dropping or adding unit
  axes, a transpose, spreading a column over a row) only rename indices.
-/
import proofs.«139566_j53790170415805_2_alg».proof.Proof.Gen.KernelIdeal.Skeleton
import proofs.«139566_j53790170415805_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandPay

open Cert.KernelIdeal Cert.KernelIdeal.Gen
open Idealize.ShloMosaic Idealize.ShloMosaic.ValueIdx
open scoped BigOperators

/-! ## Layout operations at an index -/

/-- A `[1, 1, a, b]` array viewed as `[a, b]` reads, at `(i, j)`, the operand at `(0, 0, i, j)`: the row-major
    positions agree. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array viewed as the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Reducing `[1024, 512]` along its second axis: the source index over row `r` with coordinate `x` inserted is `(r, x)`. -/
theorem lift_row (h : S1024x512.Reduces [1] S1024) (r : Fin 1024) (x : Fin 512) : h.lift (ix1 r) x = ix2 r x :=
  funext fun c => Fin.ext (match c with | ⟨0, _⟩ => rfl | ⟨1, _⟩ => rfl)

/-! ## The scores -/

/-- The score matmul's left operand index at output `i` keeps `i`'s row on its first axis … -/
theorem lhs9_0 (i : S1024x512.Idx) (q : dot_S1024x64_S64x512_S1024x512_1_0_0_1_n_n.contr.Idx) :
    (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide),
    dif_pos (show (0 : Fin S1024x64.rank) ∈ dot_S1024x64_S64x512_S1024x512_1_0_0_1_n_n.lhsNonContracting by decide)]
  rfl
/-- … and the right operand's keeps `i`'s column on its second. -/
theorem rhs9_1 (i : S1024x512.Idx) (q : dot_S1024x64_S64x512_S1024x512_1_0_0_1_n_n.contr.Idx) :
    (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide),
    dif_pos (show (1 : Fin S64x512.rank) ∈ dot_S1024x64_S64x512_S1024x512_1_0_0_1_n_n.rhsNonContracting by decide)]
  rfl

/-- So at output `(r, x)` and contraction position `d` the left operand is read at `(r, d)` … -/
theorem lhsIdx9 (r : Fin 1024) (x : Fin 512) (d : Fin 64) :
    dot_S1024x64_S64x512_S1024x512_1_0_0_1_n_n.lhsIdx (ix2 r x)
      ((contrEquiv1 dot_S1024x64_S64x512_S1024x512_1_0_0_1_n_n 64 rfl rfl).symm d) = ix2 r d := by
  have hk := contrEquiv1_symm_val dot_S1024x64_S64x512_S1024x512_1_0_0_1_n_n 64 rfl rfl d
  refine funext fun a => Fin.ext ?_
  match a with
  | ⟨0, _⟩ => exact lhs9_0 _ _
  | ⟨1, _⟩ => exact (dot_S1024x64_S64x512_S1024x512_1_0_0_1_n_n.lhsIdx_val_of_single rfl _ _).trans hk

/-- … and the right operand at `(d, x)`. -/
theorem rhsIdx9 (r : Fin 1024) (x : Fin 512) (d : Fin 64) :
    dot_S1024x64_S64x512_S1024x512_1_0_0_1_n_n.rhsIdx (ix2 r x)
      ((contrEquiv1 dot_S1024x64_S64x512_S1024x512_1_0_0_1_n_n 64 rfl rfl).symm d) = ix2 d x := by
  have hk := contrEquiv1_symm_val dot_S1024x64_S64x512_S1024x512_1_0_0_1_n_n 64 rfl rfl d
  refine funext fun a => Fin.ext ?_
  match a with
  | ⟨0, _⟩ => exact (dot_S1024x64_S64x512_S1024x512_1_0_0_1_n_n.rhsIdx_val_of_single rfl _ _).trans hk
  | ⟨1, _⟩ => exact rhs9_1 _ _

/-- The score of query row `r` against key `x` of the block: the dot product over the 64 lanes of the query row,
    each lane scaled by the half-width word for 1/8, with the key row. -/
theorem pay9_at (q : Vec Ideal S1x1x1024x64 .bf16) (k : Vec Ideal S1x1x512x64 .bf16) (r : Fin 1024) (x : Fin 512) :
    k1_pay9 (F := Ideal) q k (ix2 r x) = ∑ d : Fin 64, (q (ix4 0 0 r d) * Spec.wEighthB) * k (ix4 0 0 x d) := by
  unfold k1_pay9
  refine (Ideal.matmul_constant_zero_apply dot_S1024x64_S64x512_S1024x512_1_0_0_1_n_n none _ _ (ix2 r x)).trans ?_
  rw [← Equiv.sum_comp (contrEquiv1 dot_S1024x64_S64x512_S1024x512_1_0_0_1_n_n 64 rfl rfl).symm]
  refine Finset.sum_congr rfl fun d _ => ?_
  rw [lhsIdx9 r x d, rhsIdx9 r x d]
  exact congrArg₂ (· * ·) (congrArg (· * Spec.wEighthB) (shapeCast_11ab_ab_apply q _ r d))
    ((transpose_ix2_apply _ _ d x).trans (shapeCast_11ab_ab_apply k _ x d))

/-! ## The running maximum, the rescaling factor, the weights, the denominator -/

/-- The new maximum of row `r`: the old one against the largest score of the row in this block (a maximum started
    from `-∞`). -/
theorem pay10_at (q : Vec Ideal S1x1x1024x64 .bf16) (k : Vec Ideal S1x1x512x64 .bf16) (mx : Vec Ideal S1024x1 .f32)
    (r : Fin 1024) :
    k1_pay10 (F := Ideal) q k mx (ix2 r 0)
      = max (mx (ix2 r 0))
          ((Finset.univ : Finset (Fin 512)).fold max Spec.wNegInf fun x => k1_pay9 (F := Ideal) q k (ix2 r x)) := by
  unfold k1_pay10
  refine (maximumf_apply _ _ _).trans (congrArg (max (mx (ix2 r 0))) ?_)
  refine (shapeCast_a_a1_apply _ _ r 0).trans ?_
  refine (Ideal.multiReduction_maximumf_single (k1_pay9 (F := Ideal) q k) 0xFF800000#32 _ _ _ (ix1 r)).trans ?_
  exact congrArg (fun f => (Finset.univ : Finset (Fin 512)).fold max Spec.wNegInf f)
    (funext fun x => congrArg (k1_pay9 (F := Ideal) q k) (lift_row _ r x))

/-- The factor that rescales the old state of row `r`: the exponential of (old maximum - new maximum). -/
theorem pay11_at (q : Vec Ideal S1x1x1024x64 .bf16) (k : Vec Ideal S1x1x512x64 .bf16) (mx mx' : Vec Ideal S1024x1 .f32)
    (r : Fin 1024) :
    k1_pay11 (F := Ideal) q k mx mx' (ix2 r 0)
      = Ideal.exp (mx' (ix2 r 0) - k1_pay10 (F := Ideal) q k mx (ix2 r 0)) := by
  unfold k1_pay11
  rfl

/-- The weight of key `x` in row `r`: the exponential of (score - new maximum). -/
theorem pay12_at (q : Vec Ideal S1x1x1024x64 .bf16) (k : Vec Ideal S1x1x512x64 .bf16) (mx : Vec Ideal S1024x1 .f32)
    (r : Fin 1024) (x : Fin 512) :
    k1_pay12 (F := Ideal) q k mx (ix2 r x)
      = Ideal.exp (k1_pay9 (F := Ideal) q k (ix2 r x) - k1_pay10 (F := Ideal) q k mx (ix2 r 0)) := by
  unfold k1_pay12
  exact congrArg (fun t => Ideal.exp (k1_pay9 (F := Ideal) q k (ix2 r x) - t))
    (broadcastTo_a1_ab_apply (k1_pay10 (F := Ideal) q k mx) _ r x)

/-- The new denominator of row `r`: the old one rescaled, plus the row's weights. -/
theorem pay13_at (q : Vec Ideal S1x1x1024x64 .bf16) (k : Vec Ideal S1x1x512x64 .bf16) (mx mx' den : Vec Ideal S1024x1 .f32)
    (r : Fin 1024) :
    k1_pay13 (F := Ideal) q k mx mx' den (ix2 r 0)
      = k1_pay11 (F := Ideal) q k mx mx' (ix2 r 0) * den (ix2 r 0) + ∑ x : Fin 512, k1_pay12 (F := Ideal) q k mx (ix2 r x) := by
  unfold k1_pay13
  refine (addf_apply _ _ _).trans
    (congrArg (k1_pay11 (F := Ideal) q k mx mx' (ix2 r 0) * den (ix2 r 0) + ·) ?_)
  refine (shapeCast_a_a1_apply _ _ r 0).trans ?_
  refine (Ideal.multiReduction_add_single (k1_pay12 (F := Ideal) q k mx) 0x00000000#32 _ _ _ (ix1 r)).trans ?_
  exact Finset.sum_congr rfl fun x _ => congrArg (k1_pay12 (F := Ideal) q k mx) (lift_row _ r x)

/-! ## The values, the numerator, the final division -/

/-- The value block without its two unit axes. -/
theorem pay8_at (v : Vec Ideal S1x1x512x64 .bf16) (x : Fin 512) (d : Fin 64) :
    k1_pay8 (F := Ideal) v (ix2 x d) = v (ix4 0 0 x d) := by
  unfold k1_pay8
  exact shapeCast_11ab_ab_apply v _ x d

/-- The weights-by-values matmul's left operand index at output `i` keeps `i`'s row on its first axis … -/
theorem lhs2_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl
/-- … and the right operand's keeps `i`'s lane on its second. -/
theorem rhs2_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-- So at output `(r, d)` and contraction position `x` the weights are read at `(r, x)` … -/
theorem lhsIdx2 (r : Fin 1024) (d : Fin 64) (x : Fin 512) :
    dot_S1024x512_S512x64_S1024x64_1_0_0_1_n_n.lhsIdx (ix2 r d)
      ((contrEquiv1 dot_S1024x512_S512x64_S1024x64_1_0_0_1_n_n 512 rfl rfl).symm x) = ix2 r x := by
  have hk := contrEquiv1_symm_val dot_S1024x512_S512x64_S1024x64_1_0_0_1_n_n 512 rfl rfl x
  refine funext fun a => Fin.ext ?_
  match a with
  | ⟨0, _⟩ => exact lhs2_0 _ _
  | ⟨1, _⟩ => exact (dot_S1024x512_S512x64_S1024x64_1_0_0_1_n_n.lhsIdx_val_of_single rfl _ _).trans hk

/-- … and the values at `(x, d)`. -/
theorem rhsIdx2 (r : Fin 1024) (d : Fin 64) (x : Fin 512) :
    dot_S1024x512_S512x64_S1024x64_1_0_0_1_n_n.rhsIdx (ix2 r d)
      ((contrEquiv1 dot_S1024x512_S512x64_S1024x64_1_0_0_1_n_n 512 rfl rfl).symm x) = ix2 x d := by
  have hk := contrEquiv1_symm_val dot_S1024x512_S512x64_S1024x64_1_0_0_1_n_n 512 rfl rfl x
  refine funext fun a => Fin.ext ?_
  match a with
  | ⟨0, _⟩ => exact (dot_S1024x512_S512x64_S1024x64_1_0_0_1_n_n.rhsIdx_val_of_single rfl _ _).trans hk
  | ⟨1, _⟩ => exact rhs2_1 _ _

/-- The new numerator of row `r` at lane `d`: the old one rescaled by the row's factor, plus the weighted value rows
    (the change of float format on the weights is the identity on extended reals). -/
theorem pay2_at (vb : FVec Ideal S512x64 .bf16) (al : FVec Ideal S1024x1 .f32) (p : FVec Ideal S1024x512 .f32)
    (num : Vec Ideal S1024x64 .f32) (r : Fin 1024) (d : Fin 64) :
    k1_pay2 (F := Ideal) vb al p num (ix2 r d)
      = al (ix2 r 0) * num (ix2 r d) + ∑ x : Fin 512, p (ix2 r x) * vb (ix2 x d) := by
  unfold k1_pay2
  refine (congrFun (shapeCast_self _ _) (ix2 r d)).trans ?_
  refine (addf_apply _ _ _).trans (congrArg₂ (· + ·) ?_ ?_)
  · exact congrArg (· * num (ix2 r d)) (broadcastTo_a1_ab_apply al _ r d)
  · refine (Ideal.matmul_constant_zero_apply dot_S1024x512_S512x64_S1024x64_1_0_0_1_n_n none _ _ (ix2 r d)).trans ?_
    rw [← Equiv.sum_comp (contrEquiv1 dot_S1024x512_S512x64_S1024x64_1_0_0_1_n_n 512 rfl rfl).symm]
    refine Finset.sum_congr rfl fun x _ => ?_
    rw [lhsIdx2 r d x, rhsIdx2 r d x]
    rfl

/-- The result of row `r` at lane `d`: numerator over denominator. -/
theorem pay4_at (num : Vec Ideal S1024x64 .f32) (den : Vec Ideal S1024x1 .f32) (r : Fin 1024) (d : Fin 64) :
    k1_pay4 (F := Ideal) num den (ix3 0 r d) = Ideal.div (num (ix2 r d)) (den (ix2 r 0)) := by
  unfold k1_pay4
  refine (shapeCast_ab_1ab_apply _ _ 0 r d).trans ?_
  exact congrArg (Ideal.div (num (ix2 r d))) (broadcastTo_a1_ab_apply den _ r d)

/-! ## The stores that only re-view a value, and the start state -/

section
variable {F : FTy → Type} [FloatOps F]

/-- A cast to the same shape stores the value itself. -/
theorem pay1_eq (w : FVec F S1024x1 .f32) : k1_pay1 (F := F) w = w := by
  unfold k1_pay1
  exact shapeCast_self w _
theorem pay3_eq (w : FVec F S1024x1 .f32) : k1_pay3 (F := F) w = w := by
  unfold k1_pay3
  exact shapeCast_self w _
end

/-- The maximum starts from `-∞`, -/
theorem pay5_at (r : Fin 1024) : k1_pay5 (F := Ideal) (ix2 r 0) = Spec.wNegInf := by
  unfold k1_pay5
  refine (congrFun (shapeCast_self _ _) (ix2 r 0)).trans ?_
  rfl
/-- the denominator from zero, -/
theorem pay6_at (r : Fin 1024) : k1_pay6 (F := Ideal) (ix2 r 0) = 0 := by
  unfold k1_pay6
  refine (congrFun (shapeCast_self _ _) (ix2 r 0)).trans ?_
  exact Ideal.ofBits_zero_f32
/-- and the numerator from zero. -/
theorem pay7_at (r : Fin 1024) (d : Fin 64) : k1_pay7 (F := Ideal) (ix2 r d) = 0 := by
  unfold k1_pay7
  refine (congrFun (shapeCast_self _ _) (ix2 r d)).trans ?_
  exact Ideal.ofBits_zero_f32

end Cert.KernelIdeal.HandPay

end
-- ==== Proof.KernelIdx.lean ====
/-
  The attention launch's blocks at an index. Its grid is 12 · 4 · 8 points in row-major order — head, block of 1024
  query rows, block of 512 key rows — so point t has head t / 32, query block t / 8 % 4 and key block t % 8. Each
  window's block at a point is a rectangle of its array: the block's entry at a coordinate is the array's entry at
  block index · block size + the coordinate, axis by axis. The three input windows read the split array of shape
  (part, head, token, lane) — queries in part 0, keys in part 1, values in part 2 — and the output window writes the
  array of shape (head, token, lane).
-/
import proofs.«139566_j53790170415805_2_alg».proof.Proof.Region1Data
import Idealize.ShloMosaic.Lib.ValueIdx

set_option maxRecDepth 16384

noncomputable section

namespace Cert.KernelIdeal.HandIdx

open Cert.KernelIdeal Cert.KernelIdeal.Gen Cert.KernelIdeal.Hand1
open Idealize.ShloMosaic Idealize.ShloMosaic.TcCoe Idealize.SL.Sem Idealize.ShloMosaic.ValueIdx
open Idealize.ShloMosaic.Pipeline (Dat Cfg Window)

variable {F : FTy → Type} [FloatOps F]

/-- The grid has 12 · 4 · 8 = 384 points. -/
theorem N1 : grid1.N = 384 := by decide

/-- Point t's head, -/
abbrev hd (t : Fin cfg1.N) : Fin 12 := ⟨t.val / 32, by have h : t.val < grid1.N := t.isLt; rw [N1] at h; omega⟩
/-- row r of its query block as a row of the 4096, -/
abbrev qrow (t : Fin cfg1.N) (r : Fin 1024) : Fin 4096 := ⟨t.val / 8 % 4 * 1024 + r.val, by have := r.isLt; omega⟩
/-- and row x of its key block. -/
abbrev krow (t : Fin cfg1.N) (x : Fin 512) : Fin 4096 := ⟨t.val % 8 * 512 + x.val, by have := x.isLt; omega⟩

/-- The printed index maps, decided once over the grid: the queries' blocks follow (0, head, query block, 0), -/
theorem idx_q : ∀ t : Fin cfg1.N, win1_0.index t (0 : Fin 4) = 0 ∧ win1_0.index t (1 : Fin 4) = t.val / 32
    ∧ win1_0.index t (2 : Fin 4) = t.val / 8 % 4 ∧ win1_0.index t (3 : Fin 4) = 0 :=
  (by decide +kernel : ∀ t : Fin grid1.N, _)

/-- the keys' (1, head, key block, 0), -/
theorem idx_k : ∀ t : Fin cfg1.N, win1_1.index t (0 : Fin 4) = 1 ∧ win1_1.index t (1 : Fin 4) = t.val / 32
    ∧ win1_1.index t (2 : Fin 4) = t.val % 8 ∧ win1_1.index t (3 : Fin 4) = 0 :=
  (by decide +kernel : ∀ t : Fin grid1.N, _)
/-- the values' (2, head, key block, 0), -/
theorem idx_v : ∀ t : Fin cfg1.N, win1_2.index t (0 : Fin 4) = 2 ∧ win1_2.index t (1 : Fin 4) = t.val / 32
    ∧ win1_2.index t (2 : Fin 4) = t.val % 8 ∧ win1_2.index t (3 : Fin 4) = 0 :=
  (by decide +kernel : ∀ t : Fin grid1.N, _)
/-- and the output's (head, query block, 0). -/
theorem idx_o : ∀ t : Fin cfg1.N, win1_3.index t (0 : Fin 3) = t.val / 32 ∧ win1_3.index t (1 : Fin 3) = t.val / 8 % 4
    ∧ win1_3.index t (2 : Fin 3) = 0 :=
  (by decide +kernel : ∀ t : Fin grid1.N, _)

section
variable (V : (c : Dev nD) → (b : Ref sig .tc) → Buf (Elt F) ((c : Thread nD τ).loc b))

/-- The queries' block at point t, entry (r, d): part 0 of the split array at (head, query row, d). -/
theorem blkQ_at (c : Dev nD) (t : Fin cfg1.N) (r : Fin 1024) (d : Fin 64) :
    iblk1 V c 0 t (ix4 (0 : Fin 1) (0 : Fin 1) r d) = V c main_v10 (ix4 (0 : Fin 3) (hd t) (qrow t r) d) := by
  obtain ⟨e0, e1, e2, e3⟩ := idx_q t
  have e : (((cfg1.win 0).blk t).view.emb (ix4 (0 : Fin 1) (0 : Fin 1) r d) : S3x12x4096x64.Idx)
      = ix4 (0 : Fin 3) (hd t) (qrow t r) d := by
    refine funext fun a => Fin.ext ?_
    match a with
    | ⟨0, _⟩ => show win1_0.index t (0 : Fin 4) * 1 + 1 * 0 = 0; omega
    | ⟨1, _⟩ => show win1_0.index t (1 : Fin 4) * 1 + 1 * 0 = t.val / 32; omega
    | ⟨2, _⟩ => show win1_0.index t (2 : Fin 4) * 1024 + 1 * r.val = t.val / 8 % 4 * 1024 + r.val; omega
    | ⟨3, _⟩ => show win1_0.index t (3 : Fin 4) * 64 + 1 * d.val = d.val; omega
  show V c main_v10 (((cfg1.win 0).blk t).view.emb (ix4 (0 : Fin 1) (0 : Fin 1) r d)) = _
  rw [e]

/-- The keys' block at point t, entry (x, d): part 1 at (head, key row, d). -/
theorem blkK_at (c : Dev nD) (t : Fin cfg1.N) (x : Fin 512) (d : Fin 64) :
    iblk1 V c 1 t (ix4 (0 : Fin 1) (0 : Fin 1) x d) = V c main_v10 (ix4 (1 : Fin 3) (hd t) (krow t x) d) := by
  obtain ⟨e0, e1, e2, e3⟩ := idx_k t
  have e : (((cfg1.win 1).blk t).view.emb (ix4 (0 : Fin 1) (0 : Fin 1) x d) : S3x12x4096x64.Idx)
      = ix4 (1 : Fin 3) (hd t) (krow t x) d := by
    refine funext fun a => Fin.ext ?_
    match a with
    | ⟨0, _⟩ => show win1_1.index t (0 : Fin 4) * 1 + 1 * 0 = 1; omega
    | ⟨1, _⟩ => show win1_1.index t (1 : Fin 4) * 1 + 1 * 0 = t.val / 32; omega
    | ⟨2, _⟩ => show win1_1.index t (2 : Fin 4) * 512 + 1 * x.val = t.val % 8 * 512 + x.val; omega
    | ⟨3, _⟩ => show win1_1.index t (3 : Fin 4) * 64 + 1 * d.val = d.val; omega
  show V c main_v10 (((cfg1.win 1).blk t).view.emb (ix4 (0 : Fin 1) (0 : Fin 1) x d)) = _
  rw [e]

/-- The values' block at point t, entry (x, d): part 2 at (head, key row, d). -/
theorem blkV_at (c : Dev nD) (t : Fin cfg1.N) (x : Fin 512) (d : Fin 64) :
    iblk1 V c 2 t (ix4 (0 : Fin 1) (0 : Fin 1) x d) = V c main_v10 (ix4 (2 : Fin 3) (hd t) (krow t x) d) := by
  obtain ⟨e0, e1, e2, e3⟩ := idx_v t
  have e : (((cfg1.win 2).blk t).view.emb (ix4 (0 : Fin 1) (0 : Fin 1) x d) : S3x12x4096x64.Idx)
      = ix4 (2 : Fin 3) (hd t) (krow t x) d := by
    refine funext fun a => Fin.ext ?_
    match a with
    | ⟨0, _⟩ => show win1_2.index t (0 : Fin 4) * 1 + 1 * 0 = 2; omega
    | ⟨1, _⟩ => show win1_2.index t (1 : Fin 4) * 1 + 1 * 0 = t.val / 32; omega
    | ⟨2, _⟩ => show win1_2.index t (2 : Fin 4) * 512 + 1 * x.val = t.val % 8 * 512 + x.val; omega
    | ⟨3, _⟩ => show win1_2.index t (3 : Fin 4) * 64 + 1 * d.val = d.val; omega
  show V c main_v10 (((cfg1.win 2).blk t).view.emb (ix4 (0 : Fin 1) (0 : Fin 1) x d)) = _
  rw [e]

end

/-- The output's block at point t sits in the launch's result array at (head, query row, d). -/
theorem blkO_emb (t : Fin cfg1.N) (r : Fin 1024) (d : Fin 64) :
    (((cfg1.win 3).blk t).view.emb (ix3 (0 : Fin 1) r d) : S12x4096x64.Idx) = ix3 (hd t) (qrow t r) d := by
  obtain ⟨e0, e1, e2⟩ := idx_o t
  refine funext fun a => Fin.ext ?_
  match a with
  | ⟨0, _⟩ => show win1_3.index t (0 : Fin 3) * 1 + 1 * 0 = t.val / 32; omega
  | ⟨1, _⟩ => show win1_3.index t (1 : Fin 3) * 1024 + 1 * r.val = t.val / 8 % 4 * 1024 + r.val; omega
  | ⟨2, _⟩ => show win1_3.index t (2 : Fin 3) * 64 + 1 * d.val = d.val; omega

end Cert.KernelIdeal.HandIdx

end
-- ==== Proof.Region1Value.lean ====
/-
  The attention region along one sweep of eight key blocks, over the extended reals.

  Fix a head `h` and a block `qi` of 1024 query rows. The eight grid points of their sweep fold the eight blocks of 512
  keys, one after the other, into the running maximum, the running denominator and the running numerator. One step of
  the body, read at a row `r` and a lane `d`, is one step of the streamed soft-max recursion: the scores of the row
  against the block's keys are the streamed scores; the new maximum is the old one against the block's largest score;
  the old denominator and numerator are rescaled by the exponential of (old maximum − new maximum) and gain the
  block's weights, or the block's weighted values. At the first point the state the step starts from is the start state
  (−∞, 0, 0), which is the recursion at zero blocks; so by induction after `j + 1` points the three buffers hold the
  recursion after `j + 1` blocks, and at the eighth the output block holds numerator over denominator: the streamed
  attention.

  The point `h · 32 + qi · 8 + j` has head `h`, query block `qi` and key block `j`: its query block is rows
  `qi · 1024 …` of the head's queries, its key and value blocks rows `j · 512 …` of the head's keys and values.
-/
import proofs.«139566_j53790170415805_2_alg».proof.Proof.Region1Pieces
import proofs.«139566_j53790170415805_2_alg».proof.Proof.AttnPayloads
import proofs.«139566_j53790170415805_2_alg».proof.Proof.AttnMath
import proofs.«139566_j53790170415805_2_alg».proof.Proof.KernelIdx

set_option maxRecDepth 16384

noncomputable section

namespace Cert.KernelIdeal.Hand1V

open Cert.KernelIdeal Cert.KernelIdeal.Gen Cert.KernelIdeal.Hand1
open Idealize.ShloMosaic Idealize.ShloMosaic.TcCoe Idealize.SL.Sem Idealize.ShloMosaic.ValueIdx
open scoped BigOperators

/-! ## One step of the body is one step of the recursion -/

/-- The row's scores against the block's keys are the streamed scores. -/
theorem score_eq (Q K W : Fin 4096 → Fin 64 → EReal) (n : Fin 4096) (j : ℕ) (hj : j < 8)
    (q : Vec Ideal S1x1x1024x64 .bf16) (k v : Vec Ideal S1x1x512x64 .bf16) (pm pd : Vec Ideal S1024x1 .f32)
    (pn : Vec Ideal S1024x64 .f32) (r : Fin 1024)
    (hq : ∀ d, q (ix4 0 0 r d) = Q n d) (hk : ∀ x d, k (ix4 0 0 x d) = K (Spec.keyOf ⟨j, hj⟩ x) d) (x : Fin 512) :
    k1_pay9 (F := Ideal) q k (ix2 r x) = Spec.scoreS Q K n (Spec.keyOf ⟨j, hj⟩ x) := by
  rw [HandPay.pay9_at]
  unfold Spec.scoreS
  exact Finset.sum_congr rfl fun d _ => by rw [hq, hk]

/-- The new maximum is the recursion's. -/
theorem max_step (Q K W : Fin 4096 → Fin 64 → EReal) (n : Fin 4096) (j : ℕ) (hj : j < 8)
    (q : Vec Ideal S1x1x1024x64 .bf16) (k v : Vec Ideal S1x1x512x64 .bf16) (pm pd : Vec Ideal S1024x1 .f32)
    (pn : Vec Ideal S1024x64 .f32) (r : Fin 1024)
    (hq : ∀ d, q (ix4 0 0 r d) = Q n d) (hk : ∀ x d, k (ix4 0 0 x d) = K (Spec.keyOf ⟨j, hj⟩ x) d) (hm : pm (ix2 r 0) = Spec.runMax Q K n j) :
    k1_pay10 (F := Ideal) q k pm (ix2 r 0) = Spec.runMax Q K n (j + 1) := by
  rw [HandPay.pay10_at, Math.runMax_succ n j hj, hm]
  unfold Spec.blockMax
  exact congrArg (fun f => max (Spec.runMax Q K n j) ((Finset.univ : Finset (Fin 512)).fold max Spec.wNegInf f))
    (funext fun x => score_eq Q K W n j hj q k v pm pd pn r hq hk x)

/-- The new denominator is the recursion's. -/
theorem den_step (Q K W : Fin 4096 → Fin 64 → EReal) (n : Fin 4096) (j : ℕ) (hj : j < 8)
    (q : Vec Ideal S1x1x1024x64 .bf16) (k v : Vec Ideal S1x1x512x64 .bf16) (pm pd : Vec Ideal S1024x1 .f32)
    (pn : Vec Ideal S1024x64 .f32) (r : Fin 1024)
    (hq : ∀ d, q (ix4 0 0 r d) = Q n d) (hk : ∀ x d, k (ix4 0 0 x d) = K (Spec.keyOf ⟨j, hj⟩ x) d) (hm : pm (ix2 r 0) = Spec.runMax Q K n j) (hd : pd (ix2 r 0) = Spec.runDen Q K n j) :
    k1_pay13 (F := Ideal) q k pm pm pd (ix2 r 0) = Spec.runDen Q K n (j + 1) := by
  rw [HandPay.pay13_at, HandPay.pay11_at, max_step Q K W n j hj q k v pm pd pn r hq hk hm, hm, hd, Math.runDen_succ n j hj]
  refine congrArg (Ideal.exp (Spec.runMax Q K n j - Spec.runMax Q K n (j + 1)) * Spec.runDen Q K n j + ·) ?_
  exact Finset.sum_congr rfl fun x _ => by
    rw [HandPay.pay12_at, score_eq Q K W n j hj q k v pm pd pn r hq hk x, max_step Q K W n j hj q k v pm pd pn r hq hk hm]

/-- The new numerator is the recursion's. -/
theorem num_step (Q K W : Fin 4096 → Fin 64 → EReal) (n : Fin 4096) (j : ℕ) (hj : j < 8)
    (q : Vec Ideal S1x1x1024x64 .bf16) (k v : Vec Ideal S1x1x512x64 .bf16) (pm pd : Vec Ideal S1024x1 .f32)
    (pn : Vec Ideal S1024x64 .f32) (r : Fin 1024)
    (hq : ∀ d, q (ix4 0 0 r d) = Q n d) (hk : ∀ x d, k (ix4 0 0 x d) = K (Spec.keyOf ⟨j, hj⟩ x) d) (hv : ∀ x d, v (ix4 0 0 x d) = W (Spec.keyOf ⟨j, hj⟩ x) d) (d : Fin 64)
    (hm : pm (ix2 r 0) = Spec.runMax Q K n j) (hn : pn (ix2 r d) = Spec.runNum Q K W n d j) :
    k1_pay2 (F := Ideal) (k1_pay8 v) (k1_pay11 q k pm pm) (k1_pay12 q k pm) pn (ix2 r d)
      = Spec.runNum Q K W n d (j + 1) := by
  rw [HandPay.pay2_at, HandPay.pay11_at, max_step Q K W n j hj q k v pm pd pn r hq hk hm, hm, hn, Math.runNum_succ n d j hj]
  refine congrArg (Ideal.exp (Spec.runMax Q K n j - Spec.runMax Q K n (j + 1)) * Spec.runNum Q K W n d j + ·) ?_
  exact Finset.sum_congr rfl fun x _ => by
    rw [HandPay.pay12_at, score_eq Q K W n j hj q k v pm pd pn r hq hk x, max_step Q K W n j hj q k v pm pd pn r hq hk hm, HandPay.pay8_at, hv]

/-! ## Where a point's blocks sit -/

-- the buffers' contents when the region is entered
variable (V : (c : Dev nD) → (b : Ref sig .tc) → Buf (Elt Ideal) ((c : Thread nD τ).loc b))

/-- The queries, keys and values of head `h`: parts 0, 1, 2 of the array of projected features. -/
def Qh (c : Dev nD) (h : Fin 12) (n : Fin 4096) (d : Fin 64) : EReal := V c main_v10 (ix4 (0 : Fin 3) h n d)
def Kh (c : Dev nD) (h : Fin 12) (m : Fin 4096) (d : Fin 64) : EReal := V c main_v10 (ix4 (1 : Fin 3) h m d)
def Vh (c : Dev nD) (h : Fin 12) (m : Fin 4096) (d : Fin 64) : EReal := V c main_v10 (ix4 (2 : Fin 3) h m d)

/-- Row `r` of query block `qi`, among the 4096 tokens. -/
def nOf (qi : Fin 4) (r : Fin 1024) : Fin 4096 := ⟨qi.val * 1024 + r.val, by have := qi.isLt; have := r.isLt; omega⟩

/-- The query block of a point of head `h` and query block `qi`. -/
theorem readQ (c : Dev nD) (h : Fin 12) (qi : Fin 4) (t : Fin cfg1.N) (h1 : t.val / 32 = h.val) (h2 : t.val / 8 % 4 = qi.val)
    (r : Fin 1024) (d : Fin 64) : iblk1 V c 0 t (ix4 0 0 r d) = Qh V c h (nOf qi r) d := by
  have e1 : HandIdx.hd t = h := Fin.ext h1
  have e2 : HandIdx.qrow t r = nOf qi r :=
    Fin.ext (by show t.val / 8 % 4 * 1024 + r.val = qi.val * 1024 + r.val; rw [h2])
  rw [HandIdx.blkQ_at V c t r d, e1, e2]
  rfl

/-- The key block of a point of head `h` at key block `j`. -/
theorem readK (c : Dev nD) (h : Fin 12) (j : ℕ) (hj : j < 8) (t : Fin cfg1.N) (h1 : t.val / 32 = h.val) (h3 : t.val % 8 = j)
    (x : Fin 512) (d : Fin 64) : iblk1 V c 1 t (ix4 0 0 x d) = Kh V c h (Spec.keyOf ⟨j, hj⟩ x) d := by
  have e1 : HandIdx.hd t = h := Fin.ext h1
  have e2 : HandIdx.krow t x = Spec.keyOf ⟨j, hj⟩ x :=
    Fin.ext (by show t.val % 8 * 512 + x.val = j * 512 + x.val; rw [h3])
  rw [HandIdx.blkK_at V c t x d, e1, e2]
  rfl

/-- The value block of a point of head `h` at key block `j`. -/
theorem readV (c : Dev nD) (h : Fin 12) (j : ℕ) (hj : j < 8) (t : Fin cfg1.N) (h1 : t.val / 32 = h.val) (h3 : t.val % 8 = j)
    (x : Fin 512) (d : Fin 64) : iblk1 V c 2 t (ix4 0 0 x d) = Vh V c h (Spec.keyOf ⟨j, hj⟩ x) d := by
  have e1 : HandIdx.hd t = h := Fin.ext h1
  have e2 : HandIdx.krow t x = Spec.keyOf ⟨j, hj⟩ x :=
    Fin.ext (by show t.val % 8 * 512 + x.val = j * 512 + x.val; rw [h3])
  rw [HandIdx.blkV_at V c t x d, e1, e2]
  rfl

/-- THE STATE ALONG A SWEEP: after the point at key block `j` of head `h` and query block `qi`, the three scratch buffers
    hold, at row `r` (and lane `d`), the streamed recursion after `j + 1` blocks. -/
theorem state_at (c : Dev nD) (h : Fin 12) (qi : Fin 4) (r : Fin 1024) (d : Fin 64) :
    ∀ (j : ℕ) (hj : j < 8) (t : Fin cfg1.N), t.val = h.val * 32 + qi.val * 8 + j →
      (outsAt1 V c t.val t.isLt).2.1 (ix2 r 0) = Spec.runMax (Qh V c h) (Kh V c h) (nOf qi r) (j + 1)
      ∧ (outsAt1 V c t.val t.isLt).2.2.1 (ix2 r 0) = Spec.runDen (Qh V c h) (Kh V c h) (nOf qi r) (j + 1)
      ∧ (outsAt1 V c t.val t.isLt).2.2.2 (ix2 r d)
          = Spec.runNum (Qh V c h) (Kh V c h) (Vh V c h) (nOf qi r) d (j + 1) := by
  intro j
  induction j with
  | zero =>
    intro hj t ht
    have hqi := qi.isLt
    have hF : t.val % 8 = 0 := by omega
    have hL : ¬t.val % 8 = 7 := by omega
    have h1 : t.val / 32 = h.val := by omega
    have h2 : t.val / 8 % 4 = qi.val := by omega
    have hq := readQ V c h qi t h1 h2 r
    have hk := readK V c h 0 hj t h1 hF
    have hv := readV V c h 0 hj t h1 hF
    rw [outsAt1_first V c t hF hL, stFirst_max V c t hF hL, stFirst_den V c t hF hL, stFirst_num V c t hF hL,
      pay3_id, pay1_id]
    exact ⟨max_step (Qh V c h) (Kh V c h) (Vh V c h) (nOf qi r) 0 hj (iblk1 V c 0 t) (iblk1 V c 1 t) (iblk1 V c 2 t) (k1_pay5 (F := Ideal)) (k1_pay6 (F := Ideal)) (k1_pay7 (F := Ideal)) r hq hk (HandPay.pay5_at r),
      den_step (Qh V c h) (Kh V c h) (Vh V c h) (nOf qi r) 0 hj (iblk1 V c 0 t) (iblk1 V c 1 t) (iblk1 V c 2 t) (k1_pay5 (F := Ideal)) (k1_pay6 (F := Ideal)) (k1_pay7 (F := Ideal)) r hq hk (HandPay.pay5_at r) (HandPay.pay6_at r),
      num_step (Qh V c h) (Kh V c h) (Vh V c h) (nOf qi r) 0 hj (iblk1 V c 0 t) (iblk1 V c 1 t) (iblk1 V c 2 t) (k1_pay5 (F := Ideal)) (k1_pay6 (F := Ideal)) (k1_pay7 (F := Ideal)) r hq hk hv d (HandPay.pay5_at r) (HandPay.pay7_at r d)⟩
  | succ j ih =>
    intro hj t ht
    have hqi := qi.isLt
    have hF : ¬t.val % 8 = 0 := by omega
    have h1 : t.val / 32 = h.val := by omega
    have h2 : t.val / 8 % 4 = qi.val := by omega
    have h3 : t.val % 8 = j + 1 := by omega
    have hq := readQ V c h qi t h1 h2 r
    have hk := readK V c h (j + 1) hj t h1 h3
    have hv := readV V c h (j + 1) hj t h1 h3
    have hlt : t.val - 1 < cfg1.N := Nat.lt_of_le_of_lt (Nat.sub_le _ _) t.isLt
    obtain ⟨im, idn, inm⟩ := ih (by omega) ⟨t.val - 1, hlt⟩ (by show t.val - 1 = _; omega)
    by_cases hL : t.val % 8 = 7
    · rw [outsAt1_last V c t hF hL, stLast_max V c t hF hL _, stLast_den V c t hF hL _, stLast_num V c t hF hL _,
        pay3_id, pay1_id]
      exact ⟨max_step (Qh V c h) (Kh V c h) (Vh V c h) (nOf qi r) (j + 1) hj (iblk1 V c 0 t) (iblk1 V c 1 t) (iblk1 V c 2 t) (outsAt1 V c (t.val - 1) hlt).2.1 (outsAt1 V c (t.val - 1) hlt).2.2.1 (outsAt1 V c (t.val - 1) hlt).2.2.2 r hq hk im,
        den_step (Qh V c h) (Kh V c h) (Vh V c h) (nOf qi r) (j + 1) hj (iblk1 V c 0 t) (iblk1 V c 1 t) (iblk1 V c 2 t) (outsAt1 V c (t.val - 1) hlt).2.1 (outsAt1 V c (t.val - 1) hlt).2.2.1 (outsAt1 V c (t.val - 1) hlt).2.2.2 r hq hk im idn,
        num_step (Qh V c h) (Kh V c h) (Vh V c h) (nOf qi r) (j + 1) hj (iblk1 V c 0 t) (iblk1 V c 1 t) (iblk1 V c 2 t) (outsAt1 V c (t.val - 1) hlt).2.1 (outsAt1 V c (t.val - 1) hlt).2.2.1 (outsAt1 V c (t.val - 1) hlt).2.2.2 r hq hk hv d im inm⟩
    · rw [outsAt1_middle V c t hF hL, stMiddle_max V c t hF hL _, stMiddle_den V c t hF hL _,
        stMiddle_num V c t hF hL _, pay3_id, pay1_id]
      exact ⟨max_step (Qh V c h) (Kh V c h) (Vh V c h) (nOf qi r) (j + 1) hj (iblk1 V c 0 t) (iblk1 V c 1 t) (iblk1 V c 2 t) (outsAt1 V c (t.val - 1) hlt).2.1 (outsAt1 V c (t.val - 1) hlt).2.2.1 (outsAt1 V c (t.val - 1) hlt).2.2.2 r hq hk im,
        den_step (Qh V c h) (Kh V c h) (Vh V c h) (nOf qi r) (j + 1) hj (iblk1 V c 0 t) (iblk1 V c 1 t) (iblk1 V c 2 t) (outsAt1 V c (t.val - 1) hlt).2.1 (outsAt1 V c (t.val - 1) hlt).2.2.1 (outsAt1 V c (t.val - 1) hlt).2.2.2 r hq hk im idn,
        num_step (Qh V c h) (Kh V c h) (Vh V c h) (nOf qi r) (j + 1) hj (iblk1 V c 0 t) (iblk1 V c 1 t) (iblk1 V c 2 t) (outsAt1 V c (t.val - 1) hlt).2.1 (outsAt1 V c (t.val - 1) hlt).2.2.1 (outsAt1 V c (t.val - 1) hlt).2.2.2 r hq hk hv d im inm⟩

/-- THE OUTPUT BLOCK after the eighth key block is the streamed attention of the row. -/
theorem out_last (c : Dev nD) (h : Fin 12) (qi : Fin 4) (r : Fin 1024) (d : Fin 64) (t : Fin cfg1.N)
    (ht : t.val = h.val * 32 + qi.val * 8 + 7) :
    (outsAt1 V c t.val t.isLt).1 (ix3 0 r d) = Spec.attnS (Qh V c h) (Kh V c h) (Vh V c h) (nOf qi r) d := by
  have hqi := qi.isLt
  have hF : ¬t.val % 8 = 0 := by omega
  have hL : t.val % 8 = 7 := by omega
  obtain ⟨-, hden, hnum⟩ := state_at V c h qi r d 7 (by norm_num) t ht
  rw [outsAt1_last V c t hF hL] at hden hnum ⊢
  rw [stLast_out V c t hF hL _, HandPay.pay4_at, hnum, hden]
  rfl

end Cert.KernelIdeal.Hand1V

end
-- ==== Proof.KernelValue.lean ====
/-
  The kernel side, assembled at the extended reals: the kernel's result array, entry by entry, is the specification's
  unblocked result of the six argument arrays.

  Entry `(0, n, c)` of the result is, through the head merge, entry `(c / 64, n, c % 64)` of the attention launch's
  output array; that entry is what the last key block of the sweep of head `c / 64` and of the query block `n / 1024`
  left in the output block at row `n % 1024`, which is the streamed attention of that head's queries, keys and values at
  `(n, c % 64)`; the head split hands the launch the projected features, so these are the specification's queries, keys
  and values of the head, and the streamed attention is the streamed result; under the precondition every argument
  entry is a real number, so the streamed result is the unblocked one.
-/
import proofs.«139566_j53790170415805_2_alg».proof.Proof.Frames0
import proofs.«139566_j53790170415805_2_alg».proof.Proof.Region0Value
import proofs.«139566_j53790170415805_2_alg».proof.Proof.Region1Cover
import proofs.«139566_j53790170415805_2_alg».proof.Proof.FiniteInputs
import proofs.«139566_j53790170415805_2_alg».proof.Proof.AttnMath
import proofs.«139566_j53790170415805_2_alg».proof.Proof.KernelEnds
import proofs.«139566_j53790170415805_2_alg».proof.Proof.Region1Value
import Idealize.ShloMosaic.Lib.ValueIdx

set_option maxRecDepth 16384

noncomputable section

namespace Cert.KernelIdeal.HandValue

open Cert.KernelIdeal Cert.KernelIdeal.Gen Cert.KernelIdeal.Hand0V Cert.KernelIdeal.Hand1
open Idealize.ShloMosaic Idealize.ShloMosaic.TcCoe Idealize.SL.Sem Idealize.ShloMosaic.ValueIdx

variable [hF : Cert.Pre_finite_inputs.Facts]
variable (m : (ℓ : Loc nD τ sig) → Buf (Elt Ideal) ℓ)

/-- The result at `(z, n, c)`. -/
theorem kernel_result_at (hpre : Cert.Pre_KernelIdeal m) (c : Dev nD) (z : Fin 1) (n : Fin 4096) (cc : Fin 768) :
    (Gen.V5 (F := Ideal) m (HandFrame.outs m) c main_v14 : S1x4096x768.Idx → EReal) (ix3 z n cc)
      = Spec.resultU (aX m c) (aPW m c) (aPB m c) (aG m c) (aB m c) (aQW m c) n cc := by
  obtain ⟨h0, h1, h2, h3, h4, h5⟩ := Cert.Finite.args_real m hpre c
  have hcc := cc.isLt
  have hn := n.isLt
  rw [HandEnds.merge_at m c z n cc]
  unfold HandFrame.X1
  rw [out_at (HandFrame.Vin1 (F := Ideal) m) c ⟨cc.val / 64, by omega⟩ n ⟨cc.val % 64, Nat.mod_lt _ (by norm_num)⟩]
  refine (Hand1V.out_last (HandFrame.Vin1 (F := Ideal) m) c ⟨cc.val / 64, by omega⟩ ⟨n.val / 1024, by omega⟩
    ⟨n.val % 1024, Nat.mod_lt _ (by norm_num)⟩ ⟨cc.val % 64, Nat.mod_lt _ (by norm_num)⟩
    ⟨lastPt ⟨cc.val / 64, by omega⟩ n, lastPt_lt _ n⟩ rfl).trans ?_
  have hnn : Hand1V.nOf ⟨n.val / 1024, by omega⟩ ⟨n.val % 1024, Nat.mod_lt _ (by norm_num)⟩ = n :=
    Fin.ext (by show n.val / 1024 * 1024 + n.val % 1024 = n.val; omega)
  have hq : Hand1V.Qh (HandFrame.Vin1 (F := Ideal) m) c ⟨cc.val / 64, by omega⟩
      = Spec.qh (aX m c) (aPW m c) (aPB m c) (aG m c) (aB m c) (aQW m c) ⟨cc.val / 64, by omega⟩ :=
    HandEnds.queries_eq m c _
  have hk : Hand1V.Kh (HandFrame.Vin1 (F := Ideal) m) c ⟨cc.val / 64, by omega⟩
      = Spec.kh (aX m c) (aPW m c) (aPB m c) (aG m c) (aB m c) (aQW m c) ⟨cc.val / 64, by omega⟩ :=
    HandEnds.keys_eq m c _
  have hv : Hand1V.Vh (HandFrame.Vin1 (F := Ideal) m) c ⟨cc.val / 64, by omega⟩
      = Spec.vh (aX m c) (aPW m c) (aPB m c) (aG m c) (aB m c) (aQW m c) ⟨cc.val / 64, by omega⟩ :=
    HandEnds.values_eq m c _
  rw [hnn, hq, hk, hv]
  exact Cert.Math.result_eq (x := aX m c) (pw := aPW m c) (pb := aPB m c) (g := aG m c) (b := aB m c) (qw := aQW m c)
    h0 h1 h2 h3 h4 h5 n cc

/-- THE KERNEL'S RESULT ARRAY, entry by entry, is the unblocked result of the six argument arrays. -/
theorem kernel_result (hpre : Cert.Pre_KernelIdeal m) (c : Dev nD) (i : S1x4096x768.Idx) :
    (Gen.V5 (F := Ideal) m (HandFrame.outs m) c main_v14 : S1x4096x768.Idx → EReal) i
      = Spec.resultU (aX m c) (aPW m c) (aPB m c) (aG m c) (aB m c) (aQW m c) ⟨(i 1).val, (i 1).isLt⟩ ⟨(i 2).val, (i 2).isLt⟩ :=
  (congrArg (Gen.V5 (F := Ideal) m (HandFrame.outs m) c main_v14 : S1x4096x768.Idx → EReal) (eq_ix3 i)).trans
    (kernel_result_at m hpre c (i 0) (i 1) (i 2))

end Cert.KernelIdeal.HandValue

end
-- ==== Proof.lean ====
/-
  A vision-transformer block — patch embedding, layer normalisation, the query/key/value projection, soft-max attention
  over twelve heads, the heads merged — computed by two kernel launches with host layout operations around them, against
  the same block written as plain array operations.

  The two programs differ in three ways, none of which the extended reals see once every input is finite. The kernel
  changes float format between its stages (the identity here). It scales the queries by 1/8 before the dot product where
  the reference scales the scores after it (the same real number). And it streams the soft-max: eight blocks of 512 keys
  folded one after the other into a running maximum, denominator and numerator, divided once at the end, where the
  reference subtracts the row maximum, exponentiates, divides each weight by the row's sum and then averages the values.
  Finiteness is used: the normalisation's variance is a non-negative real, so `variance + ε` is a positive real and its
  inverse square root is real; hence queries, keys and values are real, every score is real, every running maximum after
  the first block is real, and the streamed quotient is the average under the normalised weights.

  The frames: the reference is a straight line of host operations. The kernel program is five items — host operations,
  the first launch, host operations, the attention launch, host operations — and each launch is shown to run from the
  buffers' contents before it to their contents after it; the attention launch's three input windows read one array,
  whose holding is divided among them on entry and rejoined on exit. No rewrite was applied in printing the idealized
  kernel, so that it is the word-level kernel's sanctioned idealization holds trivially.
-/
import proofs.«139566_j53790170415805_2_alg».proof.Defs
import proofs.«139566_j53790170415805_2_alg».proof.Proof.Gen.Kernel
import proofs.«139566_j53790170415805_2_alg».proof.Proof.Gen.KernelIdeal
import proofs.«139566_j53790170415805_2_alg».proof.Proof.Gen.ReferenceIdeal
import proofs.«139566_j53790170415805_2_alg».proof.Proof.Gen.Pre_finite_inputs
import proofs.«139566_j53790170415805_2_alg».proof.Proof.RefFrame
import proofs.«139566_j53790170415805_2_alg».proof.Proof.RefValue
import proofs.«139566_j53790170415805_2_alg».proof.Proof.KFrames
import proofs.«139566_j53790170415805_2_alg».proof.Proof.Frames
import proofs.«139566_j53790170415805_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as it found them. -/
theorem frame_k : Cert.frame_Kernel := fun m ρ _ => Cert.Kernel.HandFrame.frame m ρ
/-- So does the idealized kernel program. -/
theorem frame_ki : Cert.frame_KernelIdeal := fun m ρ _ => Cert.KernelIdeal.HandFrame.frame m ρ

/-- Run from memories that agree on the six arguments, all finite, both idealized programs end, and their results are the
    same array of extended reals: each entry is the soft-max average of that token's head, the kernel's streamed form of it
    and the reference's unblocked form of it. -/
theorem algebraic : Cert.algebraic_KernelIdeal_ReferenceIdeal := by
  intro m ρ m' ρ' hpre hagree
  refine ⟨fun c => Cert.KernelIdeal.Gen.V5 m (Cert.KernelIdeal.HandFrame.outs m) c Cert.KernelIdeal.main_v14,
    Cert.KernelIdeal.HandFrame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c]
  funext i
  obtain ⟨h0, h1, h2, h3, h4, h5⟩ := hagree c
  rw [h0, h1, h2, h3, h4, h5]
  exact (Cert.KernelIdeal.HandValue.kernel_result m hpre c i).symm

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
